-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64x40 .f32) (main_arg9 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S128 .f32) (main_arg6 : FVec F S128x64 .f32) (main_arg7 : FVec F S64 .f32) (main_arg8 : FVec F S64x40 .f32) (main_arg9 : FVec F S40 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x256 .f32) (main_arg3 : FVec F S256 .f32) (main_arg4 : FVec F S256x128 .f32) (main_arg5 : FVec F S128 .f32) (main_arg6 : FVec F S128x64 .f32) (main_arg7 : FVec F S64 .f32) (main_arg8 : FVec F S64x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x256 : Shape := ⟨2, ![1, 256]⟩
abbrev S1x128 : Shape := ⟨2, ![1, 128]⟩
abbrev S1x64 : Shape := ⟨2, ![1, 64]⟩
abbrev S1x40 : Shape := ⟨2, ![1, 40]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S850000x256 : Shape := ⟨2, ![850000, 256]⟩
abbrev S850000x128 : Shape := ⟨2, ![850000, 128]⟩
abbrev S50000x64 : Shape := ⟨2, ![50000, 64]⟩
abbrev S2000x64 : Shape := ⟨2, ![2000, 64]⟩
abbrev S850000x64 : Shape := ⟨2, ![850000, 64]⟩
abbrev S50000x40 : Shape := ⟨2, ![50000, 40]⟩
abbrev S2000x40 : Shape := ⟨2, ![2000, 40]⟩
abbrev S850000x40 : Shape := ⟨2, ![850000, 40]⟩

abbrev nBuf : Space → Nat
  | .hbm => 101
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S128x256, .bf16⟩
  | .hbm, ⟨33, _⟩ => ⟨S256x128, .bf16⟩
  | .hbm, ⟨34, _⟩ => ⟨S128x64, .bf16⟩
  | .hbm, ⟨35, _⟩ => ⟨S64x40, .bf16⟩
  | .hbm, ⟨36, _⟩ => ⟨S1x256, .f32⟩
  | .hbm, ⟨37, _⟩ => ⟨S1x128, .f32⟩
  | .hbm, ⟨38, _⟩ => ⟨S1x64, .f32⟩
  | .hbm, ⟨39, _⟩ => ⟨S1x40, .f32⟩
  | .hbm, ⟨40, _⟩ => ⟨S50000x256, .bf16⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000x256, .bf16⟩
  | .hbm, ⟨50, _⟩ => ⟨S850000x256, .f32⟩
  | .hbm, ⟨51, _⟩ => ⟨S_, .f32⟩
  | .hbm, ⟨52, _⟩ => ⟨S50000x256, .f32⟩
  | .hbm, ⟨53, _⟩ => ⟨S850000x1, .i32⟩
  | .hbm, ⟨54, _⟩ => ⟨S50000x256, .f32⟩
  | .hbm, ⟨55, _⟩ => ⟨S50000x128, .bf16⟩
  | .hbm, ⟨56, _⟩ => ⟨S_, .i32⟩
  | .hbm, ⟨57, _⟩ => ⟨S850000, .i32⟩
  | .hbm, ⟨58, _⟩ => ⟨S850000, .i1⟩
  | .hbm, ⟨59, _⟩ => ⟨S_, .i32⟩
  | .hbm, ⟨60, _⟩ => ⟨S850000, .i32⟩
  | .hbm, ⟨61, _⟩ => ⟨S850000, .i32⟩
  | .hbm, ⟨62, _⟩ => ⟨S850000, .i32⟩
  | .hbm, ⟨63, _⟩ => ⟨S850000x1, .i32⟩
  | .hbm, ⟨64, _⟩ => ⟨S850000x128, .bf16⟩
  | .hbm, ⟨65, _⟩ => ⟨S850000x128, .f32⟩
  | .hbm, ⟨66, _⟩ => ⟨S_, .f32⟩
  | .hbm, ⟨67, _⟩ => ⟨S50000x128, .f32⟩
  | .hbm, ⟨68, _⟩ => ⟨S850000x1, .i32⟩
  | .hbm, ⟨69, _⟩ => ⟨S50000x128, .f32⟩
  | .hbm, ⟨70, _⟩ => ⟨S50000x64, .bf16⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .bf16⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S50000x40, .bf16⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000x40, .bf16⟩
  | .hbm, ⟨95, _⟩ => ⟨S850000x40, .f32⟩
  | .hbm, ⟨96, _⟩ => ⟨S_, .f32⟩
  | .hbm, ⟨97, _⟩ => ⟨S50000x40, .f32⟩
  | .hbm, ⟨98, _⟩ => ⟨S850000x1, .i32⟩
  | .hbm, ⟨99, _⟩ => ⟨S50000x40, .f32⟩
  | .hbm, ⟨100, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x256, .bf16⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x128, .bf16⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S128x64, .bf16⟩
  | .local _ .vmem, ⟨21, _⟩ => ⟨S2000x64, .bf16⟩
  | .local _ .vmem, ⟨22, _⟩ => ⟨S2000x64, .bf16⟩
  | .local _ .vmem, ⟨23, _⟩ => ⟨S2000x64, .f32⟩
  | .local _ .vmem, ⟨24, _⟩ => ⟨S2000x64, .f32⟩
  | .local _ .vmem, ⟨25, _⟩ => ⟨S2000x1, .f32⟩
  | .local _ .vmem, ⟨26, _⟩ => ⟨S2000x1, .f32⟩
  | .local _ .vmem, ⟨27, _⟩ => ⟨S1x64, .f32⟩
  | .local _ .vmem, ⟨28, _⟩ => ⟨S64x40, .bf16⟩
  | .local _ .vmem, ⟨29, _⟩ => ⟨S2000x40, .bf16⟩
  | .local _ .vmem, ⟨30, _⟩ => ⟨S2000x40, .bf16⟩
  | .local _ .vmem, ⟨31, _⟩ => ⟨S2000x40, .f32⟩
  | .local _ .vmem, ⟨32, _⟩ => ⟨S2000x40, .f32⟩
  | .local _ .vmem, ⟨33, _⟩ => ⟨S2000x1, .f32⟩
  | .local _ .vmem, ⟨34, _⟩ => ⟨S2000x1, .f32⟩
  | .local _ .vmem, ⟨35, _⟩ => ⟨S1x40, .f32⟩
  | .local _ .vmem, ⟨36, _⟩ => ⟨S2000x40, .f32⟩
  | .local _ .vmem, ⟨37, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_13 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x64 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x40 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x40 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x40 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bitsLt_bf16_f32 : FTy.bits .bf16 < FTy.bits .f32
  shapeCasts_S256_S1x256 : S256.ShapeCasts S1x256
  shapeCasts_S128_S1x128 : S128.ShapeCasts S1x128
  shapeCasts_S64_S1x64 : S64.ShapeCasts S1x64
  shapeCasts_S40_S1x40 : S40.ShapeCasts S1x40
  inb_S2000x128_S2000x128_0_0 : ∀ a, (![0, 0] : Fin 2 → Nat) a + S2000x128.size a ≤ S2000x128.size a
  h_S2000x128 : 0 < S2000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S2000x256_S2000x256 : S2000x256.ShapeCasts S2000x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S2000x64_S2000x64 : S2000x64.ShapeCasts S2000x64
  broadcasts_S1x64_S2000x64 : S1x64.Broadcasts S2000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  packedbf16_S2000x40_S2000x40_0_0 : (Rect.unit (s := S2000x40) ![0, 0] S2000x40.size inb_S2000x40_S2000x40_0_0).PackedRows (EltTy.packing .bf16)
  bcast_S_S50000x40 : S_.BroadcastsInDim S50000x40 (![] : Fin 0 → Fin S50000x40.rank)
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  scatter_S50000_S850000x1_S850000_n_0_0_1_wf : ScatterDims.WF S50000 S850000x1 S850000 [] [0] [0] 1
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x40_S2000x40_1_0_0_1_n_n_wf : DotDims.WF S2000x64 S64x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .bf16 = 32 ∨ (Rect.block (s := S256x128) S256x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S50000x64.size a
  hwx2_4 : ∀ i : grid2.Coords, EltTy.bits .bf16 = 32 ∨ (Rect.block (s := S50000x64) S2000x64.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x40.size a ≤ S64x40.size a
  hwx3_3 : ∀ i : grid3.Coords, EltTy.bits .bf16 = 32 ∨ (Rect.block (s := S64x40) S64x40.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x40.size a ≤ S50000x40.size a
  hwx3_4 : ∀ i : grid3.Coords, EltTy.bits .bf16 = 32 ∨ (Rect.block (s := S50000x40) S2000x40.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x40.size a ≤ S50000x40.size a
  hwx4_0 : ∀ i : grid4.Coords, EltTy.bits .f32 = 32 ∨ (Rect.block (s := S50000x40) S2000x40.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S50000x1.size a
  hwx4_1 : ∀ i : grid4.Coords, EltTy.bits .f32 = 32 ∨ (Rect.block (s := S50000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x40.size a ≤ S50000x40.size a
  hwx4_3 : ∀ i : grid4.Coords, EltTy.bits .f32 = 32 ∨ (Rect.block (s := S50000x40) S2000x40.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v19) S64x40.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x40.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v71) S2000x40.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v15) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v23) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S2000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S50000x40 : Shape := ⟨2, ![50000, 40]⟩
abbrev S850000x40 : Shape := ⟨2, ![850000, 40]⟩
abbrev S1x40 : Shape := ⟨2, ![1, 40]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x128, .f32⟩
  | 5 => ⟨S128, .f32⟩
  | 6 => ⟨S128x64, .f32⟩
  | 7 => ⟨S64, .f32⟩
  | 8 => ⟨S64x40, .f32⟩
  | 9 => ⟨S40, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x256, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x256, .f32⟩
  | 60 => ⟨S850000x1, .f32⟩
  | 61 => ⟨S850000x256, .f32⟩
  | 62 => ⟨S850000x256, .f32⟩
  | 63 => ⟨S_, .f32⟩
  | 64 => ⟨S50000x256, .f32⟩
  | 65 => ⟨S850000x1, .i32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000x128, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000x128, .f32⟩
  | 83 => ⟨S850000x1, .f32⟩
  | 84 => ⟨S850000x128, .f32⟩
  | 85 => ⟨S850000x128, .f32⟩
  | 86 => ⟨S_, .f32⟩
  | 87 => ⟨S50000x128, .f32⟩
  | 88 => ⟨S850000x1, .i32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | 96 => ⟨S50000x64, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000x64, .f32⟩
  | 106 => ⟨S850000x1, .f32⟩
  | 107 => ⟨S850000x64, .f32⟩
  | 108 => ⟨S850000x64, .f32⟩
  | 109 => ⟨S_, .f32⟩
  | 110 => ⟨S50000x64, .f32⟩
  | 111 => ⟨S850000x1, .i32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S50000x40, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x128, .f32⟩

abbrev hbmTy0_1 (i : Nat) : BufTy := match i % 128 with
  | 0 => ⟨S850000x40, .f32⟩
  | 1 => ⟨S850000x1, .f32⟩
  | 2 => ⟨S850000x40, .f32⟩
  | 3 => ⟨S850000x40, .f32⟩
  | 4 => ⟨S_, .f32⟩
  | 5 => ⟨S50000x40, .f32⟩
  | 6 => ⟨S850000x1, .i32⟩
  | 7 => ⟨S50000x40, .f32⟩
  | 8 => ⟨S1x40, .f32⟩
  | 9 => ⟨S50000x40, .f32⟩
  | 10 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call2_cst : Ref sig .tc := ⟨.hbm, 93, rfl⟩
abbrev main_call2_v0 : Ref sig .tc := ⟨.hbm, 94, rfl⟩
abbrev main_v65 : Ref sig .tc := ⟨.hbm, 95, rfl⟩
abbrev main_v66 : Ref sig .tc := ⟨.hbm, 96, rfl⟩
abbrev main_c_12 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_14 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call3_cst : Ref sig .tc := ⟨.hbm, 116, rfl⟩
abbrev main_call3_v0 : Ref sig .tc := ⟨.hbm, 117, rfl⟩
abbrev main_v83 : Ref sig .tc := ⟨.hbm, 118, rfl⟩
abbrev main_v84 : Ref sig .tc := ⟨.hbm, 119, rfl⟩
abbrev main_c_15 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_17 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x40_S50000x40_1_0_0_1_n_n_wf : DotDims.WF S50000x64 S64x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.LibLayerLaw.lean ====
/-
  Four graph-convolution layers, as plain functions on matrices of extended reals, written in two ways.

  A graph on `N` nodes is a list of `R` edges; edge `e` has a source node `s e`, and `S n` is the set of edges whose
  target is node `n`.  Every node has a weight `d n` (the inverse square root of its in-degree).  One layer takes a
  feature matrix `h`, multiplies it by a weight matrix, and for every node adds up, over the edges into it, the
  source's row scaled by the edge's coefficient `d (source) · d (target)`.

  FIRST WAY (edge coefficients): the coefficient `d (s e) · d (t e)` multiplies every gathered row, `t e` being the
  edge's target read back from the edge list.
  SECOND WAY (node scaling): the rows are scaled by `d` BEFORE they are gathered, the gathered rows are added up
  unscaled, and the sum at node `n` is scaled by `d n` afterwards.

  The two agree when every number is real: `(∑ e ∈ S n, p e · d (s e)) · d n = ∑ e ∈ S n, p e · (d (s e) · d n)` is
  distributivity of a real factor over a finite sum of reals (it fails at the infinities of the extended reals), and on
  the edges into `n` the target read back is `n`.
-/
import Mathlib
import Idealize.ShloMosaic.Lib.ValueIdx
import proofs.«171012_j1348619731442_2_alg».proof.Proof.LibFinite

noncomputable section

open scoped BigOperators

namespace Cert.Gcn

open Cert.Finite Idealize.ShloMosaic Idealize.ShloMosaic.ValueIdx

/-- A matrix of extended reals with `N` rows and `C` columns. -/
abbrev Mat (N C : Nat) : Type := Fin N → Fin C → EReal

/-- Every entry is a real number. -/
def RealMat {N C : Nat} (a : Mat N C) : Prop := ∀ n k, IsReal (a n k)

/-- Every entry of a vector is a real number. -/
def RealVec {N : Nat} (d : Fin N → EReal) : Prop := ∀ n, IsReal (d n)

/-! ## Arrays as matrices -/

/-- A two-axis array read as a matrix. -/
def toMat {N C : Nat} (a : (⟨2, ![N, C]⟩ : Shape).Idx → EReal) : Mat N C := fun n k => a (ix2 n k)

/-- A one-column array read as a vector. -/
def toCol {N : Nat} (a : (⟨2, ![N, 1]⟩ : Shape).Idx → EReal) : Fin N → EReal := fun n => a (ix2 n (0 : Fin 1))

/-- A one-row array read as a vector. -/
def toRow {C : Nat} (a : (⟨2, ![1, C]⟩ : Shape).Idx → EReal) : Fin C → EReal := fun k => a (ix2 (0 : Fin 1) k)

/-- A one-axis array read as a vector. -/
def toVec {N : Nat} (a : (⟨1, ![N]⟩ : Shape).Idx → EReal) : Fin N → EReal := fun n => a (ix1 n)

/-! ## The pieces of a layer -/

variable {N R C Ci Co : Nat}

/-- The matrix product. -/
def mm (h : Mat N Ci) (w : Mat Ci Co) : Mat N Co := fun n j => ∑ k, h n k * w k j

/-- Row `n` scaled by `d n`. -/
def scaleRows (p : Mat N C) (d : Fin N → EReal) : Mat N C := fun n j => p n j * d n

/-- SECOND WAY, the aggregation: into a zero, the unscaled sum of the source rows over the edges into `n`. -/
def sumRows (S : Fin N → Finset (Fin R)) (s : Fin R → Fin N) (g : Mat N C) : Mat N C :=
  fun n j => 0 + ∑ e ∈ S n, g (s e) j

/-- SECOND WAY, finishing a layer: scale the aggregated rows by `d`, add the bias, clamp below at zero. -/
def scaledAct (a : Mat N C) (d : Fin N → EReal) (b : Fin C → EReal) : Mat N C :=
  fun n k => max (a n k * d n + b k) 0

/-- SECOND WAY, finishing the last layer: scale by `d` and add the bias. -/
def scaledBias (a : Mat N C) (d : Fin N → EReal) (b : Fin C → EReal) : Mat N C :=
  fun n k => a n k * d n + b k

/-- FIRST WAY, the coefficient of edge `e`. -/
def edgeCoef (d : Fin N → EReal) (s t : Fin R → Fin N) : Fin R → EReal := fun e => d (s e) * d (t e)

/-- FIRST WAY, the aggregation: into a zero, the sum over the edges into `n` of the source rows times the edge's
    coefficient. -/
def sumCoefRows (S : Fin N → Finset (Fin R)) (s : Fin R → Fin N) (c : Fin R → EReal) (p : Mat N C) : Mat N C :=
  fun n j => 0 + ∑ e ∈ S n, p (s e) j * c e

/-- Adding the bias row to every row. -/
def addBias (a : Mat N C) (b : Fin C → EReal) : Mat N C := fun n k => a n k + b k

/-- Clamping below at zero. -/
def relu (a : Mat N C) : Mat N C := fun n k => max (a n k) 0

/-! ## Realness is kept -/

theorem RealMat.mm {h : Mat N Ci} {w : Mat Ci Co} (hh : RealMat h) (hw : RealMat w) : RealMat (mm h w) :=
  fun n j => IsReal.sum_univ _ fun k => (hh n k).mul (hw k j)

theorem RealMat.sumCoefRows {S : Fin N → Finset (Fin R)} {s : Fin R → Fin N} {c : Fin R → EReal} {p : Mat N C}
    (hc : ∀ e, IsReal (c e)) (hp : RealMat p) : RealMat (sumCoefRows S s c p) :=
  fun n j => isReal_zero.add (IsReal.sum _ _ fun e _ => (hp (s e) j).mul (hc e))

theorem RealMat.addBias {a : Mat N C} {b : Fin C → EReal} (ha : RealMat a) (hb : RealVec b) : RealMat (addBias a b) :=
  fun n k => (ha n k).add (hb k)

theorem RealMat.relu {a : Mat N C} (ha : RealMat a) : RealMat (relu a) :=
  fun n k => (ha n k).max isReal_zero

/-! ## The law -/

/-- A real factor moves inside a finite sum of reals. -/
theorem sum_mul_of_isReal {ι : Type*} (S : Finset ι) (f : ι → EReal) (c : EReal)
    (hf : ∀ e ∈ S, IsReal (f e)) (hc : IsReal c) : (∑ e ∈ S, f e) * c = ∑ e ∈ S, f e * c := by
  classical
  induction S using Finset.induction_on with
  | empty => simp
  | insert a S ha ih =>
    have hS : ∀ e ∈ S, IsReal (f e) := fun e he => hf e (Finset.mem_insert_of_mem he)
    rw [Finset.sum_insert ha, Finset.sum_insert ha, ← ih hS, mul_comm,
      mul_add_of_isReal hc (hf a (Finset.mem_insert_self a S)) (IsReal.sum S f hS), mul_comm c, mul_comm c]

/-- THE LAW OF ONE LAYER.  For a real matrix `p` and real node weights `d`, when the target read back on every edge into
    `n` is `n`: scaling rows by `d` before the gather and the sums by `d` after it is the sum with the edge coefficients
    `d (source) · d (target)`. -/
theorem scale_sumRows_scale (S : Fin N → Finset (Fin R)) (s t : Fin R → Fin N) (d : Fin N → EReal) (p : Mat N C)
    (ht : ∀ n, ∀ e ∈ S n, t e = n) (hd : RealVec d) (hp : RealMat p) :
    scaleRows (sumRows S s (scaleRows p d)) d = sumCoefRows S s (edgeCoef d s t) p := by
  funext n j
  simp only [scaleRows, sumRows, sumCoefRows, edgeCoef, zero_add]
  rw [sum_mul_of_isReal _ _ _ (fun e _ => (hp (s e) j).mul (hd (s e))) (hd n)]
  refine Finset.sum_congr rfl fun e he => ?_
  rw [ht n e he, mul_assoc]

/-- Finishing a layer the second way is bias-then-clamp of the first way's aggregation. -/
theorem scaledAct_eq (S : Fin N → Finset (Fin R)) (s t : Fin R → Fin N) (d : Fin N → EReal) (p : Mat N C)
    (b : Fin C → EReal) (ht : ∀ n, ∀ e ∈ S n, t e = n) (hd : RealVec d) (hp : RealMat p) :
    scaledAct (sumRows S s (scaleRows p d)) d b = relu (addBias (sumCoefRows S s (edgeCoef d s t) p) b) := by
  rw [← scale_sumRows_scale S s t d p ht hd hp]
  rfl

/-- Finishing the last layer the second way is the bias added to the first way's aggregation. -/
theorem scaledBias_eq (S : Fin N → Finset (Fin R)) (s t : Fin R → Fin N) (d : Fin N → EReal) (p : Mat N C)
    (b : Fin C → EReal) (ht : ∀ n, ∀ e ∈ S n, t e = n) (hd : RealVec d) (hp : RealMat p) :
    scaledBias (sumRows S s (scaleRows p d)) d b = addBias (sumCoefRows S s (edgeCoef d s t) p) b := by
  rw [← scale_sumRows_scale S s t d p ht hd hp]
  rfl

/-! ## Four layers -/

/-- SECOND WAY, all four layers. -/
def nodeScaled (S : Fin N → Finset (Fin R)) (s : Fin R → Fin N) (d : Fin N → EReal)
    {C0 C1 C2 C3 C4 : Nat} (x : Mat N C0) (w1 : Mat C0 C1) (b1 : Fin C1 → EReal) (w2 : Mat C1 C2) (b2 : Fin C2 → EReal)
    (w3 : Mat C2 C3) (b3 : Fin C3 → EReal) (w4 : Mat C3 C4) (b4 : Fin C4 → EReal) : Mat N C4 :=
  let a1 := sumRows S s (scaleRows (mm x w1) d)
  let a2 := sumRows S s (scaleRows (mm (scaledAct a1 d b1) w2) d)
  let a3 := sumRows S s (scaleRows (mm (scaledAct a2 d b2) w3) d)
  let a4 := sumRows S s (scaleRows (mm (scaledAct a3 d b3) w4) d)
  scaledBias a4 d b4

/-- FIRST WAY, all four layers. -/
def edgeScaled (S : Fin N → Finset (Fin R)) (s : Fin R → Fin N) (c : Fin R → EReal)
    {C0 C1 C2 C3 C4 : Nat} (x : Mat N C0) (w1 : Mat C0 C1) (b1 : Fin C1 → EReal) (w2 : Mat C1 C2) (b2 : Fin C2 → EReal)
    (w3 : Mat C2 C3) (b3 : Fin C3 → EReal) (w4 : Mat C3 C4) (b4 : Fin C4 → EReal) : Mat N C4 :=
  let h1 := relu (addBias (sumCoefRows S s c (mm x w1)) b1)
  let h2 := relu (addBias (sumCoefRows S s c (mm h1 w2)) b2)
  let h3 := relu (addBias (sumCoefRows S s c (mm h2 w3)) b3)
  addBias (sumCoefRows S s c (mm h3 w4)) b4

/-- THE TWO WAYS AGREE on real inputs. -/
theorem nodeScaled_eq_edgeScaled (S : Fin N → Finset (Fin R)) (s t : Fin R → Fin N) (d : Fin N → EReal)
    {C0 C1 C2 C3 C4 : Nat} (x : Mat N C0) (w1 : Mat C0 C1) (b1 : Fin C1 → EReal) (w2 : Mat C1 C2) (b2 : Fin C2 → EReal)
    (w3 : Mat C2 C3) (b3 : Fin C3 → EReal) (w4 : Mat C3 C4) (b4 : Fin C4 → EReal)
    (ht : ∀ n, ∀ e ∈ S n, t e = n) (hd : RealVec d) (hx : RealMat x)
    (hw1 : RealMat w1) (hb1 : RealVec b1) (hw2 : RealMat w2) (hb2 : RealVec b2)
    (hw3 : RealMat w3) (hb3 : RealVec b3) (hw4 : RealMat w4) :
    nodeScaled S s d x w1 b1 w2 b2 w3 b3 w4 b4 = edgeScaled S s (edgeCoef d s t) x w1 b1 w2 b2 w3 b3 w4 b4 := by
  have hc : ∀ e, IsReal (edgeCoef d s t e) := fun e => (hd (s e)).mul (hd (t e))
  have hp1 : RealMat (mm x w1) := hx.mm hw1
  have e1 := scaledAct_eq S s t d (mm x w1) b1 ht hd hp1
  have hh1 : RealMat (relu (addBias (sumCoefRows S s (edgeCoef d s t) (mm x w1)) b1)) :=
    ((RealMat.sumCoefRows hc hp1).addBias hb1).relu
  have hp2 := hh1.mm hw2
  have e2 := scaledAct_eq S s t d _ b2 ht hd hp2
  have hh2 := ((RealMat.sumCoefRows (S := S) (s := s) hc hp2).addBias hb2).relu
  have hp3 := hh2.mm hw3
  have e3 := scaledAct_eq S s t d _ b3 ht hd hp3
  have hh3 := ((RealMat.sumCoefRows (S := S) (s := s) hc hp3).addBias hb3).relu
  have hp4 := hh3.mm hw4
  have e4 := scaledBias_eq S s t d _ b4 ht hd hp4
  simp only [nodeScaled, edgeScaled]
  rw [e1, e2, e3, e4]

end Cert.Gcn

end
-- ==== Proof.LibRepeat.lean ====
/-
  A single row repeated down the rows of a matrix, and a single column repeated across its columns, read at an index.

  Broadcasting a `[1, n]` array to `[m, n]` gives, at `(p, q)`, the entry `(0, q)` of the operand; broadcasting an
  `[m, 1]` array to `[m, n]` gives the entry `(p, 0)`.
-/
import Idealize.ShloMosaic.Lib.Pipeline.Value
import Idealize.ShloMosaic.Lib.ValueIdx

namespace Cert.Lib.Repeat

open Idealize.ShloMosaic Idealize.ShloMosaic.ValueIdx

variable {α : Type} {m n : Nat}

/-- One row repeated down `m` rows: entry `(p, q)` is the row's entry `q`. -/
theorem rowRepeat_apply (x : (⟨2, ![1, n]⟩ : Shape).Idx → α) (hb : (⟨2, ![1, n]⟩ : Shape).Broadcasts ⟨2, ![m, n]⟩)
    (p : Fin m) (q : Fin n) : broadcastTo ⟨2, ![m, n]⟩ x hb (ix2 p q) = x (ix2 (0 : Fin 1) q) :=
  broadcastTo_apply x hb (ix2 p q) (ix2 (0 : Fin 1) q) (by
    intro a
    match a with
    | ⟨0, _⟩ => rfl
    | ⟨1, _⟩ =>
      show q.val = if n = 1 then 0 else q.val
      split
      · have := q.isLt; omega
      · rfl)

/-- One column repeated across `n` columns: entry `(p, q)` is the column's entry `p`. -/
theorem colRepeat_apply (x : (⟨2, ![m, 1]⟩ : Shape).Idx → α) (hb : (⟨2, ![m, 1]⟩ : Shape).Broadcasts ⟨2, ![m, n]⟩)
    (p : Fin m) (q : Fin n) : broadcastTo ⟨2, ![m, n]⟩ x hb (ix2 p q) = x (ix2 p (0 : Fin 1)) :=
  broadcastTo_apply x hb (ix2 p q) (ix2 p (0 : Fin 1)) (by
    intro a
    match a with
    | ⟨0, _⟩ =>
      show p.val = if m = 1 then 0 else p.val
      split
      · have := p.isLt; omega
      · rfl
    | ⟨1, _⟩ => rfl)

end Cert.Lib.Repeat
-- ==== Proof.LibPlainProduct.lean ====
/-
  A plain matrix product `[m, k] × [k, n]` read at an index, over arbitrary sizes.

  At the extended reals a kernel's matrix product into a zero accumulator and the host's product of the same operands
  are both the textbook contraction: entry `(a, b)` is `∑ c, A (a, c) · B (c, b)`.
-/
import Idealize.ShloMosaic.Lib.StackMember
import Idealize.ShloMosaic.Lib.KernelVsHost

noncomputable section

namespace Cert.PlainProduct

open Idealize.ShloMosaic Idealize.ShloMosaic.ValueIdx Idealize.ShloMosaic.StackMember

variable {m k n : Nat} {φ₁ φ₂ : FTy}

/-- A kernel's plain product into the zero splat, at `(a, b)`: the sum over the contracted coordinate. -/
theorem matmul_plain_apply (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  rw [matmul_zero_eq_dotGeneral]
  exact dotGeneral_plain_apply prec A B a b

/-- The host's plain product at `(a, b)`. -/
theorem dotGeneral_plain_apply' (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂)
    (a : Fin m) (b : Fin n) :
    Host.dotGeneral d prec A B (ix2 a b) = ∑ c : Fin k, A (ix2 a c) * B (ix2 c b) := by
  subst hd
  exact dotGeneral_plain_apply prec A B a b

end Cert.PlainProduct

end
-- ==== Proof.RegionEnds.lean ====
/-
  The first and the last region of the kernel program, each read as one function of the arrays it finds.

  Each region walks 25 points; point `t` stages rows `2000 t … 2000 t + 1999` of every 50000-row array (and the whole
  of every small array), stores one block of 2000 rows, and writes it back to rows `2000 t … 2000 t + 1999` of the
  output array.  The stored block is read at an index `(p, q)` as a term of the staged blocks' entries; the staged
  blocks' entries are the arrays' entries at row `2000 t + p`; the 25 blocks tile the output array (row `r` lies in
  the block of point `r / 2000`).  So the output array is one index-by-index function of the input arrays:

  * first region: `(x · w) (n, j) · d n` — the matrix product of the features and the first weight matrix, its
    rows scaled by the node weights;
  * last region: `a (n, k) · d n + b k` — the aggregated array with its rows scaled by the node weights and the bias
    row added.
-/
import proofs.«171012_j1348619731442_2_alg».proof.Proof.Gen.KernelIdeal.Frame
import proofs.«171012_j1348619731442_2_alg».proof.Proof.LibLayerLaw
import proofs.«171012_j1348619731442_2_alg».proof.Proof.LibRepeat
import proofs.«171012_j1348619731442_2_alg».proof.Proof.LibPlainProduct
import Idealize.ShloMosaic.Lib.Pipeline.Value
import Idealize.ShloMosaic.Lib.ValueIdx

noncomputable section

namespace Cert.KernelIdeal.RegionValue
open Cert.KernelIdeal Cert.KernelIdeal.Gen Cert.Gcn
open Idealize.ShloMosaic Idealize.ShloMosaic.TcCoe Idealize.SL.Sem Idealize.ShloMosaic.ValueIdx
open Idealize.ShloMosaic.Pipeline (Dat)
open Cert.Lib.Repeat

variable (V : (c : Dev nD) → (b : Ref sig .tc) → Buf (Elt Ideal) ((c : Thread nD τ).loc b)) (c : Dev nD)

/-- The zero offsets of a whole-buffer access, however they are spelt. -/
theorem zero_offsets : (![0, 0] : Fin 2 → Nat) = fun _ => 0 := funext fun a => by fin_cases a <;> rfl

/-! ## The first region: the product with the first weight matrix, its rows scaled -/

/-- The stored value at row `p`, column `q` of a block: the row of the features against the column of the weight
    matrix, times the row's weight.  (Both changes of format are the identity on extended reals.) -/
theorem firstPayload_apply (x0 : Vec Ideal S2000x128 .f32) (x2 : Vec Ideal S128x256 .bf16) (x5 : Vec Ideal S2000x1 .f32)
    (p : Fin 2000) (q : Fin 256) :
    k0_pay1 x0 x2 x5 (ix2 p q) = (∑ k : Fin 128, x0 (ix2 p k) * x2 (ix2 k q)) * x5 (ix2 p (0 : Fin 1)) := by
  unfold k0_pay1
  rw [truncf_apply, mulf_apply, shapeCast_self, shapeCast_self, colRepeat_apply,
    Cert.PlainProduct.matmul_plain_apply (m := 2000) (k := 128) (n := 256)
      dot_S2000x128_S128x256_S2000x256_1_0_0_1_n_n rfl none]
  rfl

/-- The array the first region leaves, index by index: the product's entry times the row's weight. -/
def firstArray (x : S50000x128.Idx → EReal) (d : S50000x1.Idx → EReal) (w : S128x256.Idx → EReal) : S50000x256.Idx → EReal :=
  fun i => scaleRows (mm (toMat (N := 50000) (C := 128) x) (toMat (N := 128) (C := 256) w)) (toCol (N := 50000) d) (i 0) (i 1)

/-- One entry of a stored block, once the staged blocks' entries are known to be the arrays': the entry of
    `firstArray` at the array's row. -/
theorem firstPoint (B0 : Vec Ideal S2000x128 .f32) (B2 : Vec Ideal S128x256 .bf16) (B1 : Vec Ideal S2000x1 .f32)
    (X : S50000x128.Idx → EReal) (D : S50000x1.Idx → EReal) (W : S128x256.Idx → EReal)
    (p : Fin 2000) (q : Fin 256) (r : Fin 50000)
    (h0 : ∀ k : Fin 128, B0 (ix2 p k) = X (ix2 r k)) (h1 : B1 (ix2 p (0 : Fin 1)) = D (ix2 r (0 : Fin 1)))
    (h2 : ∀ k : Fin 128, B2 (ix2 k q) = W (ix2 k q)) :
    k0_pay1 B0 B2 B1 (ix2 p q) = firstArray X D W (ix2 r q) := by
  rw [firstPayload_apply, h1]
  show _ = (∑ k : Fin 128, X (ix2 r k) * W (ix2 k q)) * D (ix2 r (0 : Fin 1))
  refine congrArg (· * _) (Finset.sum_congr rfl fun k _ => ?_)
  rw [h0, h2]

/-- The index maps of the first region, decided over the 25 points: the row blocks move with the point, the weight
    matrix stays. -/
theorem firstIndex : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 25 :=
  (by decide +kernel : ∀ t : Fin grid0.N, _)

/-- Row `p` of the features' block at point `t` is row `2000 t + p` of the features. -/
theorem firstBlock0_apply (t : Fin cfg0.N) (p : Fin 2000) (k : Fin 128) (r : Fin 50000) (hr : r.val = t.val * 2000 + p.val) :
    (iblk0 V c 0 t : Vec Ideal S2000x128 .f32) (ix2 p k) = (V c main_arg0 : S50000x128.Idx → EReal) (ix2 r k) := by
  obtain ⟨e0, e1, -⟩ := firstIndex t
  unfold iblk0
  rw [View.read_apply]
  show (V c main_arg0 : S50000x128.Idx → EReal) _ = V c main_arg0 _
  refine congrArg _ ?_
  funext a; apply Fin.ext
  match a with
  | ⟨0, _⟩ => show win0_0.index t (0 : Fin 2) * 2000 + 1 * p.val = r.val; omega
  | ⟨1, _⟩ => show win0_0.index t (1 : Fin 2) * 128 + 1 * k.val = k.val; omega

/-- Row `p` of the weight column's block at point `t` is row `2000 t + p` of the column. -/
theorem firstBlock1_apply (t : Fin cfg0.N) (p : Fin 2000) (r : Fin 50000) (hr : r.val = t.val * 2000 + p.val) :
    (iblk0 V c 1 t : Vec Ideal S2000x1 .f32) (ix2 p (0 : Fin 1)) = (V c main_v15 : S50000x1.Idx → EReal) (ix2 r (0 : Fin 1)) := by
  obtain ⟨-, -, e0, e1, -⟩ := firstIndex t
  unfold iblk0
  rw [View.read_apply]
  show (V c main_v15 : S50000x1.Idx → EReal) _ = V c main_v15 _
  refine congrArg _ ?_
  funext a; apply Fin.ext
  match a with
  | ⟨0, _⟩ => show win0_1.index t (0 : Fin 2) * 2000 + 1 * p.val = r.val; omega
  | ⟨1, _⟩ => show win0_1.index t (1 : Fin 2) * 1 + 1 * 0 = 0; omega

/-- The weight matrix's block at every point is the whole matrix. -/
theorem firstBlock2_apply (t : Fin cfg0.N) (k : Fin 128) (q : Fin 256) :
    (iblk0 V c 2 t : Vec Ideal S128x256 .bf16) (ix2 k q) = (V c main_v16 : S128x256.Idx → EReal) (ix2 k q) := by
  obtain ⟨-, -, -, -, e0, e1, -⟩ := firstIndex t
  unfold iblk0
  rw [View.read_apply]
  show (V c main_v16 : S128x256.Idx → EReal) _ = V c main_v16 _
  refine congrArg _ ?_
  funext a; apply Fin.ext
  match a with
  | ⟨0, _⟩ => show win0_2.index t (0 : Fin 2) * 128 + 1 * k.val = k.val; omega
  | ⟨1, _⟩ => show win0_2.index t (1 : Fin 2) * 256 + 1 * q.val = q.val; omega

/-- What point `t` writes back is block `t` of `firstArray` of the arrays the region finds. -/
theorem firstFlushed (t : Fin cfg0.N) :
    (dat0 (F := Ideal) V c).flushed 3 t
      = ((cfg0.win 3).blk t).view.read (Elt Ideal) (firstArray (V c main_arg0) (V c main_v15) (V c main_v16)) := by
  show (cfg0.win 3).cut (grid0.coords t) ((dat0 V c).after 3 t) = _
  rw [after0_3]
  unfold out0_3
  rw [View.canon_unit_zero zero_offsets]
  simp only [View.ld_unit_zero (S := S2000x128) zero_offsets, View.ld_unit_zero (S := S2000x1) zero_offsets,
    View.ld_unit_zero (S := S128x256) zero_offsets]
  obtain ⟨-, -, -, -, -, -, e0, e1, ht⟩ := firstIndex t
  funext j
  obtain ⟨p, q, rfl⟩ : ∃ (p : Fin 2000) (q : Fin 256), j = ix2 p q := ⟨j 0, j 1, eq_ix2 (n0 := 2000) (n1 := 256) j⟩
  have hx : (cfg0.win 3).xinj (grid0.coords t) (ix2 p q) = (ix2 p q : S2000x256.Idx) :=
    funext fun a => by match a with | ⟨0, _⟩ => rfl | ⟨1, _⟩ => rfl
  show k0_pay1 (iblk0 V c 0 t) (iblk0 V c 2 t) (iblk0 V c 1 t) ((cfg0.win 3).xinj (grid0.coords t) (ix2 p q)) = _
  rw [hx, View.read_apply]
  have hr : t.val * 2000 + p.val < 50000 := by have := p.isLt; omega
  have hemb : ((cfg0.win 3).blk t).view.emb (ix2 p q) = (ix2 (⟨t.val * 2000 + p.val, hr⟩ : Fin 50000) q : S50000x256.Idx) := by
    funext a; apply Fin.ext
    match a with
    | ⟨0, _⟩ => show win0_3.index t (0 : Fin 2) * 2000 + 1 * p.val = t.val * 2000 + p.val; omega
    | ⟨1, _⟩ => show win0_3.index t (1 : Fin 2) * 256 + 1 * q.val = q.val; omega
  rw [hemb]
  show _ = firstArray (V c main_arg0) (V c main_v15) (V c main_v16) (ix2 (⟨t.val * 2000 + p.val, hr⟩ : Fin 50000) q)
  exact firstPoint _ _ _ _ _ _ p q ⟨t.val * 2000 + p.val, hr⟩ (fun k => firstBlock0_apply V c t p k _ rfl)
    (firstBlock1_apply V c t p _ rfl) (fun k => firstBlock2_apply V c t k q)

/-- An index of the output array is in point `t`'s block iff each coordinate is in the block's range on its axis. -/
theorem firstMem (t : Fin cfg0.N) (i : S50000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v24).slice (win0_3.rect t)).set ↔ _
  rw [View.set_slice_whole, Rect.mem_set_unit]
  exact Iff.rfl

/-- Every row of the output array is in the block of the point `row / 2000`. -/
theorem firstCover (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  have hlt : (i 0).val / 2000 < cfg0.N := by rw [hN]; omega
  refine ⟨⟨(i 0).val / 2000, hlt⟩, flush0_3 _, ?_⟩
  obtain ⟨-, -, -, -, -, -, e0, e1, -⟩ := firstIndex ⟨(i 0).val / 2000, hlt⟩
  rw [firstMem]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, hlt⟩ (1 : Fin 2) * 256 ≤ (i 1).val
      ∧ (i 1).val < win0_3.index ⟨(i 0).val / 2000, hlt⟩ (1 : Fin 2) * 256 + 256
    rw [e1]; omega

/-- THE FIRST REGION'S OUTPUT ARRAY: the features times the first weight matrix, the rows scaled by the weights. -/
theorem region0_value :
    toMat (N := 50000) (C := 256) ((dat0 (F := Ideal) V c).arrAt 3 cfg0.N)
      = scaleRows (mm (toMat (N := 50000) (C := 128) (V c main_arg0)) (toMat (N := 128) (C := 256) (V c main_v16))) (toCol (N := 50000) (V c main_v15)) := by
  rw [(dat0 (F := Ideal) V c).arrAt_eq_of_cover 3 (firstArray (V c main_arg0) (V c main_v15) (V c main_v16))
    (fun t _ => firstFlushed V c t) firstCover]
  rfl

/-! ## The last region: scale the rows, add the bias row -/

/-- The stored value at row `p`, column `q` of a block: the aggregated entry times the row's weight, plus the
    bias entry of the column. -/
theorem finalPayload_apply (x0 : Vec Ideal S2000x40 .f32) (x1 : Vec Ideal S2000x1 .f32) (x2 : Vec Ideal S1x40 .f32)
    (p : Fin 2000) (q : Fin 40) :
    k4_pay1 x0 x1 x2 (ix2 p q) = x0 (ix2 p q) * x1 (ix2 p (0 : Fin 1)) + x2 (ix2 (0 : Fin 1) q) := by
  unfold k4_pay1
  rw [addf_apply, mulf_apply, shapeCast_self, shapeCast_self, shapeCast_self, colRepeat_apply, rowRepeat_apply]

/-- The array the last region leaves, index by index: the aggregated array's entry times the row's weight, plus the
    bias entry of the column. -/
def finalArray (a : S50000x40.Idx → EReal) (d : S50000x1.Idx → EReal) (b : S1x40.Idx → EReal) : S50000x40.Idx → EReal :=
  fun i => scaledBias (toMat (N := 50000) (C := 40) a) (toCol (N := 50000) d) (toRow (C := 40) b) (i 0) (i 1)

/-- The index maps of the last region, decided over the 25 points: the row blocks move with the point, the bias row
    stays. -/
theorem finalIndex : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 25 :=
  (by decide +kernel : ∀ t : Fin grid4.N, _)

/-- Row `p` of the aggregated array's block at point `t` is row `2000 t + p` of the array. -/
theorem finalBlock0_apply (t : Fin cfg4.N) (p : Fin 2000) (q : Fin 40) (r : Fin 50000) (hr : r.val = t.val * 2000 + p.val) :
    (iblk4 V c 0 t : Vec Ideal S2000x40 .f32) (ix2 p q) = (V c main_v71 : S50000x40.Idx → EReal) (ix2 r q) := by
  obtain ⟨e0, e1, -⟩ := finalIndex t
  unfold iblk4
  rw [View.read_apply]
  show (V c main_v71 : S50000x40.Idx → EReal) _ = V c main_v71 _
  refine congrArg _ ?_
  funext a; apply Fin.ext
  match a with
  | ⟨0, _⟩ => show win4_0.index t (0 : Fin 2) * 2000 + 1 * p.val = r.val; omega
  | ⟨1, _⟩ => show win4_0.index t (1 : Fin 2) * 40 + 1 * q.val = q.val; omega

/-- Row `p` of the weight column's block at point `t` is row `2000 t + p` of the column. -/
theorem finalBlock1_apply (t : Fin cfg4.N) (p : Fin 2000) (r : Fin 50000) (hr : r.val = t.val * 2000 + p.val) :
    (iblk4 V c 1 t : Vec Ideal S2000x1 .f32) (ix2 p (0 : Fin 1)) = (V c main_v15 : S50000x1.Idx → EReal) (ix2 r (0 : Fin 1)) := by
  obtain ⟨-, -, e0, e1, -⟩ := finalIndex t
  unfold iblk4
  rw [View.read_apply]
  show (V c main_v15 : S50000x1.Idx → EReal) _ = V c main_v15 _
  refine congrArg _ ?_
  funext a; apply Fin.ext
  match a with
  | ⟨0, _⟩ => show win4_1.index t (0 : Fin 2) * 2000 + 1 * p.val = r.val; omega
  | ⟨1, _⟩ => show win4_1.index t (1 : Fin 2) * 1 + 1 * 0 = 0; omega

/-- The bias row's block at every point is the whole row. -/
theorem finalBlock2_apply (t : Fin cfg4.N) (q : Fin 40) :
    (iblk4 V c 2 t : Vec Ideal S1x40 .f32) (ix2 (0 : Fin 1) q) = (V c main_v23 : S1x40.Idx → EReal) (ix2 (0 : Fin 1) q) := by
  obtain ⟨-, -, -, -, e0, e1, -⟩ := finalIndex t
  unfold iblk4
  rw [View.read_apply]
  show (V c main_v23 : S1x40.Idx → EReal) _ = V c main_v23 _
  refine congrArg _ ?_
  funext a; apply Fin.ext
  match a with
  | ⟨0, _⟩ => show win4_2.index t (0 : Fin 2) * 1 + 1 * 0 = 0; omega
  | ⟨1, _⟩ => show win4_2.index t (1 : Fin 2) * 40 + 1 * q.val = q.val; omega

/-- What point `t` writes back is block `t` of `finalArray` of the arrays the region finds. -/
theorem finalFlushed (t : Fin cfg4.N) :
    (dat4 (F := Ideal) V c).flushed 3 t
      = ((cfg4.win 3).blk t).view.read (Elt Ideal) (finalArray (V c main_v71) (V c main_v15) (V c main_v23)) := by
  show (cfg4.win 3).cut (grid4.coords t) ((dat4 V c).after 3 t) = _
  rw [after4_3]
  unfold out4_3
  rw [View.canon_unit_zero zero_offsets]
  simp only [View.ld_unit_zero (S := S2000x40) zero_offsets, View.ld_unit_zero (S := S2000x1) zero_offsets,
    View.ld_unit_zero (S := S1x40) zero_offsets]
  obtain ⟨-, -, -, -, -, -, e0, e1, ht⟩ := finalIndex t
  funext j
  obtain ⟨p, q, rfl⟩ : ∃ (p : Fin 2000) (q : Fin 40), j = ix2 p q := ⟨j 0, j 1, eq_ix2 (n0 := 2000) (n1 := 40) j⟩
  have hx : (cfg4.win 3).xinj (grid4.coords t) (ix2 p q) = (ix2 p q : S2000x40.Idx) :=
    funext fun a => by match a with | ⟨0, _⟩ => rfl | ⟨1, _⟩ => rfl
  show k4_pay1 (iblk4 V c 0 t) (iblk4 V c 1 t) (iblk4 V c 2 t) ((cfg4.win 3).xinj (grid4.coords t) (ix2 p q)) = _
  rw [hx, finalPayload_apply, View.read_apply]
  have hr : t.val * 2000 + p.val < 50000 := by have := p.isLt; omega
  rw [finalBlock0_apply V c t p q ⟨t.val * 2000 + p.val, hr⟩ rfl, finalBlock1_apply V c t p ⟨t.val * 2000 + p.val, hr⟩ rfl,
    finalBlock2_apply V c t q]
  have hemb : ((cfg4.win 3).blk t).view.emb (ix2 p q) = (ix2 (⟨t.val * 2000 + p.val, hr⟩ : Fin 50000) q : S50000x40.Idx) := by
    funext a; apply Fin.ext
    match a with
    | ⟨0, _⟩ => show win4_3.index t (0 : Fin 2) * 2000 + 1 * p.val = t.val * 2000 + p.val; omega
    | ⟨1, _⟩ => show win4_3.index t (1 : Fin 2) * 40 + 1 * q.val = q.val; omega
  rw [hemb]
  rfl

/-- An index of the output array is in point `t`'s block iff each coordinate is in the block's range on its axis. -/
theorem finalMem (t : Fin cfg4.N) (i : S50000x40.Idx) :
    i ∈ ((cfg4.win 3).blk t).view.set ↔ ∀ a : Fin 2, win4_3.index t a * S2000x40.size a ≤ (i a).val
      ∧ (i a).val < win4_3.index t a * S2000x40.size a + S2000x40.size a := by
  show i ∈ ((View.whole main_v72).slice (win4_3.rect t)).set ↔ _
  rw [View.set_slice_whole, Rect.mem_set_unit]
  exact Iff.rfl

/-- Every row of the output array is in the block of the point `row / 2000`. -/
theorem finalCover (i : S50000x40.Idx) :
    ∃ t : Fin cfg4.N, (cfg4.win 3).flush t = true ∧ i ∈ ((cfg4.win 3).blk t).view.set := by
  have hi0 : (i 0).val < 50000 := (i 0).isLt
  have hi1 : (i 1).val < 40 := (i 1).isLt
  have hN : cfg4.N = 25 := N_4
  have hlt : (i 0).val / 2000 < cfg4.N := by rw [hN]; omega
  refine ⟨⟨(i 0).val / 2000, hlt⟩, flush4_3 _, ?_⟩
  obtain ⟨-, -, -, -, -, -, e0, e1, -⟩ := finalIndex ⟨(i 0).val / 2000, hlt⟩
  rw [finalMem]
  intro a
  match a with
  | ⟨0, _⟩ =>
    show win4_3.index ⟨(i 0).val / 2000, hlt⟩ (0 : Fin 2) * 2000 ≤ (i 0).val
      ∧ (i 0).val < win4_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win4_3.index ⟨(i 0).val / 2000, hlt⟩ (1 : Fin 2) * 40 ≤ (i 1).val
      ∧ (i 1).val < win4_3.index ⟨(i 0).val / 2000, hlt⟩ (1 : Fin 2) * 40 + 40
    rw [e1]; omega

/-- THE LAST REGION'S OUTPUT ARRAY: the aggregated array with its rows scaled by the weights and the bias row added. -/
theorem region4_value :
    toMat (N := 50000) (C := 40) ((dat4 (F := Ideal) V c).arrAt 3 cfg4.N)
      = scaledBias (toMat (N := 50000) (C := 40) (V c main_v71)) (toCol (N := 50000) (V c main_v15)) (toRow (C := 40) (V c main_v23)) := by
  rw [(dat4 (F := Ideal) V c).arrAt_eq_of_cover 3 (finalArray (V c main_v71) (V c main_v15) (V c main_v23))
    (fun t _ => finalFlushed V c t) finalCover]
  rfl

end Cert.KernelIdeal.RegionValue
end
-- ==== Proof.RegionFused.lean ====
/-
  The three middle layers' kernels, each read as one matrix identity.

  A kernel of this family runs over 25 row blocks of 2000 rows.  At block `t` it reads rows `2000 t … 2000 t + 1999` of
  the aggregate `a` (an `[N, Ci]` array) and of the node weights `d` (an `[N, 1]` column), the whole bias row `b`
  (`[1, Ci]`) and the whole weight matrix `w` (`[Ci, Co]`), and writes the same rows of the result.  Over the extended
  reals the format changes are the identity, so entry `(r, q)` of the result is

      (∑ k, max (a r k · d r + b k) 0 · w k q) · d r,

  that is `scaleRows (mm (scaledAct a d b) w) d`.  Three steps: the stored block at one of its indices (the pointwise
  operations read through, the two repeats and the plain product by their index lemmas); each input block as rows of its
  array (the block index of a row-blocked window at point `t` is `t`, of a whole-array window `0`: decided over the 25
  points); and the row blocks cover the array (row `r` lies in block `r / 2000`), so the array ends holding the matrix.
-/
import proofs.«171012_j1348619731442_2_alg».proof.Proof.Gen.KernelIdeal.Frame
import proofs.«171012_j1348619731442_2_alg».proof.Proof.LibLayerLaw
import proofs.«171012_j1348619731442_2_alg».proof.Proof.LibRepeat
import proofs.«171012_j1348619731442_2_alg».proof.Proof.LibPlainProduct
import Idealize.ShloMosaic.Lib.Pipeline.Value
import Idealize.ShloMosaic.Lib.ValueIdx

noncomputable section

namespace Cert.KernelIdeal.RegionValue
open Cert.KernelIdeal Cert.KernelIdeal.Gen Cert.Gcn
open Idealize.ShloMosaic Idealize.ShloMosaic.TcCoe Idealize.SL.Sem Idealize.ShloMosaic.ValueIdx
open scoped BigOperators

/-- The zero word of the 32-bit format is the extended real zero. -/
theorem zero_word : (Scalar.ofBits (F := Ideal) .f32 0x00000000#32 : Ideal .f32) = 0 := Ideal.ofBits_zero_f32

/-- The offsets of a whole-buffer rectangle are all zero. -/
theorem hz : (![0, 0] : Fin 2 → Nat) = fun _ => 0 := funext fun a => by fin_cases a <;> rfl

/-- A matrix read as a two-axis array. -/
def ofMat {N C : Nat} (M : Mat N C) : (⟨2, ![N, C]⟩ : Shape).Idx → EReal :=
  fun i => M ⟨(i 0).val, idx2_lt0 i⟩ ⟨(i 1).val, idx2_lt1 i⟩

/-- Reading it back as a matrix gives the matrix. -/
theorem toMat_ofMat {N C : Nat} (M : Mat N C) : toMat (ofMat M) = M := rfl

/-- Its entry at an index whose coordinates are `r` and `q`. -/
theorem ofMat_apply {N C : Nat} (M : Mat N C) (i : (⟨2, ![N, C]⟩ : Shape).Idx) (r : Fin N) (q : Fin C)
    (h0 : (i 0).val = r.val) (h1 : (i 1).val = q.val) : ofMat M i = M r q := by
  have e0 : (⟨(i 0).val, idx2_lt0 i⟩ : Fin N) = r := Fin.ext h0
  have e1 : (⟨(i 1).val, idx2_lt1 i⟩ : Fin C) = q := Fin.ext h1
  unfold ofMat
  rw [e0, e1]

/-! ## Region 1: `[2000, 256]` row blocks against a `[256, 128]` weight -/

/-- What the body stores, at row `p` and column `q` of the block: the row of the aggregate scaled by the row's weight,
    the bias added, clamped below at zero, multiplied into column `q` of the weight matrix, and scaled by the row's
    weight again. -/
theorem pay1_apply (d : Vec Ideal S2000x1 .f32) (b : Vec Ideal S1x256 .f32) (agg : Vec Ideal S2000x256 .f32)
    (w : Vec Ideal S256x128 .bf16) (p : Fin 2000) (q : Fin 128) :
    k1_pay1 d b agg w (ix2 p q)
      = (∑ k : Fin 256, max (agg (ix2 p k) * d (ix2 p (0 : Fin 1)) + b (ix2 (0 : Fin 1) k)) 0 * w (ix2 k q))
          * d (ix2 p (0 : Fin 1)) := by
  unfold k1_pay1
  simp only [shapeCast_self]
  rw [truncf_apply, mulf_apply, Cert.Lib.Repeat.colRepeat_apply,
    Cert.PlainProduct.matmul_plain_apply dot_S2000x256_S256x128_S2000x128_1_0_0_1_n_n rfl]
  congr 1
  refine Finset.sum_congr rfl fun k _ => ?_
  rw [truncf_apply, maximumf_apply, addf_apply, mulf_apply, broadcast_apply, Cert.Lib.Repeat.colRepeat_apply,
    Cert.Lib.Repeat.rowRepeat_apply, zero_word]

variable (V : (c : Dev nD) → (b : Ref sig .tc) → Buf (Elt Ideal) ((c : Thread nD τ).loc b)) (c : Dev nD)

/-- The block indices of region 1's windows at every grid point: the row-blocked windows are at block `t` of the rows,
    the small arrays at block zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point `t`: row `p` of the block is row `2000 t + p` of the array. -/
theorem iblk1_agg (t : Fin cfg1.N) (p : Fin 2000) (r : Fin 50000) (hr : r.val = t.val * 2000 + p.val) (k : Fin 256) :
    (iblk1 (F := Ideal) V c 0 t : Vec Ideal S2000x256 .f32) (ix2 p k) = V c main_v35 (ix2 r k) := by
  obtain ⟨e0, e1, -⟩ := idx1 t
  unfold iblk1
  rw [View.read_apply]
  show V c main_v35 _ = V c main_v35 _
  congr 1
  funext a; apply Fin.ext
  match a with
  | ⟨0, _⟩ => show win1_0.index t (0 : Fin 2) * 2000 + 1 * p.val = r.val; omega
  | ⟨1, _⟩ => show win1_0.index t (1 : Fin 2) * 256 + 1 * k.val = k.val; omega

/-- The node weights' block at point `t`. -/
theorem iblk1_d (t : Fin cfg1.N) (p : Fin 2000) (r : Fin 50000) (hr : r.val = t.val * 2000 + p.val) :
    (iblk1 (F := Ideal) V c 1 t : Vec Ideal S2000x1 .f32) (ix2 p (0 : Fin 1)) = V c main_v15 (ix2 r (0 : Fin 1)) := by
  obtain ⟨-, -, e0, e1, -⟩ := idx1 t
  unfold iblk1
  rw [View.read_apply]
  show V c main_v15 _ = V c main_v15 _
  congr 1
  funext a; apply Fin.ext
  match a with
  | ⟨0, _⟩ => show win1_1.index t (0 : Fin 2) * 2000 + 1 * p.val = r.val; omega
  | ⟨1, _⟩ => show win1_1.index t (1 : Fin 2) * 1 + 1 * 0 = 0; omega

/-- The bias row's block at every point is the bias row. -/
theorem iblk1_b (t : Fin cfg1.N) (k : Fin 256) :
    (iblk1 (F := Ideal) V c 2 t : Vec Ideal S1x256 .f32) (ix2 (0 : Fin 1) k) = V c main_v20 (ix2 (0 : Fin 1) k) := by
  obtain ⟨-, -, -, -, e0, e1, -⟩ := idx1 t
  unfold iblk1
  rw [View.read_apply]
  show V c main_v20 _ = V c main_v20 _
  congr 1
  funext a; apply Fin.ext
  match a with
  | ⟨0, _⟩ => show win1_2.index t (0 : Fin 2) * 1 + 1 * 0 = 0; omega
  | ⟨1, _⟩ => show win1_2.index t (1 : Fin 2) * 256 + 1 * k.val = k.val; omega

/-- The weight matrix's block at every point is the weight matrix. -/
theorem iblk1_w (t : Fin cfg1.N) (k : Fin 256) (q : Fin 128) :
    (iblk1 (F := Ideal) V c 3 t : Vec Ideal S256x128 .bf16) (ix2 k q) = V c main_v17 (ix2 k q) := by
  obtain ⟨-, -, -, -, -, -, e0, e1, -⟩ := idx1 t
  unfold iblk1
  rw [View.read_apply]
  show V c main_v17 _ = V c main_v17 _
  congr 1
  funext a; apply Fin.ext
  match a with
  | ⟨0, _⟩ => show win1_3.index t (0 : Fin 2) * 256 + 1 * k.val = k.val; omega
  | ⟨1, _⟩ => show win1_3.index t (1 : Fin 2) * 128 + 1 * q.val = q.val; omega

/-- The layer's result as one matrix of the region's input arrays. -/
def R1 : Mat 50000 128 :=
  scaleRows (mm (scaledAct (toMat (N := 50000) (C := 256) (V c main_v35)) (toCol (N := 50000) (V c main_v15)) (toRow (C := 256) (V c main_v20)))
    (toMat (N := 256) (C := 128) (V c main_v17))) (toCol (N := 50000) (V c main_v15))

/-- What point `t` writes back is block `t` of that matrix. -/
theorem flushed1_eq (t : Fin cfg1.N) :
    (dat1 (F := Ideal) V c).flushed 4 t = ((cfg1.win 4).blk t).view.read (Elt Ideal) (ofMat (R1 V c)) := by
  show (cfg1.win 4).cut (grid1.coords t) ((dat1 V c).after 4 t) = _
  rw [after1_4]
  unfold out1_4
  rw [View.canon_unit_zero hz]
  simp only [View.ld_unit_zero (S := S2000x1) hz, View.ld_unit_zero (S := S1x256) hz,
    View.ld_unit_zero (S := S2000x256) hz, View.ld_unit_zero (S := S256x128) hz]
  funext j
  have hp : (j 0).val < 2000 := (j 0).isLt
  have hq : (j 1).val < 128 := (j 1).isLt
  have hj : (cfg1.win 4).xinj (grid1.coords t) j = ix2 (⟨(j 0).val, hp⟩ : Fin 2000) (⟨(j 1).val, hq⟩ : Fin 128) := by
    funext a
    match a with
    | ⟨0, _⟩ => rfl
    | ⟨1, _⟩ => rfl
  have ht : t.val < 25 := t.isLt
  have hr : t.val * 2000 + (j 0).val < 50000 := by omega
  obtain ⟨-, -, -, -, -, -, -, -, e0, e1⟩ := idx1 t
  show k1_pay1 (iblk1 V c 1 t) (iblk1 V c 2 t) (iblk1 V c 0 t) (iblk1 V c 3 t) ((cfg1.win 4).xinj (grid1.coords t) j) = _
  rw [hj]
  refine (pay1_apply (iblk1 V c 1 t) (iblk1 V c 2 t) (iblk1 V c 0 t) (iblk1 V c 3 t) ⟨(j 0).val, hp⟩ ⟨(j 1).val, hq⟩).trans ?_
  rw [View.read_apply]
  show _ = ofMat (R1 V c) (((cfg1.win 4).blk t).view.emb j)
  rw [ofMat_apply (R1 V c) _ ⟨t.val * 2000 + (j 0).val, hr⟩ ⟨(j 1).val, hq⟩
    (by show win1_4.index t (0 : Fin 2) * 2000 + 1 * (j 0).val = t.val * 2000 + (j 0).val; omega)
    (by show win1_4.index t (1 : Fin 2) * 128 + 1 * (j 1).val = (j 1).val; omega)]
  simp only [iblk1_agg V c t ⟨(j 0).val, hp⟩ ⟨t.val * 2000 + (j 0).val, hr⟩ rfl,
    iblk1_d V c t ⟨(j 0).val, hp⟩ ⟨t.val * 2000 + (j 0).val, hr⟩ rfl, iblk1_b V c t, iblk1_w V c t]
  rfl

/-- An index of the output array is in point `t`'s block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v36).slice (win1_4.rect t)).set ↔ _
  rw [View.set_slice_whole, Rect.mem_set_unit]
  exact Iff.rfl

/-- Every row of the output array is in the block of the point `row / 2000`. -/
theorem cover1 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have ht : (i 0).val / 2000 < 25 := by omega
  refine ⟨⟨(i 0).val / 2000, ht⟩, flush1_4 _, ?_⟩
  rw [mem_blk1]
  obtain ⟨-, -, -, -, -, -, -, -, e0, e1⟩ := idx1 ⟨(i 0).val / 2000, ht⟩
  intro a
  match a with
  | ⟨0, _⟩ =>
    show win1_4.index ⟨(i 0).val / 2000, ht⟩ (0 : Fin 2) * 2000 ≤ (i 0).val ∧ (i 0).val < win1_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, ht⟩ (1 : Fin 2) * 128 ≤ (i 1).val ∧ (i 1).val < win1_4.index ⟨(i 0).val / 2000, ht⟩ (1 : Fin 2) * 128 + 128
    rw [e1]; omega

/-- THE OUTPUT ARRAY OF REGION 1, as one matrix of the region's input arrays. -/
theorem region1_value :
    toMat (N := 50000) (C := 128) ((dat1 (F := Ideal) V c).arrAt 4 cfg1.N)
      = scaleRows (mm (scaledAct (toMat (N := 50000) (C := 256) (V c main_v35)) (toCol (N := 50000) (V c main_v15)) (toRow (C := 256) (V c main_v20)))
          (toMat (N := 256) (C := 128) (V c main_v17))) (toCol (N := 50000) (V c main_v15)) := by
  have h := (dat1 (F := Ideal) V c).arrAt_eq_of_cover 4 (ofMat (R1 V c)) (fun t _ => flushed1_eq V c t) cover1
  rw [h]
  rfl

end Cert.KernelIdeal.RegionValue
end
-- ==== Proof.RegionFused2.lean ====
/-
  The kernel of the same family at `[N, 128]` aggregates and a `[128, 64]` weight matrix: entry `(r, q)` of its result is
  `(∑ k, max (a r k · d r + b k) 0 · w k q) · d r`, by the same three steps as at the first size (the stored block at an
  index, each input block as rows of its array, the row blocks cover the array).
-/
import proofs.«171012_j1348619731442_2_alg».proof.Proof.RegionFused

noncomputable section

namespace Cert.KernelIdeal.RegionValue
open Cert.KernelIdeal Cert.KernelIdeal.Gen Cert.Gcn
open Idealize.ShloMosaic Idealize.ShloMosaic.TcCoe Idealize.SL.Sem Idealize.ShloMosaic.ValueIdx
open scoped BigOperators

/-! ## Region 2: `[2000, 128]` row blocks against a `[128, 64]` weight -/

/-- What the body stores, at row `p` and column `q` of the block: the row of the aggregate scaled by the row's weight,
    the bias added, clamped below at zero, multiplied into column `q` of the weight matrix, and scaled by the row's
    weight again. -/
theorem pay2_apply (d : Vec Ideal S2000x1 .f32) (b : Vec Ideal S1x128 .f32) (agg : Vec Ideal S2000x128 .f32)
    (w : Vec Ideal S128x64 .bf16) (p : Fin 2000) (q : Fin 64) :
    k2_pay1 d b agg w (ix2 p q)
      = (∑ k : Fin 128, max (agg (ix2 p k) * d (ix2 p (0 : Fin 1)) + b (ix2 (0 : Fin 1) k)) 0 * w (ix2 k q))
          * d (ix2 p (0 : Fin 1)) := by
  unfold k2_pay1
  simp only [shapeCast_self]
  rw [truncf_apply, mulf_apply, Cert.Lib.Repeat.colRepeat_apply,
    Cert.PlainProduct.matmul_plain_apply dot_S2000x128_S128x64_S2000x64_1_0_0_1_n_n rfl]
  congr 1
  refine Finset.sum_congr rfl fun k _ => ?_
  rw [truncf_apply, maximumf_apply, addf_apply, mulf_apply, broadcast_apply, Cert.Lib.Repeat.colRepeat_apply,
    Cert.Lib.Repeat.rowRepeat_apply, zero_word]

variable (V : (c : Dev nD) → (b : Ref sig .tc) → Buf (Elt Ideal) ((c : Thread nD τ).loc b)) (c : Dev nD)

/-- The block indices of region 2's windows at every grid point: the row-blocked windows are at block `t` of the rows,
    the small arrays at block zero. -/
theorem blockIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The aggregate's block at point `t`: row `p` of the block is row `2000 t + p` of the array. -/
theorem iblk2_agg (t : Fin cfg2.N) (p : Fin 2000) (r : Fin 50000) (hr : r.val = t.val * 2000 + p.val) (k : Fin 128) :
    (iblk2 (F := Ideal) V c 0 t : Vec Ideal S2000x128 .f32) (ix2 p k) = V c main_v47 (ix2 r k) := by
  obtain ⟨e0, e1, -⟩ := blockIdx2 t
  unfold iblk2
  rw [View.read_apply]
  show V c main_v47 _ = V c main_v47 _
  congr 1
  funext a; apply Fin.ext
  match a with
  | ⟨0, _⟩ => show win2_0.index t (0 : Fin 2) * 2000 + 1 * p.val = r.val; omega
  | ⟨1, _⟩ => show win2_0.index t (1 : Fin 2) * 128 + 1 * k.val = k.val; omega

/-- The node weights' block at point `t`. -/
theorem iblk2_d (t : Fin cfg2.N) (p : Fin 2000) (r : Fin 50000) (hr : r.val = t.val * 2000 + p.val) :
    (iblk2 (F := Ideal) V c 1 t : Vec Ideal S2000x1 .f32) (ix2 p (0 : Fin 1)) = V c main_v15 (ix2 r (0 : Fin 1)) := by
  obtain ⟨-, -, e0, e1, -⟩ := blockIdx2 t
  unfold iblk2
  rw [View.read_apply]
  show V c main_v15 _ = V c main_v15 _
  congr 1
  funext a; apply Fin.ext
  match a with
  | ⟨0, _⟩ => show win2_1.index t (0 : Fin 2) * 2000 + 1 * p.val = r.val; omega
  | ⟨1, _⟩ => show win2_1.index t (1 : Fin 2) * 1 + 1 * 0 = 0; omega

/-- The bias row's block at every point is the bias row. -/
theorem iblk2_b (t : Fin cfg2.N) (k : Fin 128) :
    (iblk2 (F := Ideal) V c 2 t : Vec Ideal S1x128 .f32) (ix2 (0 : Fin 1) k) = V c main_v21 (ix2 (0 : Fin 1) k) := by
  obtain ⟨-, -, -, -, e0, e1, -⟩ := blockIdx2 t
  unfold iblk2
  rw [View.read_apply]
  show V c main_v21 _ = V c main_v21 _
  congr 1
  funext a; apply Fin.ext
  match a with
  | ⟨0, _⟩ => show win2_2.index t (0 : Fin 2) * 1 + 1 * 0 = 0; omega
  | ⟨1, _⟩ => show win2_2.index t (1 : Fin 2) * 128 + 1 * k.val = k.val; omega

/-- The weight matrix's block at every point is the weight matrix. -/
theorem iblk2_w (t : Fin cfg2.N) (k : Fin 128) (q : Fin 64) :
    (iblk2 (F := Ideal) V c 3 t : Vec Ideal S128x64 .bf16) (ix2 k q) = V c main_v18 (ix2 k q) := by
  obtain ⟨-, -, -, -, -, -, e0, e1, -⟩ := blockIdx2 t
  unfold iblk2
  rw [View.read_apply]
  show V c main_v18 _ = V c main_v18 _
  congr 1
  funext a; apply Fin.ext
  match a with
  | ⟨0, _⟩ => show win2_3.index t (0 : Fin 2) * 128 + 1 * k.val = k.val; omega
  | ⟨1, _⟩ => show win2_3.index t (1 : Fin 2) * 64 + 1 * q.val = q.val; omega

/-- The layer's result as one matrix of the region's input arrays. -/
def R2 : Mat 50000 64 :=
  scaleRows (mm (scaledAct (toMat (N := 50000) (C := 128) (V c main_v47)) (toCol (N := 50000) (V c main_v15)) (toRow (C := 128) (V c main_v21)))
    (toMat (N := 128) (C := 64) (V c main_v18))) (toCol (N := 50000) (V c main_v15))

/-- What point `t` writes back is block `t` of that matrix. -/
theorem flushed2_eq (t : Fin cfg2.N) :
    (dat2 (F := Ideal) V c).flushed 4 t = ((cfg2.win 4).blk t).view.read (Elt Ideal) (ofMat (R2 V c)) := by
  show (cfg2.win 4).cut (grid2.coords t) ((dat2 V c).after 4 t) = _
  rw [after2_4]
  unfold out2_4
  rw [View.canon_unit_zero hz]
  simp only [View.ld_unit_zero (S := S2000x1) hz, View.ld_unit_zero (S := S1x128) hz,
    View.ld_unit_zero (S := S2000x128) hz, View.ld_unit_zero (S := S128x64) hz]
  funext j
  have hp : (j 0).val < 2000 := (j 0).isLt
  have hq : (j 1).val < 64 := (j 1).isLt
  have hj : (cfg2.win 4).xinj (grid2.coords t) j = ix2 (⟨(j 0).val, hp⟩ : Fin 2000) (⟨(j 1).val, hq⟩ : Fin 64) := by
    funext a
    match a with
    | ⟨0, _⟩ => rfl
    | ⟨1, _⟩ => rfl
  have ht : t.val < 25 := t.isLt
  have hr : t.val * 2000 + (j 0).val < 50000 := by omega
  obtain ⟨-, -, -, -, -, -, -, -, e0, e1⟩ := blockIdx2 t
  show k2_pay1 (iblk2 V c 1 t) (iblk2 V c 2 t) (iblk2 V c 0 t) (iblk2 V c 3 t) ((cfg2.win 4).xinj (grid2.coords t) j) = _
  rw [hj]
  refine (pay2_apply (iblk2 V c 1 t) (iblk2 V c 2 t) (iblk2 V c 0 t) (iblk2 V c 3 t) ⟨(j 0).val, hp⟩ ⟨(j 1).val, hq⟩).trans ?_
  rw [View.read_apply]
  show _ = ofMat (R2 V c) (((cfg2.win 4).blk t).view.emb j)
  rw [ofMat_apply (R2 V c) _ ⟨t.val * 2000 + (j 0).val, hr⟩ ⟨(j 1).val, hq⟩
    (by show win2_4.index t (0 : Fin 2) * 2000 + 1 * (j 0).val = t.val * 2000 + (j 0).val; omega)
    (by show win2_4.index t (1 : Fin 2) * 64 + 1 * (j 1).val = (j 1).val; omega)]
  simp only [iblk2_agg V c t ⟨(j 0).val, hp⟩ ⟨t.val * 2000 + (j 0).val, hr⟩ rfl,
    iblk2_d V c t ⟨(j 0).val, hp⟩ ⟨t.val * 2000 + (j 0).val, hr⟩ rfl, iblk2_b V c t, iblk2_w V c t]
  rfl

/-- An index of the output array is in point `t`'s block iff each coordinate is in the block's range on its axis. -/
theorem mem_blk2 (t : Fin cfg2.N) (i : S50000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v48).slice (win2_4.rect t)).set ↔ _
  rw [View.set_slice_whole, Rect.mem_set_unit]
  exact Iff.rfl

/-- Every row of the output array is in the block of the point `row / 2000`. -/
theorem cover2 (i : S50000x64.Idx) : ∃ t : Fin cfg2.N, (cfg2.win 4).flush t = true ∧ i ∈ ((cfg2.win 4).blk t).view.set := by
  have hi0 : (i 0).val < 50000 := (i 0).isLt
  have hi1 : (i 1).val < 64 := (i 1).isLt
  have ht : (i 0).val / 2000 < 25 := by omega
  refine ⟨⟨(i 0).val / 2000, ht⟩, flush2_4 _, ?_⟩
  rw [mem_blk2]
  obtain ⟨-, -, -, -, -, -, -, -, e0, e1⟩ := blockIdx2 ⟨(i 0).val / 2000, ht⟩
  intro a
  match a with
  | ⟨0, _⟩ =>
    show win2_4.index ⟨(i 0).val / 2000, ht⟩ (0 : Fin 2) * 2000 ≤ (i 0).val ∧ (i 0).val < win2_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_4.index ⟨(i 0).val / 2000, ht⟩ (1 : Fin 2) * 64 ≤ (i 1).val ∧ (i 1).val < win2_4.index ⟨(i 0).val / 2000, ht⟩ (1 : Fin 2) * 64 + 64
    rw [e1]; omega

/-- THE OUTPUT ARRAY OF REGION 2, as one matrix of the region's input arrays. -/
theorem region2_value :
    toMat (N := 50000) (C := 64) ((dat2 (F := Ideal) V c).arrAt 4 cfg2.N)
      = scaleRows (mm (scaledAct (toMat (N := 50000) (C := 128) (V c main_v47)) (toCol (N := 50000) (V c main_v15)) (toRow (C := 128) (V c main_v21)))
          (toMat (N := 128) (C := 64) (V c main_v18))) (toCol (N := 50000) (V c main_v15)) := by
  have h := (dat2 (F := Ideal) V c).arrAt_eq_of_cover 4 (ofMat (R2 V c)) (fun t _ => flushed2_eq V c t) cover2
  rw [h]
  rfl

end Cert.KernelIdeal.RegionValue
end
-- ==== Proof.RegionFused3.lean ====
/-
  The kernel of the same family at `[N, 64]` aggregates and a `[64, 40]` weight matrix: entry `(r, q)` of its result is
  `(∑ k, max (a r k · d r + b k) 0 · w k q) · d r`, by the same three steps as at the first size (the stored block at an
  index, each input block as rows of its array, the row blocks cover the array).
-/
import proofs.«171012_j1348619731442_2_alg».proof.Proof.RegionFused

noncomputable section

namespace Cert.KernelIdeal.RegionValue
open Cert.KernelIdeal Cert.KernelIdeal.Gen Cert.Gcn
open Idealize.ShloMosaic Idealize.ShloMosaic.TcCoe Idealize.SL.Sem Idealize.ShloMosaic.ValueIdx
open scoped BigOperators

/-! ## Region 3: `[2000, 64]` row blocks against a `[64, 40]` weight -/

/-- What the body stores, at row `p` and column `q` of the block: the row of the aggregate scaled by the row's weight,
    the bias added, clamped below at zero, multiplied into column `q` of the weight matrix, and scaled by the row's
    weight again. -/
theorem pay3_apply (d : Vec Ideal S2000x1 .f32) (b : Vec Ideal S1x64 .f32) (agg : Vec Ideal S2000x64 .f32)
    (w : Vec Ideal S64x40 .bf16) (p : Fin 2000) (q : Fin 40) :
    k3_pay1 d b agg w (ix2 p q)
      = (∑ k : Fin 64, max (agg (ix2 p k) * d (ix2 p (0 : Fin 1)) + b (ix2 (0 : Fin 1) k)) 0 * w (ix2 k q))
          * d (ix2 p (0 : Fin 1)) := by
  unfold k3_pay1
  simp only [shapeCast_self]
  rw [truncf_apply, mulf_apply, Cert.Lib.Repeat.colRepeat_apply,
    Cert.PlainProduct.matmul_plain_apply dot_S2000x64_S64x40_S2000x40_1_0_0_1_n_n rfl]
  congr 1
  refine Finset.sum_congr rfl fun k _ => ?_
  rw [truncf_apply, maximumf_apply, addf_apply, mulf_apply, broadcast_apply, Cert.Lib.Repeat.colRepeat_apply,
    Cert.Lib.Repeat.rowRepeat_apply, zero_word]

variable (V : (c : Dev nD) → (b : Ref sig .tc) → Buf (Elt Ideal) ((c : Thread nD τ).loc b)) (c : Dev nD)

/-- The block indices of region 3's windows at every grid point: the row-blocked windows are at block `t` of the rows,
    the small arrays at block zero. -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregate's block at point `t`: row `p` of the block is row `2000 t + p` of the array. -/
theorem iblk3_agg (t : Fin cfg3.N) (p : Fin 2000) (r : Fin 50000) (hr : r.val = t.val * 2000 + p.val) (k : Fin 64) :
    (iblk3 (F := Ideal) V c 0 t : Vec Ideal S2000x64 .f32) (ix2 p k) = V c main_v59 (ix2 r k) := by
  obtain ⟨e0, e1, -⟩ := blockIdx3 t
  unfold iblk3
  rw [View.read_apply]
  show V c main_v59 _ = V c main_v59 _
  congr 1
  funext a; apply Fin.ext
  match a with
  | ⟨0, _⟩ => show win3_0.index t (0 : Fin 2) * 2000 + 1 * p.val = r.val; omega
  | ⟨1, _⟩ => show win3_0.index t (1 : Fin 2) * 64 + 1 * k.val = k.val; omega

/-- The node weights' block at point `t`. -/
theorem iblk3_d (t : Fin cfg3.N) (p : Fin 2000) (r : Fin 50000) (hr : r.val = t.val * 2000 + p.val) :
    (iblk3 (F := Ideal) V c 1 t : Vec Ideal S2000x1 .f32) (ix2 p (0 : Fin 1)) = V c main_v15 (ix2 r (0 : Fin 1)) := by
  obtain ⟨-, -, e0, e1, -⟩ := blockIdx3 t
  unfold iblk3
  rw [View.read_apply]
  show V c main_v15 _ = V c main_v15 _
  congr 1
  funext a; apply Fin.ext
  match a with
  | ⟨0, _⟩ => show win3_1.index t (0 : Fin 2) * 2000 + 1 * p.val = r.val; omega
  | ⟨1, _⟩ => show win3_1.index t (1 : Fin 2) * 1 + 1 * 0 = 0; omega

/-- The bias row's block at every point is the bias row. -/
theorem iblk3_b (t : Fin cfg3.N) (k : Fin 64) :
    (iblk3 (F := Ideal) V c 2 t : Vec Ideal S1x64 .f32) (ix2 (0 : Fin 1) k) = V c main_v22 (ix2 (0 : Fin 1) k) := by
  obtain ⟨-, -, -, -, e0, e1, -⟩ := blockIdx3 t
  unfold iblk3
  rw [View.read_apply]
  show V c main_v22 _ = V c main_v22 _
  congr 1
  funext a; apply Fin.ext
  match a with
  | ⟨0, _⟩ => show win3_2.index t (0 : Fin 2) * 1 + 1 * 0 = 0; omega
  | ⟨1, _⟩ => show win3_2.index t (1 : Fin 2) * 64 + 1 * k.val = k.val; omega

/-- The weight matrix's block at every point is the weight matrix. -/
theorem iblk3_w (t : Fin cfg3.N) (k : Fin 64) (q : Fin 40) :
    (iblk3 (F := Ideal) V c 3 t : Vec Ideal S64x40 .bf16) (ix2 k q) = V c main_v19 (ix2 k q) := by
  obtain ⟨-, -, -, -, -, -, e0, e1, -⟩ := blockIdx3 t
  unfold iblk3
  rw [View.read_apply]
  show V c main_v19 _ = V c main_v19 _
  congr 1
  funext a; apply Fin.ext
  match a with
  | ⟨0, _⟩ => show win3_3.index t (0 : Fin 2) * 64 + 1 * k.val = k.val; omega
  | ⟨1, _⟩ => show win3_3.index t (1 : Fin 2) * 40 + 1 * q.val = q.val; omega

/-- The layer's result as one matrix of the region's input arrays. -/
def R3 : Mat 50000 40 :=
  scaleRows (mm (scaledAct (toMat (N := 50000) (C := 64) (V c main_v59)) (toCol (N := 50000) (V c main_v15)) (toRow (C := 64) (V c main_v22)))
    (toMat (N := 64) (C := 40) (V c main_v19))) (toCol (N := 50000) (V c main_v15))

/-- What point `t` writes back is block `t` of that matrix. -/
theorem flushed3_eq (t : Fin cfg3.N) :
    (dat3 (F := Ideal) V c).flushed 4 t = ((cfg3.win 4).blk t).view.read (Elt Ideal) (ofMat (R3 V c)) := by
  show (cfg3.win 4).cut (grid3.coords t) ((dat3 V c).after 4 t) = _
  rw [after3_4]
  unfold out3_4
  rw [View.canon_unit_zero hz]
  simp only [View.ld_unit_zero (S := S2000x1) hz, View.ld_unit_zero (S := S1x64) hz,
    View.ld_unit_zero (S := S2000x64) hz, View.ld_unit_zero (S := S64x40) hz]
  funext j
  have hp : (j 0).val < 2000 := (j 0).isLt
  have hq : (j 1).val < 40 := (j 1).isLt
  have hj : (cfg3.win 4).xinj (grid3.coords t) j = ix2 (⟨(j 0).val, hp⟩ : Fin 2000) (⟨(j 1).val, hq⟩ : Fin 40) := by
    funext a
    match a with
    | ⟨0, _⟩ => rfl
    | ⟨1, _⟩ => rfl
  have ht : t.val < 25 := t.isLt
  have hr : t.val * 2000 + (j 0).val < 50000 := by omega
  obtain ⟨-, -, -, -, -, -, -, -, e0, e1⟩ := blockIdx3 t
  show k3_pay1 (iblk3 V c 1 t) (iblk3 V c 2 t) (iblk3 V c 0 t) (iblk3 V c 3 t) ((cfg3.win 4).xinj (grid3.coords t) j) = _
  rw [hj]
  refine (pay3_apply (iblk3 V c 1 t) (iblk3 V c 2 t) (iblk3 V c 0 t) (iblk3 V c 3 t) ⟨(j 0).val, hp⟩ ⟨(j 1).val, hq⟩).trans ?_
  rw [View.read_apply]
  show _ = ofMat (R3 V c) (((cfg3.win 4).blk t).view.emb j)
  rw [ofMat_apply (R3 V c) _ ⟨t.val * 2000 + (j 0).val, hr⟩ ⟨(j 1).val, hq⟩
    (by show win3_4.index t (0 : Fin 2) * 2000 + 1 * (j 0).val = t.val * 2000 + (j 0).val; omega)
    (by show win3_4.index t (1 : Fin 2) * 40 + 1 * (j 1).val = (j 1).val; omega)]
  simp only [iblk3_agg V c t ⟨(j 0).val, hp⟩ ⟨t.val * 2000 + (j 0).val, hr⟩ rfl,
    iblk3_d V c t ⟨(j 0).val, hp⟩ ⟨t.val * 2000 + (j 0).val, hr⟩ rfl, iblk3_b V c t, iblk3_w V c t]
  rfl

/-- An index of the output array is in point `t`'s block iff each coordinate is in the block's range on its axis. -/
theorem mem_blk3 (t : Fin cfg3.N) (i : S50000x40.Idx) :
    i ∈ ((cfg3.win 4).blk t).view.set ↔ ∀ a : Fin 2, win3_4.index t a * S2000x40.size a ≤ (i a).val ∧ (i a).val < win3_4.index t a * S2000x40.size a + S2000x40.size a := by
  show i ∈ ((View.whole main_v60).slice (win3_4.rect t)).set ↔ _
  rw [View.set_slice_whole, Rect.mem_set_unit]
  exact Iff.rfl

/-- Every row of the output array is in the block of the point `row / 2000`. -/
theorem cover3 (i : S50000x40.Idx) : ∃ t : Fin cfg3.N, (cfg3.win 4).flush t = true ∧ i ∈ ((cfg3.win 4).blk t).view.set := by
  have hi0 : (i 0).val < 50000 := (i 0).isLt
  have hi1 : (i 1).val < 40 := (i 1).isLt
  have ht : (i 0).val / 2000 < 25 := by omega
  refine ⟨⟨(i 0).val / 2000, ht⟩, flush3_4 _, ?_⟩
  rw [mem_blk3]
  obtain ⟨-, -, -, -, -, -, -, -, e0, e1⟩ := blockIdx3 ⟨(i 0).val / 2000, ht⟩
  intro a
  match a with
  | ⟨0, _⟩ =>
    show win3_4.index ⟨(i 0).val / 2000, ht⟩ (0 : Fin 2) * 2000 ≤ (i 0).val ∧ (i 0).val < win3_4.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win3_4.index ⟨(i 0).val / 2000, ht⟩ (1 : Fin 2) * 40 ≤ (i 1).val ∧ (i 1).val < win3_4.index ⟨(i 0).val / 2000, ht⟩ (1 : Fin 2) * 40 + 40
    rw [e1]; omega

/-- THE OUTPUT ARRAY OF REGION 3, as one matrix of the region's input arrays. -/
theorem region3_value :
    toMat (N := 50000) (C := 40) ((dat3 (F := Ideal) V c).arrAt 4 cfg3.N)
      = scaleRows (mm (scaledAct (toMat (N := 50000) (C := 64) (V c main_v59)) (toCol (N := 50000) (V c main_v15)) (toRow (C := 64) (V c main_v22)))
          (toMat (N := 64) (C := 40) (V c main_v19))) (toCol (N := 50000) (V c main_v15)) := by
  have h := (dat3 (F := Ideal) V c).arrAt_eq_of_cover 4 (ofMat (R3 V c)) (fun t _ => flushed3_eq V c t) cover3
  rw [h]
  rfl

end Cert.KernelIdeal.RegionValue
end
-- ==== Proof.LibGraph.lean ====
/-
  The edge list of a graph, as the two index vectors a program holds.

  An edge list of `R` edges on `N` nodes is a vector of 32-bit source indices and a vector of 32-bit target indices.
  Two readings of an index occur.  A SCATTER into row `idx e` takes the index as a signed integer as it stands, and drops
  the update when that is not a row: so the edges that reach node `n` are those whose target index IS `n`.  A GATHER
  first adds `N` to a negative index (the wrap-around of Python indexing), then clamps the signed value into
  `[0, N − 1]`: that is the node a gather reads for the edge.  On an edge that a scatter sends to `n`, a gather through
  the same index reads `n`: a row number is not negative and is at most `N − 1`.
-/
import Mathlib
import Idealize.ShloMosaic.Lib.Pipeline.Value
import Idealize.ShloMosaic.Lib.ValueIdx

noncomputable section

namespace Cert.Graph

open Idealize.ShloMosaic Idealize.ShloMosaic.ValueIdx

variable {N R : Nat}

/-- The wrap-around of a negative index: `N` is added to an index that is negative as a signed integer. -/
def wrap (N : Nat) (v : BitVec 32) : BitVec 32 :=
  Scalar.select (IntOp.cmpi .slt v 0#32) (IntOp.addi v (BitVec.ofNat 32 N)) v

/-- The row a gather reads for a start index: the signed value clamped into `[0, N − 1]`. -/
def clampRow (hN : 0 < N) (v : BitVec 32) : Fin N := ⟨min v.toInt.toNat (N - 1), by omega⟩

/-- The node a gather reads for edge `e` through the index vector `idx`: wrapped, then clamped. -/
def nodeAt (hN : 0 < N) (idx : IVec ⟨1, ![R]⟩ 32) (e : Fin R) : Fin N := clampRow hN (wrap N (idx (ix1 e)))

/-- The edges a scatter through the index vector `idx` sends to node `n`: those whose index is `n`. -/
def edgesInto (N : Nat) (idx : IVec ⟨1, ![R]⟩ 32) (n : Fin N) : Finset (Fin R) :=
  Finset.univ.filter fun e => (idx (ix1 e)).toInt = (n.val : Int)

/-- A row number is not wrapped. -/
theorem wrap_of_toInt_nonneg (v : BitVec 32) (h : 0 ≤ v.toInt) : wrap N v = v := by
  unfold wrap IntOp.cmpi
  have : v.slt 0#32 = false := by
    rw [BitVec.slt_eq_decide]
    simp only [BitVec.toInt_zero, decide_eq_false_iff_not, not_lt]
    exact h
  simp only [this]
  rfl

/-- ON AN EDGE INTO `n` THE GATHER READS `n`. -/
theorem nodeAt_of_mem (hN : 0 < N) (idx : IVec ⟨1, ![R]⟩ 32) (n : Fin N) (e : Fin R) (h : e ∈ edgesInto N idx n) :
    nodeAt hN idx e = n := by
  have hv : (idx (ix1 e)).toInt = (n.val : Int) := (Finset.mem_filter.mp h).2
  unfold nodeAt
  rw [wrap_of_toInt_nonneg _ (by rw [hv]; exact Int.natCast_nonneg _)]
  refine Fin.ext ?_
  show min (idx (ix1 e)).toInt.toNat (N - 1) = n.val
  rw [hv, Int.toNat_natCast]
  have := n.isLt
  omega

/-! ## The index vectors as the programs lay them out -/

/-- A vector laid out as one column: entry `(e, u)` is entry `e`. -/
theorem column_apply {α : Type} (x : (⟨1, ![R]⟩ : Shape).Idx → α)
    (h : (⟨1, ![R]⟩ : Shape).BroadcastsInDim ⟨2, ![R, 1]⟩ ![0]) (e : Fin R) (u : Fin 1) :
    broadcastInDim ⟨2, ![R, 1]⟩ ![0] h x (ix2 e u) = x (ix1 e) :=
  broadcastInDim_apply _ h x (ix2 e u) (ix1 e) (fun a => match a with
    | ⟨0, _⟩ => by
      show e.val = if R = 1 then 0 else e.val
      split
      · have := e.isLt; omega
      · rfl)

/-- A single value repeated over a shape. -/
theorem splat_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply _ h x i ix0 (fun a => a.elim0)

/-- The index column a gather is given — the index vector with `N` added where it is negative, laid out as a column — is,
    at edge `e`, the wrapped index. -/
theorem wrapped_column_apply (idx : IVec ⟨1, ![R]⟩ 32)
    (hz hn : (⟨0, ![]⟩ : Shape).BroadcastsInDim ⟨1, ![R]⟩ ![])
    (hc : (⟨1, ![R]⟩ : Shape).BroadcastsInDim ⟨2, ![R, 1]⟩ ![0]) (e : Fin R) (u : Fin 1) :
    broadcastInDim ⟨2, ![R, 1]⟩ ![0] hc
        (select (cmpi .slt idx (broadcastInDim ⟨1, ![R]⟩ ![] hz (constantI ⟨0, ![]⟩ 32 0#32)))
          (addi idx (broadcastInDim ⟨1, ![R]⟩ ![] hn (constantI ⟨0, ![]⟩ 32 (BitVec.ofNat 32 N)))) idx) (ix2 e u)
      = wrap N (idx (ix1 e)) := by
  rw [column_apply]
  show Scalar.select (IntOp.cmpi .slt (idx (ix1 e)) (broadcastInDim ⟨1, ![R]⟩ ![] hz (constantI ⟨0, ![]⟩ 32 0#32) (ix1 e)))
      (IntOp.addi (idx (ix1 e)) (broadcastInDim ⟨1, ![R]⟩ ![] hn (constantI ⟨0, ![]⟩ 32 (BitVec.ofNat 32 N)) (ix1 e)))
      (idx (ix1 e)) = _
  rw [splat_apply, splat_apply]
  rfl

end Cert.Graph

end
-- ==== Proof.LibAggregate.lean ====
/-
  Weighted row aggregation over a list of edges, read at an index, and its commutation with a matrix product.

  An edge list gives every edge `e` a source row, a target row and a coefficient.  "Aggregation" of a matrix `X : [N, C]`
  takes for every edge the source row of `X`, scales it by the edge's coefficient, and adds it into the target row of an
  `[N, C]` accumulator: a row gather, a pointwise product with the coefficients laid along the rows, and an
  accumulating row scatter.  Read at `(n, k)` the result is `Z (n, k) + ∑ e, [target e = n] · c e · X (source e, k)`.

  Aggregation is linear in `X`, so it commutes with multiplying on the right by a matrix `W`:
  `(aggregate X) · W = aggregate (X · W)`, PROVIDED the coefficients and the entries of `X` and `W` are real numbers —
  on the extended reals the distributive law behind it fails at the infinities.
-/
import Idealize.ShloMosaic.Lib.ValueIdx
import Idealize.ShloMosaic.Lib.StackMember
import Idealize.ShloMosaic.Lib.KernelVsHost

noncomputable section

open scoped BigOperators

namespace Cert.Aggregate

open Idealize.ShloMosaic Idealize.ShloMosaic.ValueIdx Idealize.ShloMosaic.StackMember

/-! ## Sums of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW: for real coefficients `c`, real rows `x e` and a real column `w`, scaling-and-summing the rows over a set
    of edges and then contracting with `w` is contracting every row with `w` first and then scaling-and-summing.
    Both sides are the coercion of the same real double sum. -/
theorem sum_scaled_rows_mul {ι κ : Type*} [Fintype κ] (S : Finset ι) (c : ι → ℝ) (x : ι → κ → ℝ) (w : κ → ℝ) :
    ∑ k, (∑ e ∈ S, (c e : EReal) * (x e k : EReal)) * (w k : EReal)
      = ∑ e ∈ S, (c e : EReal) * ∑ k, (x e k : EReal) * (w k : EReal) := by
  have hl : ∀ k, (∑ e ∈ S, (c e : EReal) * (x e k : EReal)) * (w k : EReal)
      = ((( ∑ e ∈ S, c e * x e k) * w k : ℝ) : EReal) := by
    intro k
    rw [EReal.coe_mul, coe_finset_sum]
    simp only [EReal.coe_mul]
  have hr : ∀ e, (c e : EReal) * ∑ k, (x e k : EReal) * (w k : EReal)
      = ((c e * ∑ k, x e k * w k : ℝ) : EReal) := by
    intro e
    rw [EReal.coe_mul, coe_finset_sum]
    simp only [EReal.coe_mul]
  simp only [hl, hr, ← coe_finset_sum]
  congr 1
  simp only [Finset.sum_mul, Finset.mul_sum]
  rw [Finset.sum_comm]
  refine Finset.sum_congr rfl fun e _ => Finset.sum_congr rfl fun k _ => ?_
  ring

/-! ## Taking rows: a gather of whole rows of a matrix at a column of start indices -/

section Rows

variable {N R C w : Nat}

/-- The dimension numbers of `X[idx]` for `X : [N, C]` and `idx : [R, 1]`: result row `e` is the row of `X` that start
    index `idx (e, 0)` names. -/
abbrev rowGather (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the index read signed and clamped into `[0, N − 1]`. -/
def srcRow (hN : 0 < N) (idx : IVec ⟨2, ![R, 1]⟩ w) (e : Fin R) : Fin N :=
  ⟨min (idx (ix2 e (0 : Fin 1))).toInt.toNat (N - 1), by omega⟩

/-- THE ROW GATHER READ AT `(e, k)`: entry `k` of the row the start index of `e` names. -/
theorem gather_rows_apply {α : Type} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGather N R C wf) x idx (ix2 e k) = x (ix2 (srcRow hN idx e) k) := by
  unfold Host.gather
  congr 1
  funext a
  refine Fin.ext ?_
  match a with
  | ⟨0, _⟩ =>
    show (rowGather N R C wf).start (ix2 e k) idx 0 + (rowGather N R C wf).batchCoord (ix2 e k) 0
      + (rowGather N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 e k) ⟨List.idxOf (0 : Fin 2) (rowGather N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N R C wf).start (ix2 e k) idx 1 + (rowGather N R C wf).batchCoord (ix2 e k) 1
      + (rowGather N R C wf).offCoord (ix2 e k) 1 = k.val
    rw [GatherDims.batchCoord_eq_zero _ _ _ List.not_mem_nil]
    have hs : (rowGather N R C wf).start (ix2 e k) idx 1 = 0 := by
      unfold GatherDims.start
      rw [dif_neg (show ¬ (1 : Fin 2) ∈ (rowGather N R C wf).startIndexMap from
        (by decide : ¬ (1 : Fin 2) ∈ ([0] : List (Fin 2))))]
    have ho : (rowGather N R C wf).offCoord (ix2 e k) 1 = k.val := by
      unfold GatherDims.offCoord
      rw [dif_pos (show (1 : Fin 2) ∈ (rowGather N R C wf).sKept from
        (GatherDims.mem_sKept _ _).mpr ⟨(by decide : ¬ (1 : Fin 2) ∈ ([0] : List (Fin 2))), List.not_mem_nil⟩)]
      rfl
    rw [hs, ho]; simp

end Rows

/-! ## Adding rows: an accumulating scatter of whole rows at a column of target indices -/

section Scatter

variable {N R C w : Nat}

/-- The dimension numbers of `Z.at[idx].add(U)` for `Z : [N, C]`, `idx : [R, 1]`, `U : [R, C]`: update row `e` is added
    into the row of `Z` that `idx (e, 0)` names, and is dropped when that is not a row of `Z`. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable (wf : ScatterDims.WF ⟨2, ![N, C]⟩ ⟨2, ![R, 1]⟩ ⟨2, ![R, C]⟩ [1] [0] [0] 1)

/-- On the row axis an update starts at its target index, read signed and not clamped. -/
theorem scatter_start_row (idx : IVec ⟨2, ![R, 1]⟩ w) (e : Fin R) (k : Fin C) :
    (rowScatter N R C wf).start (ix2 e k) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e k) ⟨List.idxOf (0 : Fin 2) (rowScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis an update starts at column 0 … -/
theorem scatter_start_col (idx : IVec ⟨2, ![R, 1]⟩ w) (e : Fin R) (k : Fin C) :
    (rowScatter N R C wf).start (ix2 e k) idx 1 = 0 := by
  unfold ScatterDims.start
  rw [dif_neg (show ¬ (1 : Fin 2) ∈ (rowScatter N R C wf).scatterDimsToOperandDims from
    (by decide : ¬ (1 : Fin 2) ∈ ([0] : List (Fin 2))))]

/-- … its window has no extent along the rows … -/
theorem scatter_window_row (e : Fin R) (k : Fin C) : (rowScatter N R C wf).window (ix2 e k) 0 = 0 := by
  unfold ScatterDims.window
  rw [dif_neg]
  show ¬ (0 : Fin 2) ∈ (⟨2, ![N, C]⟩ : Shape).kept ([0] : List (Fin 2))
  simp [Shape.kept]

/-- … and along the columns the window coordinate is the update's own column. -/
theorem scatter_window_col (e : Fin R) (k : Fin C) : (rowScatter N R C wf).window (ix2 e k) 1 = k.val := by
  unfold ScatterDims.window
  have h1 : (1 : Fin 2) ∈ (rowScatter N R C wf).sKept := by
    show (1 : Fin 2) ∈ (⟨2, ![N, C]⟩ : Shape).kept ([0] : List (Fin 2))
    simp [Shape.kept]
  rw [dif_pos h1]
  rfl

/-- WHERE AN UPDATE LANDS: update `(e, k)` lands on `(n, k')` exactly when its target index is `n` and `k = k'`. -/
theorem resultIdx_rows_iff (idx : IVec ⟨2, ![R, 1]⟩ w) (e : Fin R) (k : Fin C) (n : Fin N) (k' : Fin C) :
    (rowScatter N R C wf).resultIdx? (ix2 e k) idx = some (ix2 n k')
      ↔ (idx (ix2 e (0 : Fin 1))).toInt = (n.val : Int) ∧ k = k' := by
  have s0 := scatter_start_row wf idx e k
  have s1 := scatter_start_col wf idx e k
  have w0 := scatter_window_row wf e k
  have w1 := scatter_window_col wf e k
  unfold ScatterDims.resultIdx?
  split
  · rename_i h
    rw [Option.some.injEq]
    constructor
    · intro hf
      have e0 := congrArg Fin.val (congrFun hf 0)
      have e1 := congrArg Fin.val (congrFun hf 1)
      have h0 := h 0
      simp only [s0, s1, w0, w1] at e0 e1 h0
      refine ⟨?_, Fin.ext ?_⟩
      · have : ((idx (ix2 e (0 : Fin 1))).toInt + ((0 : Nat) : Int)).toNat = n.val := e0
        omega
      · have : (((0 : Int)) + ((k.val : Nat) : Int)).toNat = k'.val := e1
        omega
    · rintro ⟨hn, rfl⟩
      funext a
      refine Fin.ext ?_
      match a with
      | ⟨0, _⟩ =>
        show ((rowScatter N R C wf).start (ix2 e k) idx 0 + ((rowScatter N R C wf).window (ix2 e k) 0 : Nat)).toNat = n.val
        rw [s0, w0, hn]; simp
      | ⟨1, _⟩ =>
        show ((rowScatter N R C wf).start (ix2 e k) idx 1 + ((rowScatter N R C wf).window (ix2 e k) 1 : Nat)).toNat = k.val
        rw [s1, w1]; simp
  · rename_i h
    constructor
    · intro hf; cases hf
    · rintro ⟨hn, rfl⟩
      refine absurd (fun a => ?_) h
      match a with
      | ⟨0, _⟩ =>
        show 0 ≤ (rowScatter N R C wf).start (ix2 e k) idx 0 + ((rowScatter N R C wf).window (ix2 e k) 0 : Nat)
          ∧ (rowScatter N R C wf).start (ix2 e k) idx 0 + ((rowScatter N R C wf).window (ix2 e k) 0 : Nat) < (N : Int)
        rw [s0, w0, hn]
        have := n.isLt
        constructor <;> omega
      | ⟨1, _⟩ =>
        show 0 ≤ (rowScatter N R C wf).start (ix2 e k) idx 1 + ((rowScatter N R C wf).window (ix2 e k) 1 : Nat)
          ∧ (rowScatter N R C wf).start (ix2 e k) idx 1 + ((rowScatter N R C wf).window (ix2 e k) 1 : Nat) < (C : Int)
        rw [s1, w1]
        have := k.isLt
        constructor <;> omega

end Scatter

/-! ## The aggregation read at an index, and the law -/

section Law

variable {N R C w : Nat}

/-- THE ROW SCATTER READ AT `(n, k)`: the accumulator's entry plus column `k` of every update row whose target is `n`. -/
theorem scatterAdd_rows_apply {φ : FTy} (wf : ScatterDims.WF ⟨2, ![N, C]⟩ ⟨2, ![R, 1]⟩ ⟨2, ![R, C]⟩ [1] [0] [0] 1)
    (x : FVec Ideal ⟨2, ![N, C]⟩ φ) (idx : IVec ⟨2, ![R, 1]⟩ w) (upd : FVec Ideal ⟨2, ![R, C]⟩ φ) (n : Fin N) (k : Fin C) :
    Host.scatterAdd (rowScatter N R C wf) x idx upd (ix2 n k)
      = x (ix2 n k) + ∑ e ∈ Finset.univ.filter (fun e : Fin R => (idx (ix2 e (0 : Fin 1))).toInt = (n.val : Int)),
          upd (ix2 e k) := by
  simp only [Host.scatterAdd, Ideal.hostScatterAdd_def, Ideal.hostScatterAdd]
  congr 1
  rw [Finset.sum_filter, sum_idx2, Finset.sum_filter]
  refine Finset.sum_congr rfl fun e _ => ?_
  simp only [resultIdx_rows_iff wf]
  by_cases hP : (idx (ix2 e (0 : Fin 1))).toInt = (n.val : Int)
  · simp [hP]
  · simp [hP]

/-- AGGREGATION COMMUTES WITH A MATRIX PRODUCT.  With a zero accumulator, real coefficients (the same along each
    row), and real matrices `X` and `W`: aggregating the rows of `X` and then multiplying by `W` is aggregating the
    rows of `X · W`.  At `(n, j)` both sides are `∑ e, [target e = n] · c e · ∑ k, X (source e, k) · W (k, j)`. -/
theorem aggregate_dot_comm (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (prec : Option ContractPrecision)
    (Z : FVec Ideal ⟨2, ![N, C]⟩ .f32) (hZ : ∀ i, Z i = 0)
    (tgt src : IVec ⟨2, ![R, 1]⟩ w)
    (c : FVec Ideal ⟨2, ![R, C]⟩ .f32) (c0 : Fin R → ℝ) (hc : ∀ e k, c (ix2 e k) = (c0 e : EReal))
    (X : FVec Ideal ⟨2, ![N, C]⟩ .f32) (X0 : (⟨2, ![N, C]⟩ : Shape).Idx → ℝ) (hX : ∀ i, X i = (X0 i : EReal))
    (W : FVec Ideal ⟨2, ![C, C]⟩ .f32) (W0 : (⟨2, ![C, C]⟩ : Shape).Idx → ℝ) (hW : ∀ i, W i = (W0 i : EReal)) :
    Host.dotGeneral (DotDims.plain N C C) prec
        (Host.scatterAdd (rowScatter N R C wfs) Z tgt (mulf c (Host.gather (rowGather N R C wfg) X src))) W
      = Host.scatterAdd (rowScatter N R C wfs) Z tgt
          (mulf c (Host.gather (rowGather N R C wfg) (Host.dotGeneral (DotDims.plain N C C) prec X W) src)) := by
  funext i
  obtain ⟨n, j, rfl⟩ : ∃ (n : Fin N) (j : Fin C), i = ix2 n j := ⟨i 0, i 1, eq_ix2 i⟩
  rw [dotGeneral_plain_apply]
  simp only [scatterAdd_rows_apply, mulf_apply, gather_rows_apply hN, dotGeneral_plain_apply, hZ, zero_add, hc, hX, hW]
  exact sum_scaled_rows_mul _ c0 (fun e k => X0 (ix2 (srcRow hN src e) k)) (fun k => W0 (ix2 k j))

end Law

end Cert.Aggregate

end
-- ==== Proof.LibGatherScatter.lean ====
/-
  The kernel's aggregation step read as a matrix: gather the source rows, add them up at the targets.

  Between two of its dense stages the kernel gathers, for every edge, the row of the source node (through the wrapped
  source-index column) and adds the gathered rows into a zero matrix at the edges' target rows (through the
  target-index column).  Read as a matrix this is `sumRows`: entry `(n, j)` is `0 + ∑` over the edges into `n` of entry
  `j` of the source node's row.  The gathered rows pass through a change of float format, which is the identity on the
  extended reals.
-/
import proofs.«171012_j1348619731442_2_alg».proof.Proof.LibLayerLaw
import proofs.«171012_j1348619731442_2_alg».proof.Proof.LibGraph
import proofs.«171012_j1348619731442_2_alg».proof.Proof.LibAggregate

noncomputable section

open scoped BigOperators

namespace Cert.Gcn

open Cert.Graph Cert.Aggregate Idealize.ShloMosaic Idealize.ShloMosaic.ValueIdx

variable {N R C : Nat}

/-- The gather-then-scatter-add of rows, as a matrix. -/
theorem gather_scatter_rows (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (hzero : (⟨0, ![]⟩ : Shape).BroadcastsInDim ⟨2, ![N, C]⟩ ![])
    (hz hn : (⟨0, ![]⟩ : Shape).BroadcastsInDim ⟨1, ![R]⟩ ![])
    (hc : (⟨1, ![R]⟩ : Shape).BroadcastsInDim ⟨2, ![R, 1]⟩ ![0])
    (hlt : FTy.bf16.bits < FTy.f32.bits)
    (g : FVec Ideal ⟨2, ![N, C]⟩ .bf16) (src dst : IVec ⟨1, ![R]⟩ 32) :
    toMat (Host.scatterAdd (rowScatter N R C wfs)
        (broadcastInDim ⟨2, ![N, C]⟩ ![] hzero (constant (F := Ideal) ⟨0, ![]⟩ .f32 0x00000000#32))
        (broadcastInDim ⟨2, ![R, 1]⟩ ![0] hc dst)
        (extf .f32 (Host.gather (rowGather N R C wfg) g
          (broadcastInDim ⟨2, ![R, 1]⟩ ![0] hc
            (select (cmpi .slt src (broadcastInDim ⟨1, ![R]⟩ ![] hz (constantI ⟨0, ![]⟩ 32 0#32)))
              (addi src (broadcastInDim ⟨1, ![R]⟩ ![] hn (constantI ⟨0, ![]⟩ 32 (BitVec.ofNat 32 N)))) src))) hlt))
      = sumRows (edgesInto N dst) (nodeAt hN src) (toMat g) := by
  funext n j
  unfold toMat sumRows
  rw [scatterAdd_rows_apply, splat_apply]
  congr 1
  · exact Ideal.ofBits_zero_f32
  · refine Finset.sum_congr ?_ fun e _ => ?_
    · unfold edgesInto
      refine Finset.filter_congr fun e _ => ?_
      rw [column_apply]
    · show Host.gather (rowGather N R C wfg) g _ (ix2 e j) = g (ix2 (nodeAt hN src e) j)
      rw [gather_rows_apply hN]
      refine congrArg (fun r => g (ix2 r j)) ?_
      unfold srcRow nodeAt clampRow
      refine Fin.ext ?_
      show min (_ : BitVec 32).toInt.toNat (N - 1) = min (wrap N (src (ix1 e))).toInt.toNat (N - 1)
      rw [wrapped_column_apply]

end Cert.Gcn

end
-- ==== Proof.HostAgg.lean ====
/-
  The kernel's four aggregation steps, each read as a matrix at an arbitrary valuation of the buffers it starts from.

  Between two dense stages the kernel's program gathers the rows of the previous stage's output at the edges' sources
  and adds them up at the edges' targets.  Whatever the buffers hold when such a stretch of host operations starts, the
  matrix it leaves is `sumRows` of the matrix it found, over the edge list it found.
-/
import proofs.«171012_j1348619731442_2_alg».proof.Proof.Gen.KernelIdeal.Launch
import proofs.«171012_j1348619731442_2_alg».proof.Proof.LibGatherScatter
import Idealize.ShloMosaic.Lib.StableHlo.Run

noncomputable section

namespace Cert.KernelIdeal.HostValue

open Cert.KernelIdeal Cert.KernelIdeal.Gen Cert.Gcn Cert.Graph
open Idealize.ShloMosaic Idealize.ShloMosaic.TcCoe Idealize.SL.Sem Idealize.ShloMosaic.ValueIdx Idealize.ShloMosaic.StableHlo

set_option maxHeartbeats 4000000 in
/-- The stretch's last operation, read back through the stretch: the scatter-add of the gathered rows. -/
theorem host1_term (W : Valuation τ sig (Elt Ideal)) :
    StableHlo.after (hostOps1 (F := Ideal)) W (Proc.devRef .tc main_v35)
      = Host.scatterAdd scatter_S50000x256_S850000x1_S850000x256_1_0_0_1
          (broadcastInDim S50000x256 ![] bcast_S_S50000x256 (constant (F := Ideal) S_ .f32 0x00000000#32))
          (broadcastInDim S850000x1 ![0] bcast_S850000_S850000x1_0 (W (Proc.devRef .tc main_v6)))
          (extf .f32 (Host.gather gather_S50000x256_S850000x1_S850000x256_1_0_n_n_0_1_1256 (W (Proc.devRef .tc main_v24))
            (broadcastInDim S850000x1 ![0] bcast_S850000_S850000x1_0
              (select (cmpi .slt (W (Proc.devRef .tc main_v3)) (broadcastInDim S850000 ![] bcast_S_S850000 (constantI S_ 32 0#32)))
                (addi (W (Proc.devRef .tc main_v3)) (broadcastInDim S850000 ![] bcast_S_S850000 (constantI S_ 32 50000#32)))
                (W (Proc.devRef .tc main_v3))))) bitsLt_bf16_f32) := by
  after_results

/-- The aggregation between regions 0 and 1: `main_v35` is the sum, over the edges into each node, of the source rows
    of `main_v24`. -/
theorem host1_value (W : Valuation τ sig (Elt Ideal)) :
    toMat (N := 50000) (C := 256) (StableHlo.after (hostOps1 (F := Ideal)) W (Proc.devRef .tc main_v35))
      = sumRows (edgesInto 50000 (W (Proc.devRef .tc main_v6))) (nodeAt (N := 50000) (by decide) (W (Proc.devRef .tc main_v3)))
          (toMat (N := 50000) (C := 256) (W (Proc.devRef .tc main_v24))) := by
  rw [host1_term]
  exact gather_scatter_rows (N := 50000) (R := 850000) (C := 256) (by decide)
    gather_S50000x256_S850000x1_S850000x256_1_0_n_n_0_1_1256_wf scatter_S50000x256_S850000x1_S850000x256_1_0_0_1_wf
    bcast_S_S50000x256 bcast_S_S850000 bcast_S_S850000 bcast_S850000_S850000x1_0 bitsLt_bf16_f32
    (W (Proc.devRef .tc main_v24)) (W (Proc.devRef .tc main_v3)) (W (Proc.devRef .tc main_v6))

set_option maxHeartbeats 4000000 in
/-- The stretch's last operation, read back through the stretch: the scatter-add of the gathered rows. -/
theorem host2_term (W : Valuation τ sig (Elt Ideal)) :
    StableHlo.after (hostOps2 (F := Ideal)) W (Proc.devRef .tc main_v47)
      = Host.scatterAdd scatter_S50000x128_S850000x1_S850000x128_1_0_0_1
          (broadcastInDim S50000x128 ![] bcast_S_S50000x128 (constant (F := Ideal) S_ .f32 0x00000000#32))
          (broadcastInDim S850000x1 ![0] bcast_S850000_S850000x1_0 (W (Proc.devRef .tc main_v6)))
          (extf .f32 (Host.gather gather_S50000x128_S850000x1_S850000x128_1_0_n_n_0_1_1128 (W (Proc.devRef .tc main_v36))
            (broadcastInDim S850000x1 ![0] bcast_S850000_S850000x1_0
              (select (cmpi .slt (W (Proc.devRef .tc main_v3)) (broadcastInDim S850000 ![] bcast_S_S850000 (constantI S_ 32 0#32)))
                (addi (W (Proc.devRef .tc main_v3)) (broadcastInDim S850000 ![] bcast_S_S850000 (constantI S_ 32 50000#32)))
                (W (Proc.devRef .tc main_v3))))) bitsLt_bf16_f32) := by
  after_results

/-- The aggregation between regions 1 and 2: `main_v47` is the sum, over the edges into each node, of the source rows
    of `main_v36`. -/
theorem host2_value (W : Valuation τ sig (Elt Ideal)) :
    toMat (N := 50000) (C := 128) (StableHlo.after (hostOps2 (F := Ideal)) W (Proc.devRef .tc main_v47))
      = sumRows (edgesInto 50000 (W (Proc.devRef .tc main_v6))) (nodeAt (N := 50000) (by decide) (W (Proc.devRef .tc main_v3)))
          (toMat (N := 50000) (C := 128) (W (Proc.devRef .tc main_v36))) := by
  rw [host2_term]
  exact gather_scatter_rows (N := 50000) (R := 850000) (C := 128) (by decide)
    gather_S50000x128_S850000x1_S850000x128_1_0_n_n_0_1_1128_wf scatter_S50000x128_S850000x1_S850000x128_1_0_0_1_wf
    bcast_S_S50000x128 bcast_S_S850000 bcast_S_S850000 bcast_S850000_S850000x1_0 bitsLt_bf16_f32
    (W (Proc.devRef .tc main_v36)) (W (Proc.devRef .tc main_v3)) (W (Proc.devRef .tc main_v6))

set_option maxHeartbeats 4000000 in
/-- The stretch's last operation, read back through the stretch: the scatter-add of the gathered rows. -/
theorem host3_term (W : Valuation τ sig (Elt Ideal)) :
    StableHlo.after (hostOps3 (F := Ideal)) W (Proc.devRef .tc main_v59)
      = Host.scatterAdd scatter_S50000x64_S850000x1_S850000x64_1_0_0_1
          (broadcastInDim S50000x64 ![] bcast_S_S50000x64 (constant (F := Ideal) S_ .f32 0x00000000#32))
          (broadcastInDim S850000x1 ![0] bcast_S850000_S850000x1_0 (W (Proc.devRef .tc main_v6)))
          (extf .f32 (Host.gather gather_S50000x64_S850000x1_S850000x64_1_0_n_n_0_1_164 (W (Proc.devRef .tc main_v48))
            (broadcastInDim S850000x1 ![0] bcast_S850000_S850000x1_0
              (select (cmpi .slt (W (Proc.devRef .tc main_v3)) (broadcastInDim S850000 ![] bcast_S_S850000 (constantI S_ 32 0#32)))
                (addi (W (Proc.devRef .tc main_v3)) (broadcastInDim S850000 ![] bcast_S_S850000 (constantI S_ 32 50000#32)))
                (W (Proc.devRef .tc main_v3))))) bitsLt_bf16_f32) := by
  after_results

/-- The aggregation between regions 2 and 3: `main_v59` is the sum, over the edges into each node, of the source rows
    of `main_v48`. -/
theorem host3_value (W : Valuation τ sig (Elt Ideal)) :
    toMat (N := 50000) (C := 64) (StableHlo.after (hostOps3 (F := Ideal)) W (Proc.devRef .tc main_v59))
      = sumRows (edgesInto 50000 (W (Proc.devRef .tc main_v6))) (nodeAt (N := 50000) (by decide) (W (Proc.devRef .tc main_v3)))
          (toMat (N := 50000) (C := 64) (W (Proc.devRef .tc main_v48))) := by
  rw [host3_term]
  exact gather_scatter_rows (N := 50000) (R := 850000) (C := 64) (by decide)
    gather_S50000x64_S850000x1_S850000x64_1_0_n_n_0_1_164_wf scatter_S50000x64_S850000x1_S850000x64_1_0_0_1_wf
    bcast_S_S50000x64 bcast_S_S850000 bcast_S_S850000 bcast_S850000_S850000x1_0 bitsLt_bf16_f32
    (W (Proc.devRef .tc main_v48)) (W (Proc.devRef .tc main_v3)) (W (Proc.devRef .tc main_v6))

set_option maxHeartbeats 4000000 in
/-- The stretch's last operation, read back through the stretch: the scatter-add of the gathered rows. -/
theorem host4_term (W : Valuation τ sig (Elt Ideal)) :
    StableHlo.after (hostOps4 (F := Ideal)) W (Proc.devRef .tc main_v71)
      = Host.scatterAdd scatter_S50000x40_S850000x1_S850000x40_1_0_0_1
          (broadcastInDim S50000x40 ![] bcast_S_S50000x40 (constant (F := Ideal) S_ .f32 0x00000000#32))
          (broadcastInDim S850000x1 ![0] bcast_S850000_S850000x1_0 (W (Proc.devRef .tc main_v6)))
          (extf .f32 (Host.gather gather_S50000x40_S850000x1_S850000x40_1_0_n_n_0_1_140 (W (Proc.devRef .tc main_v60))
            (broadcastInDim S850000x1 ![0] bcast_S850000_S850000x1_0
              (select (cmpi .slt (W (Proc.devRef .tc main_v3)) (broadcastInDim S850000 ![] bcast_S_S850000 (constantI S_ 32 0#32)))
                (addi (W (Proc.devRef .tc main_v3)) (broadcastInDim S850000 ![] bcast_S_S850000 (constantI S_ 32 50000#32)))
                (W (Proc.devRef .tc main_v3))))) bitsLt_bf16_f32) := by
  after_results

/-- The aggregation between regions 3 and 4: `main_v71` is the sum, over the edges into each node, of the source rows
    of `main_v60`. -/
theorem host4_value (W : Valuation τ sig (Elt Ideal)) :
    toMat (N := 50000) (C := 40) (StableHlo.after (hostOps4 (F := Ideal)) W (Proc.devRef .tc main_v71))
      = sumRows (edgesInto 50000 (W (Proc.devRef .tc main_v6))) (nodeAt (N := 50000) (by decide) (W (Proc.devRef .tc main_v3)))
          (toMat (N := 50000) (C := 40) (W (Proc.devRef .tc main_v60))) := by
  rw [host4_term]
  exact gather_scatter_rows (N := 50000) (R := 850000) (C := 40) (by decide)
    gather_S50000x40_S850000x1_S850000x40_1_0_n_n_0_1_140_wf scatter_S50000x40_S850000x1_S850000x40_1_0_0_1_wf
    bcast_S_S50000x40 bcast_S_S850000 bcast_S_S850000 bcast_S850000_S850000x1_0 bitsLt_bf16_f32
    (W (Proc.devRef .tc main_v60)) (W (Proc.devRef .tc main_v3)) (W (Proc.devRef .tc main_v6))

end Cert.KernelIdeal.HostValue

end
-- ==== Proof.Keep.lean ====
/-
  What the kernel's program leaves untouched between its stages.

  The edge list's two index vectors, the column of node weights, the four weight matrices and the four bias rows are all
  computed before the first dense stage.  No later host operation writes any of them, and a dense stage only reads
  them (through an input window) or does not touch them at all.  So at the entry of every later stage each of these
  buffers still holds what it held when the first dense stage was entered.
-/
import proofs.«171012_j1348619731442_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the named stretch of host operations writes the buffer in the goal. -/
macro "host_keeps " ops:ident : tactic =>
  `(tactic| (
    refine StableHlo.after_of_forall_not_mem _ _ (List.forall_iff_forall_mem.mp ?_)
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v3_W4 (c : Dev nD) : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_v6_W4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_v3_W6 (c : Dev nD) : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

theorem keep_v6_W6 (c : Dev nD) : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem keep_v3_W8 (c : Dev nD) : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

theorem keep_v6_W8 (c : Dev nD) : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by host_keeps hostOps2
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem keep_v3_W10 (c : Dev nD) : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := by host_keeps hostOps3
    _ = W7 m ρ c (Proc.devRef .tc main_v3) := W8_of_ne m ρ c main_v3 (by decide)
    _ = W6 m ρ c (Proc.devRef .tc main_v3) := by host_keeps hostOps2
    _ = W5 m ρ c (Proc.devRef .tc main_v3) := W6_of_ne m ρ c main_v3 (by decide)
    _ = W4 m ρ c (Proc.devRef .tc main_v3) := by host_keeps hostOps1
    _ = W3 m ρ c (Proc.devRef .tc main_v3) := W4_of_ne m ρ c main_v3 (by decide)

theorem keep_v6_W10 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := by host_keeps hostOps3
    _ = W7 m ρ c (Proc.devRef .tc main_v6) := W8_of_ne m ρ c main_v6 (by decide)
    _ = W6 m ρ c (Proc.devRef .tc main_v6) := by host_keeps hostOps2
    _ = W5 m ρ c (Proc.devRef .tc main_v6) := W6_of_ne m ρ c main_v6 (by decide)
    _ = W4 m ρ c (Proc.devRef .tc main_v6) := by host_keeps hostOps1
    _ = W3 m ρ c (Proc.devRef .tc main_v6) := W4_of_ne m ρ c main_v6 (by decide)

theorem keep_v15_W5 (c : Dev nD) : W5 m ρ c (Proc.devRef .tc main_v15) = W3 m ρ c (Proc.devRef .tc main_v15) :=
  calc W5 m ρ c (Proc.devRef .tc main_v15)
    _ = W4 m ρ c (Proc.devRef .tc main_v15) := by host_keeps hostOps1
    _ = W3 m ρ c (Proc.devRef .tc main_v15) := (W4_arr m ρ c 1).trans (((dat0 (V3 m ρ) c).arrAt_in 1 rfl _).trans (A_eq0 (V3 m ρ) c 1))

theorem keep_v15_W7 (c : Dev nD) : W7 m ρ c (Proc.devRef .tc main_v15) = W3 m ρ c (Proc.devRef .tc main_v15) :=
  calc W7 m ρ c (Proc.devRef .tc main_v15)
    _ = W6 m ρ c (Proc.devRef .tc main_v15) := by host_keeps hostOps2
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := by host_keeps hostOps1
    _ = W3 m ρ c (Proc.devRef .tc main_v15) := (W4_arr m ρ c 1).trans (((dat0 (V3 m ρ) c).arrAt_in 1 rfl _).trans (A_eq0 (V3 m ρ) c 1))

theorem keep_v15_W9 (c : Dev nD) : W9 m ρ c (Proc.devRef .tc main_v15) = W3 m ρ c (Proc.devRef .tc main_v15) :=
  calc W9 m ρ c (Proc.devRef .tc main_v15)
    _ = W8 m ρ c (Proc.devRef .tc main_v15) := by host_keeps hostOps3
    _ = W7 m ρ c (Proc.devRef .tc main_v15) := (W8_arr m ρ c 1).trans (((dat2 (V7 m ρ) c).arrAt_in 1 rfl _).trans (A_eq2 (V7 m ρ) c 1))
    _ = W6 m ρ c (Proc.devRef .tc main_v15) := by host_keeps hostOps2
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := by host_keeps hostOps1
    _ = W3 m ρ c (Proc.devRef .tc main_v15) := (W4_arr m ρ c 1).trans (((dat0 (V3 m ρ) c).arrAt_in 1 rfl _).trans (A_eq0 (V3 m ρ) c 1))

theorem keep_v15_W11 (c : Dev nD) : W11 m ρ c (Proc.devRef .tc main_v15) = W3 m ρ c (Proc.devRef .tc main_v15) :=
  calc W11 m ρ c (Proc.devRef .tc main_v15)
    _ = W10 m ρ c (Proc.devRef .tc main_v15) := by host_keeps hostOps4
    _ = W9 m ρ c (Proc.devRef .tc main_v15) := (W10_arr m ρ c 1).trans (((dat3 (V9 m ρ) c).arrAt_in 1 rfl _).trans (A_eq3 (V9 m ρ) c 1))
    _ = W8 m ρ c (Proc.devRef .tc main_v15) := by host_keeps hostOps3
    _ = W7 m ρ c (Proc.devRef .tc main_v15) := (W8_arr m ρ c 1).trans (((dat2 (V7 m ρ) c).arrAt_in 1 rfl _).trans (A_eq2 (V7 m ρ) c 1))
    _ = W6 m ρ c (Proc.devRef .tc main_v15) := by host_keeps hostOps2
    _ = W5 m ρ c (Proc.devRef .tc main_v15) := (W6_arr m ρ c 1).trans (((dat1 (V5 m ρ) c).arrAt_in 1 rfl _).trans (A_eq1 (V5 m ρ) c 1))
    _ = W4 m ρ c (Proc.devRef .tc main_v15) := by host_keeps hostOps1
    _ = W3 m ρ c (Proc.devRef .tc main_v15) := (W4_arr m ρ c 1).trans (((dat0 (V3 m ρ) c).arrAt_in 1 rfl _).trans (A_eq0 (V3 m ρ) c 1))

theorem keep_v20_W5 (c : Dev nD) : W5 m ρ c (Proc.devRef .tc main_v20) = W3 m ρ c (Proc.devRef .tc main_v20) :=
  calc W5 m ρ c (Proc.devRef .tc main_v20)
    _ = W4 m ρ c (Proc.devRef .tc main_v20) := by host_keeps hostOps1
    _ = W3 m ρ c (Proc.devRef .tc main_v20) := W4_of_ne m ρ c main_v20 (by decide)

theorem keep_v17_W5 (c : Dev nD) : W5 m ρ c (Proc.devRef .tc main_v17) = W3 m ρ c (Proc.devRef .tc main_v17) :=
  calc W5 m ρ c (Proc.devRef .tc main_v17)
    _ = W4 m ρ c (Proc.devRef .tc main_v17) := by host_keeps hostOps1
    _ = W3 m ρ c (Proc.devRef .tc main_v17) := W4_of_ne m ρ c main_v17 (by decide)

theorem keep_v21_W7 (c : Dev nD) : W7 m ρ c (Proc.devRef .tc main_v21) = W3 m ρ c (Proc.devRef .tc main_v21) :=
  calc W7 m ρ c (Proc.devRef .tc main_v21)
    _ = W6 m ρ c (Proc.devRef .tc main_v21) := by host_keeps hostOps2
    _ = W5 m ρ c (Proc.devRef .tc main_v21) := W6_of_ne m ρ c main_v21 (by decide)
    _ = W4 m ρ c (Proc.devRef .tc main_v21) := by host_keeps hostOps1
    _ = W3 m ρ c (Proc.devRef .tc main_v21) := W4_of_ne m ρ c main_v21 (by decide)

theorem keep_v18_W7 (c : Dev nD) : W7 m ρ c (Proc.devRef .tc main_v18) = W3 m ρ c (Proc.devRef .tc main_v18) :=
  calc W7 m ρ c (Proc.devRef .tc main_v18)
    _ = W6 m ρ c (Proc.devRef .tc main_v18) := by host_keeps hostOps2
    _ = W5 m ρ c (Proc.devRef .tc main_v18) := W6_of_ne m ρ c main_v18 (by decide)
    _ = W4 m ρ c (Proc.devRef .tc main_v18) := by host_keeps hostOps1
    _ = W3 m ρ c (Proc.devRef .tc main_v18) := W4_of_ne m ρ c main_v18 (by decide)

theorem keep_v22_W9 (c : Dev nD) : W9 m ρ c (Proc.devRef .tc main_v22) = W3 m ρ c (Proc.devRef .tc main_v22) :=
  calc W9 m ρ c (Proc.devRef .tc main_v22)
    _ = W8 m ρ c (Proc.devRef .tc main_v22) := by host_keeps hostOps3
    _ = W7 m ρ c (Proc.devRef .tc main_v22) := W8_of_ne m ρ c main_v22 (by decide)
    _ = W6 m ρ c (Proc.devRef .tc main_v22) := by host_keeps hostOps2
    _ = W5 m ρ c (Proc.devRef .tc main_v22) := W6_of_ne m ρ c main_v22 (by decide)
    _ = W4 m ρ c (Proc.devRef .tc main_v22) := by host_keeps hostOps1
    _ = W3 m ρ c (Proc.devRef .tc main_v22) := W4_of_ne m ρ c main_v22 (by decide)

theorem keep_v19_W9 (c : Dev nD) : W9 m ρ c (Proc.devRef .tc main_v19) = W3 m ρ c (Proc.devRef .tc main_v19) :=
  calc W9 m ρ c (Proc.devRef .tc main_v19)
    _ = W8 m ρ c (Proc.devRef .tc main_v19) := by host_keeps hostOps3
    _ = W7 m ρ c (Proc.devRef .tc main_v19) := W8_of_ne m ρ c main_v19 (by decide)
    _ = W6 m ρ c (Proc.devRef .tc main_v19) := by host_keeps hostOps2
    _ = W5 m ρ c (Proc.devRef .tc main_v19) := W6_of_ne m ρ c main_v19 (by decide)
    _ = W4 m ρ c (Proc.devRef .tc main_v19) := by host_keeps hostOps1
    _ = W3 m ρ c (Proc.devRef .tc main_v19) := W4_of_ne m ρ c main_v19 (by decide)

theorem keep_v23_W11 (c : Dev nD) : W11 m ρ c (Proc.devRef .tc main_v23) = W3 m ρ c (Proc.devRef .tc main_v23) :=
  calc W11 m ρ c (Proc.devRef .tc main_v23)
    _ = W10 m ρ c (Proc.devRef .tc main_v23) := by host_keeps hostOps4
    _ = W9 m ρ c (Proc.devRef .tc main_v23) := W10_of_ne m ρ c main_v23 (by decide)
    _ = W8 m ρ c (Proc.devRef .tc main_v23) := by host_keeps hostOps3
    _ = W7 m ρ c (Proc.devRef .tc main_v23) := W8_of_ne m ρ c main_v23 (by decide)
    _ = W6 m ρ c (Proc.devRef .tc main_v23) := by host_keeps hostOps2
    _ = W5 m ρ c (Proc.devRef .tc main_v23) := W6_of_ne m ρ c main_v23 (by decide)
    _ = W4 m ρ c (Proc.devRef .tc main_v23) := by host_keeps hostOps1
    _ = W3 m ρ c (Proc.devRef .tc main_v23) := W4_of_ne m ρ c main_v23 (by decide)

end Cert.KernelIdeal.Keep

end
-- ==== Proof.KernelValue.lean ====
/-
  The kernel's result as one function of what its buffers hold when the first dense stage is entered.

  The kernel's program alternates five dense stages with four aggregation steps.  Each dense stage's output array is a
  function of its input arrays; each aggregation step's output is a function of the previous stage's output and of the
  edge list; the edge list, the node weights, the weight matrices and the bias rows are untouched throughout.  Chained,
  the result is the four layers computed the node-scaling way.
-/
import proofs.«171012_j1348619731442_2_alg».proof.Proof.Gen.KernelIdeal.Frame
import proofs.«171012_j1348619731442_2_alg».proof.Proof.RegionEnds
import proofs.«171012_j1348619731442_2_alg».proof.Proof.RegionFused
import proofs.«171012_j1348619731442_2_alg».proof.Proof.RegionFused2
import proofs.«171012_j1348619731442_2_alg».proof.Proof.RegionFused3
import proofs.«171012_j1348619731442_2_alg».proof.Proof.HostAgg
import proofs.«171012_j1348619731442_2_alg».proof.Proof.Keep

set_option maxRecDepth 16384

noncomputable section

namespace Cert.KernelIdeal.KernelValue

open Cert.KernelIdeal Cert.KernelIdeal.Gen Cert.Gcn Cert.Graph Cert.KernelIdeal.RegionValue Cert.KernelIdeal.HostValue Cert.KernelIdeal.Keep
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

set_option maxHeartbeats 2000000 in
/-- THE KERNEL'S RESULT, as a matrix: the four layers computed the node-scaling way, from what the buffers hold when the
    first dense stage is entered. -/
theorem result_eq :
    (toMat (N := 50000) (C := 40) (W12 m ρ c (Proc.devRef .tc main_v72)))
      = nodeScaled (edgesInto 50000 (W3 m ρ c (Proc.devRef .tc main_v6))) (nodeAt (N := 50000) (by decide) (W3 m ρ c (Proc.devRef .tc main_v3)))
          (toCol (N := 50000) (W3 m ρ c (Proc.devRef .tc main_v15)))
          (toMat (N := 50000) (C := 128) (W3 m ρ c (Proc.devRef .tc main_arg0)))
          (toMat (N := 128) (C := 256) (W3 m ρ c (Proc.devRef .tc main_v16))) (toRow (C := 256) (W3 m ρ c (Proc.devRef .tc main_v20)))
          (toMat (N := 256) (C := 128) (W3 m ρ c (Proc.devRef .tc main_v17))) (toRow (C := 128) (W3 m ρ c (Proc.devRef .tc main_v21)))
          (toMat (N := 128) (C := 64) (W3 m ρ c (Proc.devRef .tc main_v18))) (toRow (C := 64) (W3 m ρ c (Proc.devRef .tc main_v22)))
          (toMat (N := 64) (C := 40) (W3 m ρ c (Proc.devRef .tc main_v19))) (toRow (C := 40) (W3 m ρ c (Proc.devRef .tc main_v23))) := by
  -- dense stage 1, from the entry contents
  have g1 : (toMat (N := 50000) (C := 256) (W4 m ρ c (Proc.devRef .tc main_v24)))
      = scaleRows (mm (toMat (N := 50000) (C := 128) (W3 m ρ c (Proc.devRef .tc main_arg0))) (toMat (N := 128) (C := 256) (W3 m ρ c (Proc.devRef .tc main_v16)))) (toCol (N := 50000) (W3 m ρ c (Proc.devRef .tc main_v15))) :=
    (congrArg (toMat (N := 50000) (C := 256)) (W4_arr m ρ c 3)).trans (region0_value (V3 m ρ) c)
  -- aggregation 1
  have a1 : (toMat (N := 50000) (C := 256) (W5 m ρ c (Proc.devRef .tc main_v35)))
      = sumRows (edgesInto 50000 (W4 m ρ c (Proc.devRef .tc main_v6))) (nodeAt (N := 50000) (by decide) (W4 m ρ c (Proc.devRef .tc main_v3))) (toMat (N := 50000) (C := 256) (W4 m ρ c (Proc.devRef .tc main_v24))) :=
    host1_value (W4 m ρ c)
  rw [keep_v6_W4 m ρ c, keep_v3_W4 m ρ c, g1] at a1
  -- dense stage 2
  have g2 : (toMat (N := 50000) (C := 128) (W6 m ρ c (Proc.devRef .tc main_v36)))
      = scaleRows (mm (scaledAct (toMat (N := 50000) (C := 256) (W5 m ρ c (Proc.devRef .tc main_v35))) (toCol (N := 50000) (W5 m ρ c (Proc.devRef .tc main_v15))) (toRow (C := 256) (W5 m ρ c (Proc.devRef .tc main_v20)))) (toMat (N := 256) (C := 128) (W5 m ρ c (Proc.devRef .tc main_v17)))) (toCol (N := 50000) (W5 m ρ c (Proc.devRef .tc main_v15))) :=
    (congrArg (toMat (N := 50000) (C := 128)) (W6_arr m ρ c 4)).trans (region1_value (V5 m ρ) c)
  rw [a1, keep_v15_W5 m ρ c, keep_v20_W5 m ρ c, keep_v17_W5 m ρ c] at g2
  -- aggregation 2
  have a2 : (toMat (N := 50000) (C := 128) (W7 m ρ c (Proc.devRef .tc main_v47)))
      = sumRows (edgesInto 50000 (W6 m ρ c (Proc.devRef .tc main_v6))) (nodeAt (N := 50000) (by decide) (W6 m ρ c (Proc.devRef .tc main_v3))) (toMat (N := 50000) (C := 128) (W6 m ρ c (Proc.devRef .tc main_v36))) :=
    host2_value (W6 m ρ c)
  rw [keep_v6_W6 m ρ c, keep_v3_W6 m ρ c, g2] at a2
  -- dense stage 3
  have g3 : (toMat (N := 50000) (C := 64) (W8 m ρ c (Proc.devRef .tc main_v48)))
      = scaleRows (mm (scaledAct (toMat (N := 50000) (C := 128) (W7 m ρ c (Proc.devRef .tc main_v47))) (toCol (N := 50000) (W7 m ρ c (Proc.devRef .tc main_v15))) (toRow (C := 128) (W7 m ρ c (Proc.devRef .tc main_v21)))) (toMat (N := 128) (C := 64) (W7 m ρ c (Proc.devRef .tc main_v18)))) (toCol (N := 50000) (W7 m ρ c (Proc.devRef .tc main_v15))) :=
    (congrArg (toMat (N := 50000) (C := 64)) (W8_arr m ρ c 4)).trans (region2_value (V7 m ρ) c)
  rw [a2, keep_v15_W7 m ρ c, keep_v21_W7 m ρ c, keep_v18_W7 m ρ c] at g3
  -- aggregation 3
  have a3 : (toMat (N := 50000) (C := 64) (W9 m ρ c (Proc.devRef .tc main_v59)))
      = sumRows (edgesInto 50000 (W8 m ρ c (Proc.devRef .tc main_v6))) (nodeAt (N := 50000) (by decide) (W8 m ρ c (Proc.devRef .tc main_v3))) (toMat (N := 50000) (C := 64) (W8 m ρ c (Proc.devRef .tc main_v48))) :=
    host3_value (W8 m ρ c)
  rw [keep_v6_W8 m ρ c, keep_v3_W8 m ρ c, g3] at a3
  -- dense stage 4
  have g4 : (toMat (N := 50000) (C := 40) (W10 m ρ c (Proc.devRef .tc main_v60)))
      = scaleRows (mm (scaledAct (toMat (N := 50000) (C := 64) (W9 m ρ c (Proc.devRef .tc main_v59))) (toCol (N := 50000) (W9 m ρ c (Proc.devRef .tc main_v15))) (toRow (C := 64) (W9 m ρ c (Proc.devRef .tc main_v22)))) (toMat (N := 64) (C := 40) (W9 m ρ c (Proc.devRef .tc main_v19)))) (toCol (N := 50000) (W9 m ρ c (Proc.devRef .tc main_v15))) :=
    (congrArg (toMat (N := 50000) (C := 40)) (W10_arr m ρ c 4)).trans (region3_value (V9 m ρ) c)
  rw [a3, keep_v15_W9 m ρ c, keep_v22_W9 m ρ c, keep_v19_W9 m ρ c] at g4
  -- aggregation 4
  have a4 : (toMat (N := 50000) (C := 40) (W11 m ρ c (Proc.devRef .tc main_v71)))
      = sumRows (edgesInto 50000 (W10 m ρ c (Proc.devRef .tc main_v6))) (nodeAt (N := 50000) (by decide) (W10 m ρ c (Proc.devRef .tc main_v3))) (toMat (N := 50000) (C := 40) (W10 m ρ c (Proc.devRef .tc main_v60))) :=
    host4_value (W10 m ρ c)
  rw [keep_v6_W10 m ρ c, keep_v3_W10 m ρ c, g4] at a4
  -- the last stage
  have g5 : (toMat (N := 50000) (C := 40) (W12 m ρ c (Proc.devRef .tc main_v72)))
      = scaledBias (toMat (N := 50000) (C := 40) (W11 m ρ c (Proc.devRef .tc main_v71))) (toCol (N := 50000) (W11 m ρ c (Proc.devRef .tc main_v15))) (toRow (C := 40) (W11 m ρ c (Proc.devRef .tc main_v23))) :=
    (congrArg (toMat (N := 50000) (C := 40)) (W12_arr m ρ c 3)).trans (region4_value (V11 m ρ) c)
  rw [a4, keep_v15_W11 m ρ c, keep_v23_W11 m ρ c] at g5
  exact g5

end Cert.KernelIdeal.KernelValue

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.LibColumn.lean ====
/- A column and a vector are the same numbers: an [a, 1] array cast to [a], and an [a] array cast to [a, 1], read at an index. -/
import Idealize.ShloMosaic.Lib.ValueLayout

namespace Cert.Lib.Column

open Idealize.ShloMosaic Idealize.ShloMosaic.ValueIdx

variable {α : Type}

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.Column
-- ==== Proof.LibStack.lean ====
/-
  Two matrices stacked one above the other, and two vectors laid end to end, read at an index.

  Concatenating an `[a, n]` matrix `A` and a `[b, n]` matrix `B` along the rows gives, at row `i < a`, row `i` of `A` and,
  at row `a + i`, row `i` of `B`. Concatenating an `[a]` vector and a `[b]` vector gives the first at `i < a` and the
  second at `a + i`; the same holds after the result is cast to a single row `[1, a + b]`.
-/
import Idealize.ShloMosaic.Lib.Pipeline.Value
import Idealize.ShloMosaic.Lib.ValueIdx

namespace Cert.Lib.Stack

open Idealize.ShloMosaic Idealize.ShloMosaic.ValueIdx

variable {α : Type} {a b n tot : Nat}

/-- A row of the upper matrix. -/
theorem stackRows_top (A : (⟨2, ![a, n]⟩ : Shape).Idx → α) (B : (⟨2, ![b, n]⟩ : Shape).Idx → α)
    (h : Shape.Concatenates [⟨2, ![a, n]⟩, ⟨2, ![b, n]⟩] ⟨2, ![tot, n]⟩ 0) (i : Fin a) (k : Fin n) (hi : i.val < tot) :
    concatenate ⟨2, ![tot, n]⟩ 0 [⟨⟨2, ![a, n]⟩, A⟩, ⟨⟨2, ![b, n]⟩, B⟩] h (ix2 ⟨i.val, hi⟩ k) = A (ix2 i k) :=
  concatenate_pair_apply_left 0 A B h (ix2 ⟨i.val, hi⟩ k) rfl (ix2 i k) (fun d => match d with
    | ⟨0, _⟩ => rfl
    | ⟨1, _⟩ => rfl)

/-- A row of the lower matrix. -/
theorem stackRows_bottom (A : (⟨2, ![a, n]⟩ : Shape).Idx → α) (B : (⟨2, ![b, n]⟩ : Shape).Idx → α)
    (h : Shape.Concatenates [⟨2, ![a, n]⟩, ⟨2, ![b, n]⟩] ⟨2, ![tot, n]⟩ 0) (i : Fin b) (k : Fin n) (hi : i.val + a < tot) :
    concatenate ⟨2, ![tot, n]⟩ 0 [⟨⟨2, ![a, n]⟩, A⟩, ⟨⟨2, ![b, n]⟩, B⟩] h (ix2 ⟨i.val + a, hi⟩ k) = B (ix2 i k) :=
  concatenate_pair_apply_right 0 A B h (ix2 ⟨i.val + a, hi⟩ k) rfl rfl (ix2 i k)
    (fun d hd => match d with
      | ⟨0, _⟩ => absurd rfl hd
      | ⟨1, _⟩ => rfl)
    rfl

/-- An entry of the first vector. -/
theorem join_left (A : (⟨1, ![a]⟩ : Shape).Idx → α) (B : (⟨1, ![b]⟩ : Shape).Idx → α)
    (h : Shape.Concatenates [⟨1, ![a]⟩, ⟨1, ![b]⟩] ⟨1, ![tot]⟩ 0) (i : Fin a) (hi : i.val < tot) :
    concatenate ⟨1, ![tot]⟩ 0 [⟨⟨1, ![a]⟩, A⟩, ⟨⟨1, ![b]⟩, B⟩] h (ix1 ⟨i.val, hi⟩) = A (ix1 i) :=
  concatenate_pair_apply_left 0 A B h (ix1 ⟨i.val, hi⟩) rfl (ix1 i) (fun d => match d with
    | ⟨0, _⟩ => rfl)

/-- An entry of the second vector. -/
theorem join_right (A : (⟨1, ![a]⟩ : Shape).Idx → α) (B : (⟨1, ![b]⟩ : Shape).Idx → α)
    (h : Shape.Concatenates [⟨1, ![a]⟩, ⟨1, ![b]⟩] ⟨1, ![tot]⟩ 0) (i : Fin b) (hi : i.val + a < tot) :
    concatenate ⟨1, ![tot]⟩ 0 [⟨⟨1, ![a]⟩, A⟩, ⟨⟨1, ![b]⟩, B⟩] h (ix1 ⟨i.val + a, hi⟩) = B (ix1 i) :=
  concatenate_pair_apply_right 0 A B h (ix1 ⟨i.val + a, hi⟩) rfl rfl (ix1 i)
    (fun d hd => match d with
      | ⟨0, _⟩ => absurd rfl hd)
    rfl

/-- A vector cast to a single row, at `(u, i)`: the vector at `i`. -/
theorem rowCast_apply (x : (⟨1, ![n]⟩ : Shape).Idx → α) (h : (⟨1, ![n]⟩ : Shape).ShapeCasts ⟨2, ![1, n]⟩)
    (u : Fin 1) (i : Fin n) : shapeCast ⟨2, ![1, n]⟩ x h (ix2 u i) = x (ix1 i) :=
  shapeCast_apply x h _ _ (by
    have hu : u.val = 0 := by omega
    rw [Shape.rowMajor_val_two, Shape.rowMajor_val_one]
    show i.val = u.val * n + i.val
    rw [hu]; omega)

end Cert.Lib.Stack
-- ==== Proof.Entry.lean ====
/-
  What the kernel's buffers hold when its first dense stage is entered, in terms of the arguments.

  Before its first dense stage the kernel's program computes, from the edge list, the two index vectors and the node
  weights exactly as the reference does (the same operations on the same argument), rounds the four weight matrices to
  a narrower float format (the identity on the extended reals), and lays the four bias vectors out as single rows.
-/
import proofs.«171012_j1348619731442_2_alg».proof.Proof.Gen.KernelIdeal.Frame
import proofs.«171012_j1348619731442_2_alg».proof.Proof.RefRead
import proofs.«171012_j1348619731442_2_alg».proof.Proof.LibFoldRead
import proofs.«171012_j1348619731442_2_alg».proof.Proof.LibLayerLaw
import proofs.«171012_j1348619731442_2_alg».proof.Proof.LibColumn
import proofs.«171012_j1348619731442_2_alg».proof.Proof.LibStack

set_option maxRecDepth 16384

noncomputable section

namespace Cert.Entry

open Idealize.ShloMosaic Idealize.ShloMosaic.TcCoe Idealize.SL.Sem Idealize.ShloMosaic.StableHlo Idealize.ShloMosaic.ValueIdx
open Cert.KernelIdeal.Gen (W0 W1 W2 W3 hostOps0 hostOps0_1 hostOps0_2)
open Cert.Gcn

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- No operation of the named stretch of host operations writes the buffer in the goal. -/
macro "host_keeps " ops:ident : tactic =>
  `(tactic| (
    refine StableHlo.after_of_forall_not_mem _ _ (List.forall_iff_forall_mem.mp ?_)
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 2000000 in
/-- The src index vector, as both programs compute it from the edge list. -/
theorem entry_src : W3 m ρ c (Proc.devRef .tc Cert.KernelIdeal.main_v3) = Cert.ReferenceIdeal.Read.val_main_v3 (F := Ideal) (m ((c : Thread Cert.KernelIdeal.nD Cert.KernelIdeal.τ).loc Cert.KernelIdeal.main_arg1)) :=
  calc W3 m ρ c (Proc.devRef .tc Cert.KernelIdeal.main_v3)
    _ = W2 m ρ c (Proc.devRef .tc Cert.KernelIdeal.main_v3) := by host_keeps hostOps0_2
    _ = W1 m ρ c (Proc.devRef .tc Cert.KernelIdeal.main_v3) := by host_keeps hostOps0_1
    _ = _ := by
      show StableHlo.after hostOps0 (W0 m ρ c) (Proc.devRef .tc Cert.KernelIdeal.main_v3) = _
      fold_results
      rfl

set_option maxHeartbeats 2000000 in
/-- The dst index vector, as both programs compute it from the edge list. -/
theorem entry_dst : W3 m ρ c (Proc.devRef .tc Cert.KernelIdeal.main_v6) = Cert.ReferenceIdeal.Read.val_main_v6 (F := Ideal) (m ((c : Thread Cert.KernelIdeal.nD Cert.KernelIdeal.τ).loc Cert.KernelIdeal.main_arg1)) :=
  calc W3 m ρ c (Proc.devRef .tc Cert.KernelIdeal.main_v6)
    _ = W2 m ρ c (Proc.devRef .tc Cert.KernelIdeal.main_v6) := by host_keeps hostOps0_2
    _ = W1 m ρ c (Proc.devRef .tc Cert.KernelIdeal.main_v6) := by host_keeps hostOps0_1
    _ = _ := by
      show StableHlo.after hostOps0 (W0 m ρ c) (Proc.devRef .tc Cert.KernelIdeal.main_v6) = _
      fold_results
      rfl

/-- Argument `main_arg0` is as launched when the first dense stage is entered. -/
theorem entry_arg0 : W3 m ρ c (Proc.devRef .tc Cert.KernelIdeal.main_arg0) = (m ((c : Thread Cert.KernelIdeal.nD Cert.KernelIdeal.τ).loc Cert.KernelIdeal.main_arg0)) :=
  calc W3 m ρ c (Proc.devRef .tc Cert.KernelIdeal.main_arg0)
    _ = W2 m ρ c (Proc.devRef .tc Cert.KernelIdeal.main_arg0) := by host_keeps hostOps0_2
    _ = W1 m ρ c (Proc.devRef .tc Cert.KernelIdeal.main_arg0) := by host_keeps hostOps0_1
    _ = W0 m ρ c (Proc.devRef .tc Cert.KernelIdeal.main_arg0) := by host_keeps hostOps0
    _ = _ := rfl

/-- The weight matrix `main_v16` is argument `main_arg2` (a change of float format is the identity on the extended reals). -/
theorem entry_v16 : toMat (N := 128) (C := 256) (W3 m ρ c (Proc.devRef .tc Cert.KernelIdeal.main_v16)) = toMat (N := 128) (C := 256) (m ((c : Thread Cert.KernelIdeal.nD Cert.KernelIdeal.τ).loc Cert.KernelIdeal.main_arg2)) := by
  show toMat (N := 128) (C := 256) (StableHlo.after hostOps0_2 (W2 m ρ c) (Proc.devRef .tc Cert.KernelIdeal.main_v16)) = _
  fold_results
  rfl

/-- The weight matrix `main_v17` is argument `main_arg4` (a change of float format is the identity on the extended reals). -/
theorem entry_v17 : toMat (N := 256) (C := 128) (W3 m ρ c (Proc.devRef .tc Cert.KernelIdeal.main_v17)) = toMat (N := 256) (C := 128) (m ((c : Thread Cert.KernelIdeal.nD Cert.KernelIdeal.τ).loc Cert.KernelIdeal.main_arg4)) := by
  show toMat (N := 256) (C := 128) (StableHlo.after hostOps0_2 (W2 m ρ c) (Proc.devRef .tc Cert.KernelIdeal.main_v17)) = _
  fold_results
  rfl

/-- The weight matrix `main_v18` is argument `main_arg6` (a change of float format is the identity on the extended reals). -/
theorem entry_v18 : toMat (N := 128) (C := 64) (W3 m ρ c (Proc.devRef .tc Cert.KernelIdeal.main_v18)) = toMat (N := 128) (C := 64) (m ((c : Thread Cert.KernelIdeal.nD Cert.KernelIdeal.τ).loc Cert.KernelIdeal.main_arg6)) := by
  show toMat (N := 128) (C := 64) (StableHlo.after hostOps0_2 (W2 m ρ c) (Proc.devRef .tc Cert.KernelIdeal.main_v18)) = _
  fold_results
  rfl

/-- The weight matrix `main_v19` is argument `main_arg8` (a change of float format is the identity on the extended reals). -/
theorem entry_v19 : toMat (N := 64) (C := 40) (W3 m ρ c (Proc.devRef .tc Cert.KernelIdeal.main_v19)) = toMat (N := 64) (C := 40) (m ((c : Thread Cert.KernelIdeal.nD Cert.KernelIdeal.τ).loc Cert.KernelIdeal.main_arg8)) := by
  show toMat (N := 64) (C := 40) (StableHlo.after hostOps0_2 (W2 m ρ c) (Proc.devRef .tc Cert.KernelIdeal.main_v19)) = _
  fold_results
  rfl

/-- The bias row `main_v20` is argument `main_arg3` laid out as one row. -/
theorem entry_v20 : toRow (C := 256) (W3 m ρ c (Proc.devRef .tc Cert.KernelIdeal.main_v20)) = toVec (N := 256) (m ((c : Thread Cert.KernelIdeal.nD Cert.KernelIdeal.τ).loc Cert.KernelIdeal.main_arg3)) := by
  have e : W3 m ρ c (Proc.devRef .tc Cert.KernelIdeal.main_v20) = shapeCast Cert.KernelIdeal.S1x256 (m ((c : Thread Cert.KernelIdeal.nD Cert.KernelIdeal.τ).loc Cert.KernelIdeal.main_arg3)) Cert.KernelIdeal.Gen.shapeCasts_S256_S1x256 := by
    show StableHlo.after hostOps0_2 (W2 m ρ c) (Proc.devRef .tc Cert.KernelIdeal.main_v20) = _
    fold_results
    rfl
  rw [e]
  funext j
  exact Cert.Lib.Stack.rowCast_apply (n := 256) _ _ (0 : Fin 1) j

/-- The bias row `main_v21` is argument `main_arg5` laid out as one row. -/
theorem entry_v21 : toRow (C := 128) (W3 m ρ c (Proc.devRef .tc Cert.KernelIdeal.main_v21)) = toVec (N := 128) (m ((c : Thread Cert.KernelIdeal.nD Cert.KernelIdeal.τ).loc Cert.KernelIdeal.main_arg5)) := by
  have e : W3 m ρ c (Proc.devRef .tc Cert.KernelIdeal.main_v21) = shapeCast Cert.KernelIdeal.S1x128 (m ((c : Thread Cert.KernelIdeal.nD Cert.KernelIdeal.τ).loc Cert.KernelIdeal.main_arg5)) Cert.KernelIdeal.Gen.shapeCasts_S128_S1x128 := by
    show StableHlo.after hostOps0_2 (W2 m ρ c) (Proc.devRef .tc Cert.KernelIdeal.main_v21) = _
    fold_results
    rfl
  rw [e]
  funext j
  exact Cert.Lib.Stack.rowCast_apply (n := 128) _ _ (0 : Fin 1) j

/-- The bias row `main_v22` is argument `main_arg7` laid out as one row. -/
theorem entry_v22 : toRow (C := 64) (W3 m ρ c (Proc.devRef .tc Cert.KernelIdeal.main_v22)) = toVec (N := 64) (m ((c : Thread Cert.KernelIdeal.nD Cert.KernelIdeal.τ).loc Cert.KernelIdeal.main_arg7)) := by
  have e : W3 m ρ c (Proc.devRef .tc Cert.KernelIdeal.main_v22) = shapeCast Cert.KernelIdeal.S1x64 (m ((c : Thread Cert.KernelIdeal.nD Cert.KernelIdeal.τ).loc Cert.KernelIdeal.main_arg7)) Cert.KernelIdeal.Gen.shapeCasts_S64_S1x64 := by
    show StableHlo.after hostOps0_2 (W2 m ρ c) (Proc.devRef .tc Cert.KernelIdeal.main_v22) = _
    fold_results
    rfl
  rw [e]
  funext j
  exact Cert.Lib.Stack.rowCast_apply (n := 64) _ _ (0 : Fin 1) j

/-- The bias row `main_v23` is argument `main_arg9` laid out as one row. -/
theorem entry_v23 : toRow (C := 40) (W3 m ρ c (Proc.devRef .tc Cert.KernelIdeal.main_v23)) = toVec (N := 40) (m ((c : Thread Cert.KernelIdeal.nD Cert.KernelIdeal.τ).loc Cert.KernelIdeal.main_arg9)) := by
  have e : W3 m ρ c (Proc.devRef .tc Cert.KernelIdeal.main_v23) = shapeCast Cert.KernelIdeal.S1x40 (m ((c : Thread Cert.KernelIdeal.nD Cert.KernelIdeal.τ).loc Cert.KernelIdeal.main_arg9)) Cert.KernelIdeal.Gen.shapeCasts_S40_S1x40 := by
    show StableHlo.after hostOps0_2 (W2 m ρ c) (Proc.devRef .tc Cert.KernelIdeal.main_v23) = _
    fold_results
    rfl
  rw [e]
  funext j
  exact Cert.Lib.Stack.rowCast_apply (n := 40) _ _ (0 : Fin 1) j

end Cert.Entry

end
-- ==== Proof.EntryWeights.lean ====
/-
  The kernel's column of node weights is the reference's weight vector.

  Both programs count each node's in-degree by adding ones into a zero at the edges' targets, and take the reciprocal
  square root where the count is positive and zero elsewhere: the same operations on the same edge list.  The kernel
  then lays the vector out as one column.
-/
import proofs.«171012_j1348619731442_2_alg».proof.Proof.Gen.KernelIdeal.Frame
import proofs.«171012_j1348619731442_2_alg».proof.Proof.RefRead
import proofs.«171012_j1348619731442_2_alg».proof.Proof.LibFoldRead
import proofs.«171012_j1348619731442_2_alg».proof.Proof.LibLayerLaw
import proofs.«171012_j1348619731442_2_alg».proof.Proof.LibColumn
import proofs.«171012_j1348619731442_2_alg».proof.Proof.LibStack

set_option maxRecDepth 16384

noncomputable section

namespace Cert.EntryWeights

open Idealize.ShloMosaic Idealize.ShloMosaic.TcCoe Idealize.SL.Sem Idealize.ShloMosaic.StableHlo Idealize.ShloMosaic.ValueIdx
open Cert.KernelIdeal.Gen (W0 W1 W2 W3 hostOps0 hostOps0_1 hostOps0_2)
open Cert.Gcn

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- No operation of the named stretch of host operations writes the buffer in the goal. -/
macro "host_keeps " ops:ident : tactic =>
  `(tactic| (
    refine StableHlo.after_of_forall_not_mem _ _ (List.forall_iff_forall_mem.mp ?_)
    simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

section Stretch

/-! Each stretch of host operations before the first dense stage, read at an ARBITRARY valuation of the buffers it
    starts from. -/

variable (V : Valuation Cert.KernelIdeal.τ Cert.KernelIdeal.sig (Elt Ideal))

/-- The weight column is the weight vector laid out as one column. -/
theorem column_of_weights : StableHlo.after (hostOps0_2 (F := Ideal)) V (Proc.devRef .tc Cert.KernelIdeal.main_v15)
    = shapeCast Cert.KernelIdeal.S50000x1 (V (Proc.devRef .tc Cert.KernelIdeal.main_v14)) Cert.KernelIdeal.Gen.shapeCasts_S50000_S50000x1 := by
  fold_results
  rfl

/-- The weight vector is the guarded choice between the reciprocal square root and zero. -/
theorem weights_of_choice : StableHlo.after (hostOps0_1 (F := Ideal)) V (Proc.devRef .tc Cert.KernelIdeal.main_v14)
    = select (V (Proc.devRef .tc Cert.KernelIdeal.main_v12)) (V (Proc.devRef .tc Cert.KernelIdeal.main_v13)) (broadcastInDim Cert.KernelIdeal.S50000 ![] Cert.KernelIdeal.Gen.bcast_S_S50000 (V (Proc.devRef .tc Cert.KernelIdeal.main_cst_2))) := by
  fold_results
  simp only [TRef.toBuf, TRef.ofBuf, cast_eq]
  rfl

set_option maxHeartbeats 1000000 in
/-- The guard "the in-degree is positive", as the reference computes it. -/
theorem guard_eq : StableHlo.after (hostOps0 (F := Ideal)) V (Proc.devRef .tc Cert.KernelIdeal.main_v12)
    = Cert.ReferenceIdeal.Read.val_main_v12 (F := Ideal) (V (Proc.devRef .tc Cert.KernelIdeal.main_arg1)) := by
  fold_results
  rfl

set_option maxHeartbeats 1000000 in
/-- The reciprocal square root of the in-degree, as the reference computes it. -/
theorem rsqrt_eq : StableHlo.after (hostOps0 (F := Ideal)) V (Proc.devRef .tc Cert.KernelIdeal.main_v13)
    = Cert.ReferenceIdeal.Read.val_main_v13 (F := Ideal) (V (Proc.devRef .tc Cert.KernelIdeal.main_arg1)) := by
  fold_results
  rfl

set_option maxHeartbeats 1000000 in
/-- The zero the guard falls back to. -/
theorem zero_eq : StableHlo.after (hostOps0 (F := Ideal)) V (Proc.devRef .tc Cert.KernelIdeal.main_cst_2) = Cert.ReferenceIdeal.Read.val_main_cst_2 (F := Ideal) := by
  fold_results
  rfl

end Stretch

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The column of node weights is the reference's weight vector laid out as a column. -/
theorem entry_dinv_term : W3 m ρ c (Proc.devRef .tc Cert.KernelIdeal.main_v15)
    = shapeCast Cert.KernelIdeal.S50000x1 (Cert.ReferenceIdeal.Read.val_main_v14 (F := Ideal) (m ((c : Thread Cert.KernelIdeal.nD Cert.KernelIdeal.τ).loc Cert.KernelIdeal.main_arg1))) Cert.KernelIdeal.Gen.shapeCasts_S50000_S50000x1 := by
  have e15 : W3 m ρ c (Proc.devRef .tc Cert.KernelIdeal.main_v15) = shapeCast Cert.KernelIdeal.S50000x1 (W2 m ρ c (Proc.devRef .tc Cert.KernelIdeal.main_v14)) Cert.KernelIdeal.Gen.shapeCasts_S50000_S50000x1 :=
    column_of_weights (W2 m ρ c)
  have e14 : W2 m ρ c (Proc.devRef .tc Cert.KernelIdeal.main_v14)
      = select (W1 m ρ c (Proc.devRef .tc Cert.KernelIdeal.main_v12)) (W1 m ρ c (Proc.devRef .tc Cert.KernelIdeal.main_v13)) (broadcastInDim Cert.KernelIdeal.S50000 ![] Cert.KernelIdeal.Gen.bcast_S_S50000 (W1 m ρ c (Proc.devRef .tc Cert.KernelIdeal.main_cst_2))) :=
    weights_of_choice (W1 m ρ c)
  have e12 : W1 m ρ c (Proc.devRef .tc Cert.KernelIdeal.main_v12) = Cert.ReferenceIdeal.Read.val_main_v12 (F := Ideal) (m ((c : Thread Cert.KernelIdeal.nD Cert.KernelIdeal.τ).loc Cert.KernelIdeal.main_arg1)) := guard_eq (W0 m ρ c)
  have e13 : W1 m ρ c (Proc.devRef .tc Cert.KernelIdeal.main_v13) = Cert.ReferenceIdeal.Read.val_main_v13 (F := Ideal) (m ((c : Thread Cert.KernelIdeal.nD Cert.KernelIdeal.τ).loc Cert.KernelIdeal.main_arg1)) := rsqrt_eq (W0 m ρ c)
  have ez : W1 m ρ c (Proc.devRef .tc Cert.KernelIdeal.main_cst_2) = Cert.ReferenceIdeal.Read.val_main_cst_2 (F := Ideal) := zero_eq (W0 m ρ c)
  rw [e15, e14, e12, e13, ez]
  rfl

/-- The column of node weights is the reference's weight vector. -/
theorem entry_dinv : toCol (N := 50000) (W3 m ρ c (Proc.devRef .tc Cert.KernelIdeal.main_v15)) = toVec (N := 50000) (Cert.ReferenceIdeal.Read.val_main_v14 (F := Ideal) (m ((c : Thread Cert.KernelIdeal.nD Cert.KernelIdeal.τ).loc Cert.KernelIdeal.main_arg1))) := by
  rw [entry_dinv_term]
  funext n
  exact Cert.Lib.Column.shapeCast_a_a1_apply (a := 50000) _ _ n (0 : Fin 1)

end Cert.EntryWeights

end
-- ==== Proof.LibGatherRead.lean ====
/-
  A one-dimensional table read through a column of start indices: `x[idx]` for `x : [N]` and `idx : [R, 1]`.

  Result entry `e` is the table's entry at the start index `idx (e, 0)`, read as a signed integer and clamped into
  `[0, N − 1]` so that the one-element slice fits.
-/
import Idealize.ShloMosaic.Lib.ValueIdx

noncomputable section

namespace Cert.LibGatherRead

open Idealize.ShloMosaic Idealize.ShloMosaic.ValueIdx

variable {α : Type} {N R w : Nat}

/-- The dimension numbers of `x[idx]` for `x : [N]`, `idx : [R, 1]`: the table's one axis is collapsed and indexed by the
    start index, whose components run along axis 1 of `idx`. -/
abbrev take1Dims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE TABLE LOOKUP READ AT `e`: the table at the start index `idx (e, 0)`, signed and clamped into `[0, N − 1]`. -/
theorem gather_take1_apply (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (take1Dims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (take1Dims N R wf).start (ix1 e) idx 0 + (take1Dims N R wf).batchCoord (ix1 e) 0
    + (take1Dims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx (ix1 e) ⟨List.idxOf (0 : Fin 1) (take1Dims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherRead

end
-- ==== Proof.RefValue.lean ====
/-
  The reference program's result as four graph-convolution layers with edge coefficients.

  The reference computes, for the edge list (source and target index vectors with one self-loop per node appended)
  and the node weights `d` (inverse square roots of the in-degrees), the edge coefficient `d (source) · d (target)`
  through two table lookups, and then four times: a matrix product, a gather of the source rows, a product with the
  coefficients repeated along the rows, an accumulating scatter into a zero matrix at the target rows, the bias row
  added to every row, and (except after the last layer) a clamp below at zero.

  Read entry by entry this is LibLayerLaw's first way: at node `n` and column `j` the scatter gives
  `0 + ∑ e ∈ edges into n, (h · w) (source e, j) · c e`.  The gather reads the wrapped and clamped source index, the
  scatter keeps the edges whose target index is `n` as it stands: LibGraph's `nodeAt` and `edgesInto`.
-/
import proofs.«171012_j1348619731442_2_alg».proof.Proof.RefRead
import proofs.«171012_j1348619731442_2_alg».proof.Proof.LibLayerLaw
import proofs.«171012_j1348619731442_2_alg».proof.Proof.LibGraph
import proofs.«171012_j1348619731442_2_alg».proof.Proof.LibAggregate
import proofs.«171012_j1348619731442_2_alg».proof.Proof.LibGatherRead
import proofs.«171012_j1348619731442_2_alg».proof.Proof.LibPlainProduct

noncomputable section

open scoped BigOperators

namespace Cert.ReferenceIdeal.RefValue
open Cert.ReferenceIdeal Cert.ReferenceIdeal.Gen Cert.Gcn Cert.Graph
open Idealize.ShloMosaic Idealize.ShloMosaic.TcCoe Idealize.SL.Sem Idealize.ShloMosaic.ValueIdx
open Cert.Aggregate Cert.LibGatherRead Cert.PlainProduct

/-! ## Layouts read at an index, over arbitrary sizes -/

section Generic

variable {N R Ci C : Nat}

/-- A column repeated across `C` columns: entry `(e, k)` is the column's entry `e`. -/
theorem columnAcross_apply {α : Type} (x : (⟨2, ![R, 1]⟩ : Shape).Idx → α)
    (h : (⟨2, ![R, 1]⟩ : Shape).BroadcastsInDim ⟨2, ![R, C]⟩ ![0, 1]) (e : Fin R) (k : Fin C) :
    broadcastInDim ⟨2, ![R, C]⟩ ![0, 1] h x (ix2 e k) = x (ix2 e (0 : Fin 1)) :=
  broadcastInDim_apply _ h x (ix2 e k) (ix2 e (0 : Fin 1)) (fun a => match a with
    | ⟨0, _⟩ => by
      show e.val = if R = 1 then 0 else e.val
      split
      · have := e.isLt; omega
      · rfl
    | ⟨1, _⟩ => by
      show 0 = if (1 : Nat) = 1 then 0 else k.val
      rw [if_pos rfl])

/-- A vector laid out as one row: entry `(u, k)` is entry `k`. -/
theorem row_apply {α : Type} (x : (⟨1, ![C]⟩ : Shape).Idx → α)
    (h : (⟨1, ![C]⟩ : Shape).BroadcastsInDim ⟨2, ![1, C]⟩ ![1]) (u : Fin 1) (k : Fin C) :
    broadcastInDim ⟨2, ![1, C]⟩ ![1] h x (ix2 u k) = x (ix1 k) :=
  broadcastInDim_apply _ h x (ix2 u k) (ix1 k) (fun a => match a with
    | ⟨0, _⟩ => by
      show k.val = if C = 1 then 0 else k.val
      split
      · have := k.isLt; omega
      · rfl)

/-- A row repeated down `N` rows: entry `(n, k)` is the row's entry `k`. -/
theorem rowDown_apply {α : Type} (x : (⟨2, ![1, C]⟩ : Shape).Idx → α)
    (h : (⟨2, ![1, C]⟩ : Shape).BroadcastsInDim ⟨2, ![N, C]⟩ ![0, 1]) (n : Fin N) (k : Fin C) :
    broadcastInDim ⟨2, ![N, C]⟩ ![0, 1] h x (ix2 n k) = x (ix2 (0 : Fin 1) k) :=
  broadcastInDim_apply _ h x (ix2 n k) (ix2 (0 : Fin 1) k) (fun a => match a with
    | ⟨0, _⟩ => by
      show 0 = if (1 : Nat) = 1 then 0 else n.val
      rw [if_pos rfl]
    | ⟨1, _⟩ => by
      show k.val = if C = 1 then 0 else k.val
      split
      · have := k.isLt; omega
      · rfl)

/-! ## One layer, over arbitrary sizes -/

/-- The row a gather reads through a column whose entries are the wrapped indices is the node of the edge. -/
theorem srcRow_eq_nodeAt (hN : 0 < N) (src : IVec ⟨1, ![R]⟩ 32) (srccol : IVec ⟨2, ![R, 1]⟩ 32)
    (hsrc : ∀ e : Fin R, srccol (ix2 e (0 : Fin 1)) = wrap N (src (ix1 e))) (e : Fin R) :
    srcRow hN srccol e = nodeAt hN src e := by
  refine Fin.ext ?_
  show min (srccol (ix2 e (0 : Fin 1))).toInt.toNat (N - 1) = min (wrap N (src (ix1 e))).toInt.toNat (N - 1)
  rw [hsrc e]

/-- THE AGGREGATION OF ONE LAYER.  The product `h · w`, its rows gathered through the wrapped source column, scaled by
    the coefficient of the edge, and added into a zero matrix at the rows the target column names, is at `(n, j)`
    `0 + ∑ e ∈ edges into n, (h · w) (source e, j) · c e`. -/
theorem aggregate_toMat (hN : 0 < N)
    (wfg : GatherDims.WF ⟨2, ![N, C]⟩ ⟨2, ![R, 1]⟩ ⟨2, ![R, C]⟩ [1] [0] [] [0] [] 1 ![1, C])
    (wfs : ScatterDims.WF ⟨2, ![N, C]⟩ ⟨2, ![R, 1]⟩ ⟨2, ![R, C]⟩ [1] [0] [0] 1)
    (d : DotDims ⟨2, ![N, Ci]⟩ ⟨2, ![Ci, C]⟩ ⟨2, ![N, C]⟩) (hd : d = DotDims.plain N Ci C)
    (prec : Option ContractPrecision)
    (h : FVec Ideal ⟨2, ![N, Ci]⟩ .f32) (w : FVec Ideal ⟨2, ![Ci, C]⟩ .f32)
    (src dst : IVec ⟨1, ![R]⟩ 32)
    (srccol : IVec ⟨2, ![R, 1]⟩ 32) (hsrc : ∀ e : Fin R, srccol (ix2 e (0 : Fin 1)) = wrap N (src (ix1 e)))
    (dstcol : IVec ⟨2, ![R, 1]⟩ 32) (hdst : ∀ e : Fin R, dstcol (ix2 e (0 : Fin 1)) = dst (ix1 e))
    (Z : FVec Ideal ⟨2, ![N, C]⟩ .f32) (hZ : ∀ i, Z i = 0)
    (nb : FVec Ideal ⟨2, ![R, C]⟩ .f32) (c : Fin R → EReal) (hnb : ∀ (e : Fin R) (k : Fin C), nb (ix2 e k) = c e) :
    toMat (Host.scatterAdd (rowScatter N R C wfs) Z dstcol
        (mulf (Host.gather (rowGather N R C wfg) (Host.dotGeneral d prec h w) srccol) nb))
      = sumCoefRows (edgesInto N dst) (nodeAt hN src) c (mm (toMat h) (toMat w)) := by
  funext n j
  show Host.scatterAdd (rowScatter N R C wfs) Z dstcol
        (mulf (Host.gather (rowGather N R C wfg) (Host.dotGeneral d prec h w) srccol) nb) (ix2 n j)
      = 0 + ∑ e ∈ edgesInto N dst n, mm (toMat h) (toMat w) (nodeAt hN src e) j * c e
  rw [scatterAdd_rows_apply, hZ]
  have hS : (Finset.univ.filter fun e : Fin R => (dstcol (ix2 e (0 : Fin 1))).toInt = (n.val : Int))
      = edgesInto N dst n := by
    unfold edgesInto
    refine Finset.filter_congr fun e _ => ?_
    rw [hdst e]
  rw [hS]
  congr 1
  refine Finset.sum_congr rfl fun e _ => ?_
  rw [mulf_apply, gather_rows_apply hN, hnb, srcRow_eq_nodeAt hN src srccol hsrc e, dotGeneral_plain_apply' d hd]
  rfl

/-- A table lookup through a column whose entries are the wrapped indices reads the table at the node of the edge. -/
theorem take1_wrapped (hN : 0 < N)
    (wf : GatherDims.WF ⟨1, ![N]⟩ ⟨2, ![R, 1]⟩ ⟨1, ![R]⟩ [] [0] [] [0] [] 1 ![1])
    (x : FVec Ideal ⟨1, ![N]⟩ .f32) (src : IVec ⟨1, ![R]⟩ 32) (srccol : IVec ⟨2, ![R, 1]⟩ 32)
    (hsrc : ∀ e : Fin R, srccol (ix2 e (0 : Fin 1)) = wrap N (src (ix1 e))) (e : Fin R) :
    Host.gather (take1Dims N R wf) x srccol (ix1 e) = toVec x (nodeAt hN src e) := by
  refine (gather_take1_apply hN wf x srccol e).trans ?_
  refine congrArg (fun n : Fin N => x (ix1 n)) (Fin.ext ?_)
  show min (srccol (ix2 e (0 : Fin 1))).toInt.toNat (N - 1) = min (wrap N (src (ix1 e))).toInt.toNat (N - 1)
  rw [hsrc e]

/-- THE EDGE COEFFICIENT: the product of the node weights looked up at the two ends of an edge. -/
theorem coef_apply (hN : 0 < N)
    (wf : GatherDims.WF ⟨1, ![N]⟩ ⟨2, ![R, 1]⟩ ⟨1, ![R]⟩ [] [0] [] [0] [] 1 ![1])
    (x : FVec Ideal ⟨1, ![N]⟩ .f32) (src dst : IVec ⟨1, ![R]⟩ 32) (srccol dstcol : IVec ⟨2, ![R, 1]⟩ 32)
    (hsrc : ∀ e : Fin R, srccol (ix2 e (0 : Fin 1)) = wrap N (src (ix1 e)))
    (hdst : ∀ e : Fin R, dstcol (ix2 e (0 : Fin 1)) = wrap N (dst (ix1 e))) (e : Fin R) :
    mulf (Host.gather (take1Dims N R wf) x srccol) (Host.gather (take1Dims N R wf) x dstcol) (ix1 e)
      = edgeCoef (toVec x) (nodeAt hN src) (nodeAt hN dst) e := by
  rw [mulf_apply, take1_wrapped hN wf x src srccol hsrc e, take1_wrapped hN wf x dst dstcol hdst e]
  rfl

/-- Adding a matrix whose every row is `b` is adding the bias row. -/
theorem addBias_toMat (a bb : FVec Ideal ⟨2, ![N, C]⟩ .f32) (b : Fin C → EReal)
    (hb : ∀ (n : Fin N) (k : Fin C), bb (ix2 n k) = b k) : toMat (addf a bb) = addBias (toMat a) b := by
  funext n k
  show a (ix2 n k) + bb (ix2 n k) = a (ix2 n k) + b k
  rw [hb]

/-- The maximum with a matrix of zeros is the clamp below at zero. -/
theorem relu_toMat (a z : FVec Ideal ⟨2, ![N, C]⟩ .f32) (hz : ∀ i, z i = 0) : toMat (maximumf a z) = relu (toMat a) := by
  funext n k
  show max (a (ix2 n k)) (z (ix2 n k)) = max (a (ix2 n k)) 0
  rw [hz]

end Generic

/-! ## The reference's index columns, coefficients and constants -/

section Reference

variable (x0 : (⟨S50000x128, .f32⟩ : BufTy).Contents (Elt Ideal))
  (x1 : (⟨S2x800000, .i32⟩ : BufTy).Contents (Elt Ideal))
  (x2 : (⟨S128x256, .f32⟩ : BufTy).Contents (Elt Ideal))
  (x3 : (⟨S256, .f32⟩ : BufTy).Contents (Elt Ideal))
  (x4 : (⟨S256x128, .f32⟩ : BufTy).Contents (Elt Ideal))
  (x5 : (⟨S128, .f32⟩ : BufTy).Contents (Elt Ideal))
  (x6 : (⟨S128x64, .f32⟩ : BufTy).Contents (Elt Ideal))
  (x7 : (⟨S64, .f32⟩ : BufTy).Contents (Elt Ideal))
  (x8 : (⟨S64x40, .f32⟩ : BufTy).Contents (Elt Ideal))
  (x9 : (⟨S40, .f32⟩ : BufTy).Contents (Elt Ideal))

theorem wrapcol_v20 (e : Fin 850000) :
    Read.val_main_v20 (F := Ideal) x1 (ix2 e (0 : Fin 1)) = wrap 50000 (Read.val_main_v3 (F := Ideal) x1 (ix1 e)) := by
  unfold Read.val_main_v20 Read.val_main_v19 Read.val_main_v16 Read.val_main_v18 Read.val_main_v15 Read.val_main_v17 Read.val_main_c Read.val_main_c_3
  exact wrapped_column_apply (N := 50000) (Read.val_main_v3 (F := Ideal) x1) _ _ _ e 0

theorem wrapcol_v27 (e : Fin 850000) :
    Read.val_main_v27 (F := Ideal) x1 (ix2 e (0 : Fin 1)) = wrap 50000 (Read.val_main_v6 (F := Ideal) x1 (ix1 e)) := by
  unfold Read.val_main_v27 Read.val_main_v26 Read.val_main_v23 Read.val_main_v25 Read.val_main_v22 Read.val_main_v24 Read.val_main_c_4 Read.val_main_c_5
  exact wrapped_column_apply (N := 50000) (Read.val_main_v6 (F := Ideal) x1) _ _ _ e 0

/-- The reference's edge coefficient: the product of the two lookups of the node weights. -/
theorem norm_apply (e : Fin 850000) :
    Read.val_main_v29 (F := Ideal) x1 (ix1 e) = (edgeCoef (toVec (N := 50000) (Read.val_main_v14 (F := Ideal) x1)) (nodeAt (N := 50000) (by decide) (Read.val_main_v3 (F := Ideal) x1)) (nodeAt (N := 50000) (by decide) (Read.val_main_v6 (F := Ideal) x1))) e := by
  unfold Read.val_main_v29 Read.val_main_v21 Read.val_main_v28
  exact coef_apply (N := 50000) (R := 850000) (by decide) _ (Read.val_main_v14 (F := Ideal) x1) (Read.val_main_v3 (F := Ideal) x1) (Read.val_main_v6 (F := Ideal) x1)
    (Read.val_main_v20 (F := Ideal) x1) (Read.val_main_v27 (F := Ideal) x1) (wrapcol_v20 x1) (wrapcol_v27 x1) e

theorem wrapcol_v36 (e : Fin 850000) :
    Read.val_main_v36 (F := Ideal) x1 (ix2 e (0 : Fin 1)) = wrap 50000 (Read.val_main_v3 (F := Ideal) x1 (ix1 e)) := by
  unfold Read.val_main_v36 Read.val_main_v35 Read.val_main_v32 Read.val_main_v34 Read.val_main_v31 Read.val_main_v33 Read.val_main_c_6 Read.val_main_c_7
  exact wrapped_column_apply (N := 50000) (Read.val_main_v3 (F := Ideal) x1) _ _ _ e 0

theorem dstcol_v42 (e : Fin 850000) :
    Read.val_main_v42 (F := Ideal) x1 (ix2 e (0 : Fin 1)) = Read.val_main_v6 (F := Ideal) x1 (ix1 e) := by
  unfold Read.val_main_v42
  exact column_apply (Read.val_main_v6 (F := Ideal) x1) _ e 0

theorem zero_v41 (i : S50000x256.Idx) : Read.val_main_v41 (F := Ideal) i = 0 := by
  unfold Read.val_main_v41 Read.val_main_cst_8
  exact (splat_apply _ _ i).trans Ideal.ofBits_zero_f32

theorem norm_v39 (e : Fin 850000) (k : Fin 256) :
    Read.val_main_v39 (F := Ideal) x1 (ix2 e k) = (edgeCoef (toVec (N := 50000) (Read.val_main_v14 (F := Ideal) x1)) (nodeAt (N := 50000) (by decide) (Read.val_main_v3 (F := Ideal) x1)) (nodeAt (N := 50000) (by decide) (Read.val_main_v6 (F := Ideal) x1))) e := by
  unfold Read.val_main_v39 Read.val_main_v38
  exact ((columnAcross_apply _ _ e k).trans (column_apply _ _ e 0)).trans (norm_apply x1 e)

theorem bias_v45 (n : Fin 50000) (k : Fin 256) :
    Read.val_main_v45 (F := Ideal) x3 (ix2 n k) = toVec (N := 256) x3 k := by
  unfold Read.val_main_v45 Read.val_main_v44
  exact (rowDown_apply _ _ n k).trans (row_apply _ _ 0 k)

theorem zero_call1_v0 (i : S50000x256.Idx) : Read.val_main_call1_v0 (F := Ideal) i = 0 := by
  unfold Read.val_main_call1_v0 Read.val_main_call1_cst
  exact (splat_apply _ _ i).trans Ideal.ofBits_zero_f32

theorem wrapcol_v54 (e : Fin 850000) :
    Read.val_main_v54 (F := Ideal) x1 (ix2 e (0 : Fin 1)) = wrap 50000 (Read.val_main_v3 (F := Ideal) x1 (ix1 e)) := by
  unfold Read.val_main_v54 Read.val_main_v53 Read.val_main_v50 Read.val_main_v52 Read.val_main_v49 Read.val_main_v51 Read.val_main_c_9 Read.val_main_c_10
  exact wrapped_column_apply (N := 50000) (Read.val_main_v3 (F := Ideal) x1) _ _ _ e 0

theorem dstcol_v60 (e : Fin 850000) :
    Read.val_main_v60 (F := Ideal) x1 (ix2 e (0 : Fin 1)) = Read.val_main_v6 (F := Ideal) x1 (ix1 e) := by
  unfold Read.val_main_v60
  exact column_apply (Read.val_main_v6 (F := Ideal) x1) _ e 0

theorem zero_v59 (i : S50000x128.Idx) : Read.val_main_v59 (F := Ideal) i = 0 := by
  unfold Read.val_main_v59 Read.val_main_cst_11
  exact (splat_apply _ _ i).trans Ideal.ofBits_zero_f32

theorem norm_v57 (e : Fin 850000) (k : Fin 128) :
    Read.val_main_v57 (F := Ideal) x1 (ix2 e k) = (edgeCoef (toVec (N := 50000) (Read.val_main_v14 (F := Ideal) x1)) (nodeAt (N := 50000) (by decide) (Read.val_main_v3 (F := Ideal) x1)) (nodeAt (N := 50000) (by decide) (Read.val_main_v6 (F := Ideal) x1))) e := by
  unfold Read.val_main_v57 Read.val_main_v56
  exact ((columnAcross_apply _ _ e k).trans (column_apply _ _ e 0)).trans (norm_apply x1 e)

theorem bias_v63 (n : Fin 50000) (k : Fin 128) :
    Read.val_main_v63 (F := Ideal) x5 (ix2 n k) = toVec (N := 128) x5 k := by
  unfold Read.val_main_v63 Read.val_main_v62
  exact (rowDown_apply _ _ n k).trans (row_apply _ _ 0 k)

theorem zero_call2_v0 (i : S50000x128.Idx) : Read.val_main_call2_v0 (F := Ideal) i = 0 := by
  unfold Read.val_main_call2_v0 Read.val_main_call2_cst
  exact (splat_apply _ _ i).trans Ideal.ofBits_zero_f32

theorem wrapcol_v72 (e : Fin 850000) :
    Read.val_main_v72 (F := Ideal) x1 (ix2 e (0 : Fin 1)) = wrap 50000 (Read.val_main_v3 (F := Ideal) x1 (ix1 e)) := by
  unfold Read.val_main_v72 Read.val_main_v71 Read.val_main_v68 Read.val_main_v70 Read.val_main_v67 Read.val_main_v69 Read.val_main_c_12 Read.val_main_c_13
  exact wrapped_column_apply (N := 50000) (Read.val_main_v3 (F := Ideal) x1) _ _ _ e 0

theorem dstcol_v78 (e : Fin 850000) :
    Read.val_main_v78 (F := Ideal) x1 (ix2 e (0 : Fin 1)) = Read.val_main_v6 (F := Ideal) x1 (ix1 e) := by
  unfold Read.val_main_v78
  exact column_apply (Read.val_main_v6 (F := Ideal) x1) _ e 0

theorem zero_v77 (i : S50000x64.Idx) : Read.val_main_v77 (F := Ideal) i = 0 := by
  unfold Read.val_main_v77 Read.val_main_cst_14
  exact (splat_apply _ _ i).trans Ideal.ofBits_zero_f32

theorem norm_v75 (e : Fin 850000) (k : Fin 64) :
    Read.val_main_v75 (F := Ideal) x1 (ix2 e k) = (edgeCoef (toVec (N := 50000) (Read.val_main_v14 (F := Ideal) x1)) (nodeAt (N := 50000) (by decide) (Read.val_main_v3 (F := Ideal) x1)) (nodeAt (N := 50000) (by decide) (Read.val_main_v6 (F := Ideal) x1))) e := by
  unfold Read.val_main_v75 Read.val_main_v74
  exact ((columnAcross_apply _ _ e k).trans (column_apply _ _ e 0)).trans (norm_apply x1 e)

theorem bias_v81 (n : Fin 50000) (k : Fin 64) :
    Read.val_main_v81 (F := Ideal) x7 (ix2 n k) = toVec (N := 64) x7 k := by
  unfold Read.val_main_v81 Read.val_main_v80
  exact (rowDown_apply _ _ n k).trans (row_apply _ _ 0 k)

theorem zero_call3_v0 (i : S50000x64.Idx) : Read.val_main_call3_v0 (F := Ideal) i = 0 := by
  unfold Read.val_main_call3_v0 Read.val_main_call3_cst
  exact (splat_apply _ _ i).trans Ideal.ofBits_zero_f32

theorem wrapcol_v90 (e : Fin 850000) :
    Read.val_main_v90 (F := Ideal) x1 (ix2 e (0 : Fin 1)) = wrap 50000 (Read.val_main_v3 (F := Ideal) x1 (ix1 e)) := by
  unfold Read.val_main_v90 Read.val_main_v89 Read.val_main_v86 Read.val_main_v88 Read.val_main_v85 Read.val_main_v87 Read.val_main_c_15 Read.val_main_c_16
  exact wrapped_column_apply (N := 50000) (Read.val_main_v3 (F := Ideal) x1) _ _ _ e 0

theorem dstcol_v96 (e : Fin 850000) :
    Read.val_main_v96 (F := Ideal) x1 (ix2 e (0 : Fin 1)) = Read.val_main_v6 (F := Ideal) x1 (ix1 e) := by
  unfold Read.val_main_v96
  exact column_apply (Read.val_main_v6 (F := Ideal) x1) _ e 0

theorem zero_v95 (i : S50000x40.Idx) : Read.val_main_v95 (F := Ideal) i = 0 := by
  unfold Read.val_main_v95 Read.val_main_cst_17
  exact (splat_apply _ _ i).trans Ideal.ofBits_zero_f32

theorem norm_v93 (e : Fin 850000) (k : Fin 40) :
    Read.val_main_v93 (F := Ideal) x1 (ix2 e k) = (edgeCoef (toVec (N := 50000) (Read.val_main_v14 (F := Ideal) x1)) (nodeAt (N := 50000) (by decide) (Read.val_main_v3 (F := Ideal) x1)) (nodeAt (N := 50000) (by decide) (Read.val_main_v6 (F := Ideal) x1))) e := by
  unfold Read.val_main_v93 Read.val_main_v92
  exact ((columnAcross_apply _ _ e k).trans (column_apply _ _ e 0)).trans (norm_apply x1 e)

theorem bias_v99 (n : Fin 50000) (k : Fin 40) :
    Read.val_main_v99 (F := Ideal) x9 (ix2 n k) = toVec (N := 40) x9 k := by
  unfold Read.val_main_v99 Read.val_main_v98
  exact (rowDown_apply _ _ n k).trans (row_apply _ _ 0 k)

/-! ## The four layers -/

/-- Layer 1 before the clamp: the aggregation of `h · w` plus the bias row. -/
theorem pre_1 :
    toMat (N := 50000) (C := 256) (Read.val_main_v46 (F := Ideal) x0 x1 x2 x3)
      = addBias (sumCoefRows (edgesInto 50000 (Read.val_main_v6 (F := Ideal) x1)) (nodeAt (N := 50000) (by decide) (Read.val_main_v3 (F := Ideal) x1)) (edgeCoef (toVec (N := 50000) (Read.val_main_v14 (F := Ideal) x1)) (nodeAt (N := 50000) (by decide) (Read.val_main_v3 (F := Ideal) x1)) (nodeAt (N := 50000) (by decide) (Read.val_main_v6 (F := Ideal) x1))) (mm (toMat (N := 50000) (C := 128) x0) (toMat (N := 128) (C := 256) x2))) (toVec (N := 256) x3) := by
  unfold Read.val_main_v46
  refine (addBias_toMat _ _ _ (bias_v45 x3)).trans ?_
  unfold Read.val_main_v43 Read.val_main_v40 Read.val_main_v37 Read.val_main_v30
  exact congrArg (fun a => addBias a (toVec (N := 256) x3))
    (aggregate_toMat (N := 50000) (R := 850000) (Ci := 128) (C := 256) (by decide) _ _ _ rfl none x0 x2
      (Read.val_main_v3 (F := Ideal) x1) (Read.val_main_v6 (F := Ideal) x1) (Read.val_main_v36 (F := Ideal) x1) (wrapcol_v36 x1) (Read.val_main_v42 (F := Ideal) x1) (dstcol_v42 x1)
      (Read.val_main_v41 (F := Ideal)) zero_v41 (Read.val_main_v39 (F := Ideal) x1) _ (norm_v39 x1))

/-- Layer 1: clamped below at zero. -/
theorem out_1 :
    toMat (N := 50000) (C := 256) (Read.val_main_v47 (F := Ideal) x0 x1 x2 x3)
      = relu (addBias (sumCoefRows (edgesInto 50000 (Read.val_main_v6 (F := Ideal) x1)) (nodeAt (N := 50000) (by decide) (Read.val_main_v3 (F := Ideal) x1)) (edgeCoef (toVec (N := 50000) (Read.val_main_v14 (F := Ideal) x1)) (nodeAt (N := 50000) (by decide) (Read.val_main_v3 (F := Ideal) x1)) (nodeAt (N := 50000) (by decide) (Read.val_main_v6 (F := Ideal) x1))) (mm (toMat (N := 50000) (C := 128) x0) (toMat (N := 128) (C := 256) x2))) (toVec (N := 256) x3)) := by
  unfold Read.val_main_v47
  exact (relu_toMat _ _ zero_call1_v0).trans (congrArg relu (pre_1 x0 x1 x2 x3))

/-- Layer 2 before the clamp: the aggregation of `h · w` plus the bias row. -/
theorem pre_2 :
    toMat (N := 50000) (C := 128) (Read.val_main_v64 (F := Ideal) x0 x1 x2 x3 x4 x5)
      = addBias (sumCoefRows (edgesInto 50000 (Read.val_main_v6 (F := Ideal) x1)) (nodeAt (N := 50000) (by decide) (Read.val_main_v3 (F := Ideal) x1)) (edgeCoef (toVec (N := 50000) (Read.val_main_v14 (F := Ideal) x1)) (nodeAt (N := 50000) (by decide) (Read.val_main_v3 (F := Ideal) x1)) (nodeAt (N := 50000) (by decide) (Read.val_main_v6 (F := Ideal) x1))) (mm (toMat (N := 50000) (C := 256) (Read.val_main_v47 (F := Ideal) x0 x1 x2 x3)) (toMat (N := 256) (C := 128) x4))) (toVec (N := 128) x5) := by
  unfold Read.val_main_v64
  refine (addBias_toMat _ _ _ (bias_v63 x5)).trans ?_
  unfold Read.val_main_v61 Read.val_main_v58 Read.val_main_v55 Read.val_main_v48
  exact congrArg (fun a => addBias a (toVec (N := 128) x5))
    (aggregate_toMat (N := 50000) (R := 850000) (Ci := 256) (C := 128) (by decide) _ _ _ rfl none (Read.val_main_v47 (F := Ideal) x0 x1 x2 x3) x4
      (Read.val_main_v3 (F := Ideal) x1) (Read.val_main_v6 (F := Ideal) x1) (Read.val_main_v54 (F := Ideal) x1) (wrapcol_v54 x1) (Read.val_main_v60 (F := Ideal) x1) (dstcol_v60 x1)
      (Read.val_main_v59 (F := Ideal)) zero_v59 (Read.val_main_v57 (F := Ideal) x1) _ (norm_v57 x1))

/-- Layer 2: clamped below at zero. -/
theorem out_2 :
    toMat (N := 50000) (C := 128) (Read.val_main_v65 (F := Ideal) x0 x1 x2 x3 x4 x5)
      = relu (addBias (sumCoefRows (edgesInto 50000 (Read.val_main_v6 (F := Ideal) x1)) (nodeAt (N := 50000) (by decide) (Read.val_main_v3 (F := Ideal) x1)) (edgeCoef (toVec (N := 50000) (Read.val_main_v14 (F := Ideal) x1)) (nodeAt (N := 50000) (by decide) (Read.val_main_v3 (F := Ideal) x1)) (nodeAt (N := 50000) (by decide) (Read.val_main_v6 (F := Ideal) x1))) (mm (toMat (N := 50000) (C := 256) (Read.val_main_v47 (F := Ideal) x0 x1 x2 x3)) (toMat (N := 256) (C := 128) x4))) (toVec (N := 128) x5)) := by
  unfold Read.val_main_v65
  exact (relu_toMat _ _ zero_call2_v0).trans (congrArg relu (pre_2 x0 x1 x2 x3 x4 x5))

/-- Layer 3 before the clamp: the aggregation of `h · w` plus the bias row. -/
theorem pre_3 :
    toMat (N := 50000) (C := 64) (Read.val_main_v82 (F := Ideal) x0 x1 x2 x3 x4 x5 x6 x7)
      = addBias (sumCoefRows (edgesInto 50000 (Read.val_main_v6 (F := Ideal) x1)) (nodeAt (N := 50000) (by decide) (Read.val_main_v3 (F := Ideal) x1)) (edgeCoef (toVec (N := 50000) (Read.val_main_v14 (F := Ideal) x1)) (nodeAt (N := 50000) (by decide) (Read.val_main_v3 (F := Ideal) x1)) (nodeAt (N := 50000) (by decide) (Read.val_main_v6 (F := Ideal) x1))) (mm (toMat (N := 50000) (C := 128) (Read.val_main_v65 (F := Ideal) x0 x1 x2 x3 x4 x5)) (toMat (N := 128) (C := 64) x6))) (toVec (N := 64) x7) := by
  unfold Read.val_main_v82
  refine (addBias_toMat _ _ _ (bias_v81 x7)).trans ?_
  unfold Read.val_main_v79 Read.val_main_v76 Read.val_main_v73 Read.val_main_v66
  exact congrArg (fun a => addBias a (toVec (N := 64) x7))
    (aggregate_toMat (N := 50000) (R := 850000) (Ci := 128) (C := 64) (by decide) _ _ _ rfl none (Read.val_main_v65 (F := Ideal) x0 x1 x2 x3 x4 x5) x6
      (Read.val_main_v3 (F := Ideal) x1) (Read.val_main_v6 (F := Ideal) x1) (Read.val_main_v72 (F := Ideal) x1) (wrapcol_v72 x1) (Read.val_main_v78 (F := Ideal) x1) (dstcol_v78 x1)
      (Read.val_main_v77 (F := Ideal)) zero_v77 (Read.val_main_v75 (F := Ideal) x1) _ (norm_v75 x1))

/-- Layer 3: clamped below at zero. -/
theorem out_3 :
    toMat (N := 50000) (C := 64) (Read.val_main_v83 (F := Ideal) x0 x1 x2 x3 x4 x5 x6 x7)
      = relu (addBias (sumCoefRows (edgesInto 50000 (Read.val_main_v6 (F := Ideal) x1)) (nodeAt (N := 50000) (by decide) (Read.val_main_v3 (F := Ideal) x1)) (edgeCoef (toVec (N := 50000) (Read.val_main_v14 (F := Ideal) x1)) (nodeAt (N := 50000) (by decide) (Read.val_main_v3 (F := Ideal) x1)) (nodeAt (N := 50000) (by decide) (Read.val_main_v6 (F := Ideal) x1))) (mm (toMat (N := 50000) (C := 128) (Read.val_main_v65 (F := Ideal) x0 x1 x2 x3 x4 x5)) (toMat (N := 128) (C := 64) x6))) (toVec (N := 64) x7)) := by
  unfold Read.val_main_v83
  exact (relu_toMat _ _ zero_call3_v0).trans (congrArg relu (pre_3 x0 x1 x2 x3 x4 x5 x6 x7))

/-- Layer 4 before the clamp: the aggregation of `h · w` plus the bias row. -/
theorem pre_4 :
    toMat (N := 50000) (C := 40) (Read.val_main_v100 (F := Ideal) x0 x1 x2 x3 x4 x5 x6 x7 x8 x9)
      = addBias (sumCoefRows (edgesInto 50000 (Read.val_main_v6 (F := Ideal) x1)) (nodeAt (N := 50000) (by decide) (Read.val_main_v3 (F := Ideal) x1)) (edgeCoef (toVec (N := 50000) (Read.val_main_v14 (F := Ideal) x1)) (nodeAt (N := 50000) (by decide) (Read.val_main_v3 (F := Ideal) x1)) (nodeAt (N := 50000) (by decide) (Read.val_main_v6 (F := Ideal) x1))) (mm (toMat (N := 50000) (C := 64) (Read.val_main_v83 (F := Ideal) x0 x1 x2 x3 x4 x5 x6 x7)) (toMat (N := 64) (C := 40) x8))) (toVec (N := 40) x9) := by
  unfold Read.val_main_v100
  refine (addBias_toMat _ _ _ (bias_v99 x9)).trans ?_
  unfold Read.val_main_v97 Read.val_main_v94 Read.val_main_v91 Read.val_main_v84
  exact congrArg (fun a => addBias a (toVec (N := 40) x9))
    (aggregate_toMat (N := 50000) (R := 850000) (Ci := 64) (C := 40) (by decide) _ _ _ rfl none (Read.val_main_v83 (F := Ideal) x0 x1 x2 x3 x4 x5 x6 x7) x8
      (Read.val_main_v3 (F := Ideal) x1) (Read.val_main_v6 (F := Ideal) x1) (Read.val_main_v90 (F := Ideal) x1) (wrapcol_v90 x1) (Read.val_main_v96 (F := Ideal) x1) (dstcol_v96 x1)
      (Read.val_main_v95 (F := Ideal)) zero_v95 (Read.val_main_v93 (F := Ideal) x1) _ (norm_v93 x1))

end Reference

/-- THE REFERENCE'S RESULT is the four layers with edge coefficients. -/
theorem ref_value (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal))
    (x8 : (⟨S64x40, .f32⟩ : BufTy).Contents (Elt Ideal)) (x9 : (⟨S40, .f32⟩ : BufTy).Contents (Elt Ideal)) :
    toMat (N := 50000) (C := 40) (Read.val_main_v100 (F := Ideal) x0 x1 x2 x3 x4 x5 x6 x7 x8 x9)
      = edgeScaled (edgesInto 50000 (Read.val_main_v6 (F := Ideal) x1))
          (nodeAt (N := 50000) (by decide) (Read.val_main_v3 (F := Ideal) x1))
          (edgeCoef (toVec (N := 50000) (Read.val_main_v14 (F := Ideal) x1))
            (nodeAt (N := 50000) (by decide) (Read.val_main_v3 (F := Ideal) x1))
            (nodeAt (N := 50000) (by decide) (Read.val_main_v6 (F := Ideal) x1)))
          (toMat (N := 50000) (C := 128) x0) (toMat (N := 128) (C := 256) x2) (toVec (N := 256) x3)
          (toMat (N := 256) (C := 128) x4) (toVec (N := 128) x5) (toMat (N := 128) (C := 64) x6) (toVec (N := 64) x7)
          (toMat (N := 64) (C := 40) x8) (toVec (N := 40) x9) := by
  rw [pre_4 x0 x1 x2 x3 x4 x5 x6 x7 x8 x9, out_3 x0 x1 x2 x3 x4 x5 x6 x7, out_2 x0 x1 x2 x3 x4 x5, out_1 x0 x1 x2 x3]
  rfl

end Cert.ReferenceIdeal.RefValue

end
-- ==== Proof.Weights.lean ====
/-
  The node weights are real numbers.

  A node's weight is `1 / √deg` where its in-degree `deg` (a count of edges: ones added up into a zero) is positive, and
  zero where the degree is zero.  A count is a nonnegative real; the reciprocal square root of a positive real is a
  real; so every weight is a real number, whatever the edge list holds.
-/
import proofs.«171012_j1348619731442_2_alg».proof.Proof.RefRead
import proofs.«171012_j1348619731442_2_alg».proof.Proof.LibFinite
import proofs.«171012_j1348619731442_2_alg».proof.Proof.LibLayerLaw

noncomputable section

namespace Cert.ReferenceIdeal.Weights

open Cert.ReferenceIdeal Cert.ReferenceIdeal.Gen Cert.Gcn Cert.Finite
open Idealize.ShloMosaic Idealize.ShloMosaic.TcCoe Idealize.SL.Sem Idealize.ShloMosaic.ValueIdx

/-- The guarded reciprocal square root of a real is a real: `1 / √a` where `a > 0`, zero elsewhere. -/
theorem select_rsqrt_isReal (a : EReal) (ha : IsReal a) :
    IsReal (Scalar.select (Ideal.cmp .ogt a (Ideal.ofBits .f32 0x00000000#32)) (Ideal.rsqrt a)
      (Ideal.ofBits .f32 0x00000000#32)) := by
  obtain ⟨r, rfl⟩ := ha
  rw [Ideal.ofBits_zero_f32]
  show IsReal (if BitVec.ofBool (decide ((0 : EReal) < (r : EReal))) = 1 then Ideal.rsqrt (r : EReal) else 0)
  by_cases hr : 0 < r
  · have h1 : decide ((0 : EReal) < (r : EReal)) = true := decide_eq_true (by exact_mod_cast hr)
    rw [h1, if_pos (by decide : BitVec.ofBool true = 1), Ideal.rsqrt_coe, if_neg (not_lt.mpr hr.le), if_neg hr.ne']
    exact isReal_coe _
  · have h1 : decide ((0 : EReal) < (r : EReal)) = false := decide_eq_false (by exact_mod_cast hr)
    rw [h1, if_neg (by decide)]
    exact isReal_zero

/-- A node's in-degree, a sum of ones into a zero, is a real number. -/
theorem degree_isReal (x1 : (⟨S2x800000, .i32⟩ : BufTy).Contents (Elt Ideal)) (i : S50000.Idx) :
    IsReal (Read.val_main_v10 (F := Ideal) x1 i) := by
  unfold Read.val_main_v10
  refine scatterAdd_isReal _ _ _ _ (fun i => ?_) (fun j => ?_) i
  · rw [Read.val_main_v8_apply, Read.val_main_cst_0_apply]; exact isReal_ofBits_zero_f32
  · rw [Read.val_main_v7_apply, Read.val_main_cst_apply]; exact isReal_ofBits_one_f32

/-- Every node weight is real. -/
theorem dinv_entry_isReal (x1 : (⟨S2x800000, .i32⟩ : BufTy).Contents (Elt Ideal)) (i : S50000.Idx) :
    IsReal (Read.val_main_v14 (F := Ideal) x1 i) := by
  have e11 : Read.val_main_v11 (F := Ideal) i = Ideal.ofBits .f32 0x00000000#32 :=
    (Read.val_main_v11_apply i).trans (Read.val_main_cst_1_apply _)
  have e01 : Read.val_main_call0_v1 (F := Ideal) i = Ideal.ofBits .f32 0x00000000#32 :=
    (Read.val_main_call0_v1_apply i).trans ((Read.val_main_call0_v0_apply _).trans (Read.val_main_cst_2_apply _))
  rw [Read.val_main_v14_apply x1 i, Read.val_main_v12_apply x1 i, Read.val_main_v13_apply x1 i, e11, e01]
  have hX := degree_isReal x1 i
  generalize Read.val_main_v10 (F := Ideal) x1 i = a at hX ⊢
  exact select_rsqrt_isReal a hX

/-- THE NODE WEIGHTS ARE REAL. -/
theorem dinv_real (x1 : (⟨S2x800000, .i32⟩ : BufTy).Contents (Elt Ideal)) :
    RealVec (toVec (N := 50000) (Read.val_main_v14 (F := Ideal) x1)) :=
  fun n => dinv_entry_isReal x1 (ix1 n)

end Cert.ReferenceIdeal.Weights

end
-- ==== Proof.LibFiniteInputs.lean ====
/-
  What a finite-inputs precondition gives.

  A test "every entry x of the array has |x| < +∞" is computed as a reduction by "and", over all the array's axes,
  of the entrywise comparison of |x| = max x (-x) with the pattern of +∞. Over the extended reals |x| is +∞ at both
  infinities and nowhere else, so the comparison holds at an entry exactly when the entry is a real number; and a
  reduction by "and" into a single value that comes out true had a true at every entry. Hence: every entry of an
  array whose all-entries test |x| < +∞ holds is a real number. A conjunction of several such tests, computed as a
  pointwise "and" of one-entry arrays, holds only when each of them does.
-/
import Mathlib
import Idealize.ShloMosaic.Lib.ReduceAll
import Idealize.ShloMosaic.Lib.ValueIdx
import Idealize.ShloMosaic.PureOps.Ideal
import proofs.«171012_j1348619731442_2_alg».proof.Proof.LibFinite

noncomputable section

namespace Cert.Lib.FiniteInputs

open Idealize.ShloMosaic Idealize.ShloMosaic.ValueIdx
open Cert.Finite

/-- The shape with no axes has one index. -/
instance subsingleton_scalar_idx : Subsingleton (⟨0, ![]⟩ : Shape).Idx := ⟨fun a b => funext fun d => d.elim0⟩

/-- The single-precision pattern 0x7F800000 (sign zero, exponent field all ones, fraction zero) denotes +∞. -/
theorem ofBits_inf : Ideal.ofBits .f32 0x7F800000#32 = (⊤ : EReal) := by
  simp [Ideal.ofBits, Ideal.ieee]

/-- An extended real whose absolute value max x (-x) is strictly below +∞ is a real number: at either infinity the
    absolute value is +∞ itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One all-entries test, over an array of any shape: if the reduction by "and", over all the axes, of the entrywise
    comparison |x| < +∞ is true, every entry of the array is a real number. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ix0 = 1#1)
    (i : s.Idx) : IsReal (x i) :=
  isReal_of_abs_lt_inf (x i) (Host.reduce_andi_all _ _ hr hu ix0 e i)

/-- A pointwise "and" of two one-entry arrays is true only when both are. -/
theorem and_scalar (A B : IVec (⟨0, ![]⟩ : Shape) 1) (h : andi A B ix0 = 1#1) : A ix0 = 1#1 ∧ B ix0 = 1#1 :=
  IntOp.andi_eq_one.1 h

end Cert.Lib.FiniteInputs

end
-- ==== Proof.Inputs.lean ====
/-
  The precondition read: every float argument array holds real numbers.

  The precondition is a conjunction, one conjunct per float argument, of the test "every entry x has |x| < +∞",
  evaluated to a single truth value that is required to be true.  Each conjunct true means every entry of that array is
  a real number (neither infinity), which is what the distributive law over the graph's edges needs.
-/
import proofs.«171012_j1348619731442_2_alg».proof.Pre_finite_inputs
import proofs.«171012_j1348619731442_2_alg».proof.Proof.LibFiniteInputs
import proofs.«171012_j1348619731442_2_alg».proof.Proof.LibLayerLaw

noncomputable section

namespace Cert.Inputs

open Idealize.ShloMosaic Idealize.ShloMosaic.ValueIdx Cert.Finite Cert.Lib.FiniteInputs Cert.Pre_finite_inputs Cert.Gcn

variable [hF : Cert.Pre_finite_inputs.Facts]

/-- All nine float arguments are real-valued when the precondition's value is true. -/
theorem real_of_pre (a0 : FVec Ideal S50000x128 .f32) (a1 : IVec S2x800000 32) (a2 : FVec Ideal S128x256 .f32)
    (a3 : FVec Ideal S256 .f32) (a4 : FVec Ideal S256x128 .f32) (a5 : FVec Ideal S128 .f32) (a6 : FVec Ideal S128x64 .f32)
    (a7 : FVec Ideal S64 .f32) (a8 : FVec Ideal S64x40 .f32) (a9 : FVec Ideal S40 .f32)
    (h : Cert.Pre_finite_inputs.fn (F := Ideal) a0 a1 a2 a3 a4 a5 a6 a7 a8 a9 = fun _ => 1#1) :
    (∀ i, IsReal (a0 i)) ∧ (∀ i, IsReal (a2 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) ∧ (∀ i, IsReal (a9 i)) := by
  have h0 := congrFun h ix0
  dsimp only [Cert.Pre_finite_inputs.fn, Cert.Pre_finite_inputs.fn_part1, Cert.Pre_finite_inputs.fn_part2] at h0
  obtain ⟨h0, e9⟩ := and_scalar _ _ h0
  obtain ⟨h0, e8⟩ := and_scalar _ _ h0
  obtain ⟨h0, e7⟩ := and_scalar _ _ h0
  obtain ⟨h0, e6⟩ := and_scalar _ _ h0
  obtain ⟨h0, e5⟩ := and_scalar _ _ h0
  obtain ⟨h0, e4⟩ := and_scalar _ _ h0
  obtain ⟨h0, e3⟩ := and_scalar _ _ h0
  obtain ⟨e0, e2⟩ := and_scalar _ _ h0
  exact ⟨all_real a0 _ _ _ e0, all_real a2 _ _ _ e2, all_real a3 _ _ _ e3, all_real a4 _ _ _ e4, all_real a5 _ _ _ e5,
    all_real a6 _ _ _ e6, all_real a7 _ _ _ e7, all_real a8 _ _ _ e8, all_real a9 _ _ _ e9⟩

/-- A real-valued two-axis array is a real matrix. -/
theorem realMat_of {N C : Nat} (a : (⟨2, ![N, C]⟩ : Shape).Idx → EReal) (h : ∀ i, IsReal (a i)) : RealMat (toMat a) :=
  fun n k => h (ix2 n k)

/-- A real-valued one-axis array is a real vector. -/
theorem realVec_of {N : Nat} (a : (⟨1, ![N]⟩ : Shape).Idx → EReal) (h : ∀ i, IsReal (a i)) : RealVec (toVec a) :=
  fun n => h (ix1 n)

end Cert.Inputs

end
-- ==== Proof.Bridge.lean ====
/-
  The two idealized programs compute the same matrix.

  From memories that agree on the arguments, the kernel's program ends with its result at the four layers computed the
  node-scaling way, the reference with its result at the same four layers computed with the edge coefficients; the edge
  list, the node weights, the features, the weights and the biases the two read are the same; and under the
  precondition every number in sight is real, so the two ways agree.
-/
import proofs.«171012_j1348619731442_2_alg».proof.Defs
import proofs.«171012_j1348619731442_2_alg».proof.Proof.KernelRun
import proofs.«171012_j1348619731442_2_alg».proof.Proof.KernelValue
import proofs.«171012_j1348619731442_2_alg».proof.Proof.Entry
import proofs.«171012_j1348619731442_2_alg».proof.Proof.EntryWeights
import proofs.«171012_j1348619731442_2_alg».proof.Proof.RefValue
import proofs.«171012_j1348619731442_2_alg».proof.Proof.Weights
import proofs.«171012_j1348619731442_2_alg».proof.Proof.Inputs
import proofs.«171012_j1348619731442_2_alg».proof.Proof.Gen.Pre_finite_inputs
import proofs.«171012_j1348619731442_2_alg».proof.Proof.Gen.KernelIdeal
import proofs.«171012_j1348619731442_2_alg».proof.Proof.Gen.ReferenceIdeal

set_option maxRecDepth 16384

noncomputable section

namespace Cert.Bridge

open Idealize.ShloMosaic Idealize.ShloMosaic.TcCoe Idealize.SL.Sem Idealize.ShloMosaic.ValueIdx
open Cert.Gcn Cert.Graph Cert.Finite

/-- A two-axis array is determined by its matrix. -/
theorem toMat_injective {N C : Nat} (a b : (⟨2, ![N, C]⟩ : Shape).Idx → EReal) (h : toMat a = toMat b) : a = b := by
  funext i
  obtain ⟨n, k, rfl⟩ : ∃ (n : Fin N) (k : Fin C), i = ix2 n k := ⟨i 0, i 1, eq_ix2 i⟩
  exact congrFun (congrFun h n) k

set_option maxHeartbeats 4000000 in
/-- THE RESULTS AGREE: the reference's result term, at arguments equal to the kernel's, is what the kernel's program
    leaves in its result buffer. -/
theorem results_agree (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.ReferenceIdeal.Read.val_main_v100 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.Gen.W12 m ρ c (Proc.devRef .tc Cert.KernelIdeal.main_v72) := by
  obtain ⟨h0, h2, h3, h4, h5, h6, h7, h8, h9⟩ := Cert.Inputs.real_of_pre _ _ _ _ _ _ _ _ _ _ (hpre c)
  refine toMat_injective (N := 50000) (C := 40) _ _ ?_
  rw [Cert.ReferenceIdeal.RefValue.ref_value, Cert.KernelIdeal.KernelValue.result_eq m ρ c,
    Cert.Entry.entry_dst m ρ c, Cert.Entry.entry_src m ρ c, Cert.EntryWeights.entry_dinv m ρ c, Cert.Entry.entry_arg0 m ρ c,
    Cert.Entry.entry_v16 m ρ c, Cert.Entry.entry_v17 m ρ c, Cert.Entry.entry_v18 m ρ c, Cert.Entry.entry_v19 m ρ c,
    Cert.Entry.entry_v20 m ρ c, Cert.Entry.entry_v21 m ρ c, Cert.Entry.entry_v22 m ρ c, Cert.Entry.entry_v23 m ρ c]
  refine (nodeScaled_eq_edgeScaled _ _ _ _ _ _ _ _ _ _ _ _ _
    (fun n e he => nodeAt_of_mem (by decide) _ n e he)
    (Cert.ReferenceIdeal.Weights.dinv_real _)
    (Cert.Inputs.realMat_of _ h0) (Cert.Inputs.realMat_of _ h2) (Cert.Inputs.realVec_of _ h3)
    (Cert.Inputs.realMat_of _ h4) (Cert.Inputs.realVec_of _ h5) (Cert.Inputs.realMat_of _ h6) (Cert.Inputs.realVec_of _ h7)
    (Cert.Inputs.realMat_of _ h8)).symm

/-- `algebraic`: both programs run, and end with equal results and unchanged arguments. -/
theorem algebraic : Cert.algebraic_KernelIdeal_ReferenceIdeal := by
  intro m ρ m' ρ' hpre hagree
  refine ⟨fun c => Cert.KernelIdeal.Gen.W12 m ρ c (Proc.devRef .tc Cert.KernelIdeal.main_v72),
    Cert.KernelIdeal.GenP.run_main (F := Ideal) m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v100_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2]
  exact results_agree m ρ hpre c

end Cert.Bridge

end
-- ==== Proof.lean ====
/-
  The certificate of a four-layer graph convolution: a tiled kernel program against its plain reference.

  WHAT IS CLAIMED.  Three frames (each program, from any memory satisfying the precondition, terminates without a
  fault and leaves its argument arrays unchanged), `preserves` (the idealized kernel program is the kernel program's
  own text read over the extended reals: no operation was rewritten, so there is nothing to state), and `algebraic`
  (from memories that agree on the arguments the two idealized programs end with equal results).

  THE MATHEMATICS.  Each layer multiplies the node features by a weight matrix and, for every node, adds up over the
  edges into it the source node's row times `d(source) · d(target)`, `d` the inverse square root of the in-degree; then
  a bias and, for the first three layers, a clamp at zero.  The reference multiplies every gathered row by its edge's
  coefficient.  The kernel scales row `n` of the product by `d n` BEFORE the gather (in the dense stage's epilogue),
  adds the gathered rows up unscaled, and scales the sum at node `n` by `d n` AFTER it (in the next dense stage's
  prologue, fused with the bias and the clamp).  The two agree because a real factor distributes over a finite sum of
  reals, and on the edges that a scatter sends to node `n` the target index read back by a gather is `n` itself.
  The precondition makes every argument real; the node weights are real whatever the edge list holds; sums, products
  and maxima keep reals real; so the law applies at each of the four layers (Proof/LibLayerLaw.lean).

  THE PLUMBING.  The kernel program's run with its result buffer kept (Proof/KernelRun.lean), each dense stage's output
  array as a function of its input arrays (Proof/RegionEnds.lean, Proof/RegionFused*.lean), each aggregation step as a
  function of what it finds (Proof/LibGatherScatter.lean, Proof/HostAgg.lean), what stays untouched between stages
  (Proof/Keep.lean), what the buffers hold at the first stage's entry (Proof/Entry.lean, Proof/EntryWeights.lean), chained
  in Proof/KernelValue.lean; the reference's run and its stages read at an index (Proof/RefRun.lean, Proof/RefRead.lean,
  Proof/RefValue.lean); the precondition read (Proof/Inputs.lean); the node weights real (Proof/Weights.lean); the two
  results joined (Proof/Bridge.lean).
-/
import proofs.«171012_j1348619731442_2_alg».proof.Defs
import proofs.«171012_j1348619731442_2_alg».proof.Proof.Gen.Kernel
import proofs.«171012_j1348619731442_2_alg».proof.Proof.Gen.Kernel.Skeleton
import proofs.«171012_j1348619731442_2_alg».proof.Proof.Gen.Kernel.Launch
import proofs.«171012_j1348619731442_2_alg».proof.Proof.Gen.Kernel.Points
import proofs.«171012_j1348619731442_2_alg».proof.Proof.Gen.Kernel.Frame
import proofs.«171012_j1348619731442_2_alg».proof.Proof.Gen.KernelIdeal
import proofs.«171012_j1348619731442_2_alg».proof.Proof.Gen.KernelIdeal.Skeleton
import proofs.«171012_j1348619731442_2_alg».proof.Proof.Gen.KernelIdeal.Launch
import proofs.«171012_j1348619731442_2_alg».proof.Proof.Gen.KernelIdeal.Points
import proofs.«171012_j1348619731442_2_alg».proof.Proof.Gen.KernelIdeal.Frame
import proofs.«171012_j1348619731442_2_alg».proof.Proof.Gen.ReferenceIdeal
import proofs.«171012_j1348619731442_2_alg».proof.Proof.Gen.Pre_finite_inputs
import proofs.«171012_j1348619731442_2_alg».proof.Proof.RefRun
import proofs.«171012_j1348619731442_2_alg».proof.Proof.Bridge
import Idealize.ShloMosaic.Adequacy
import Idealize.ShloMosaic.Init

noncomputable section

namespace Cert.Proof

open Idealize.ShloMosaic Idealize.SL.Sem Cert.Kernel

/-- The kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Bridge.algebraic⟩

end Cert.Proof

end
